-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v2_0)) (v1 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2_0) = v0 c
          ∧ r.2.mem ((c.tc : Thread Cert.KernelIdeal.nD Cert.KernelIdeal.τ).loc Cert.KernelIdeal.main_v3) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_v17) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S_ : Shape := ⟨0, ![]⟩

class Facts : Prop where
  bcast_S_S32x1024 : S_.BroadcastsInDim S32x1024 (![] : Fin 0 → Fin S32x1024.rank)
  reducesTo_S32x1024_S_d0_1 : S32x1024.ReducesTo [0, 1] S_
  h_S_ : 0 < S_.numel
  bcast_S_S32x2048x1024 : S_.BroadcastsInDim S32x2048x1024 (![] : Fin 0 → Fin S32x2048x1024.rank)
  reducesTo_S32x2048x1024_S_d0_1_2 : S32x2048x1024.ReducesTo [0, 1, 2] S_
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part1 {F : FTy → Type} [FloatOps F] (main_v13 : IVec S_ 1) (main_v16 : IVec S1024 1) : IVec S_ 1 :=
  let main_c_5 : IVec S_ 1 := constantI S_ 1 1#1
  let main_v17 : IVec S_ 1 := (fun x v => Host.reduce IntOp.andi x v reducesTo_S1024_S_d0 h_S_) main_v16 main_c_5
  let main_v18 : IVec S_ 1 := andi main_v13 main_v17
  main_v18

def fn {F : FTy → Type} [FloatOps F] (main_arg0 : FVec F S32x1024 .f32) (main_arg1 : FVec F S32x2048x1024 .f32) (main_arg2 : FVec F S1024x1024 .f32) (main_arg3 : FVec F S1024 .f32) : IVec S_ 1 :=
  let main_v0 : FVec F S32x1024 .f32 := Host.absf main_arg0
  let main_cst : FVec F S_ .f32 := constant S_ .f32 0x7F800000#32
  let main_v1 : FVec F S32x1024 .f32 := broadcastInDim S32x1024 ![] bcast_S_S32x1024 main_cst
  let main_v2 : IVec S32x1024 1 := cmpf .olt main_v0 main_v1
  let main_c : IVec S_ 1 := constantI S_ 1 1#1
  let main_v3 : IVec S_ 1 := (fun x v => Host.reduce IntOp.andi x v reducesTo_S32x1024_S_d0_1 h_S_) main_v2 main_c
  let main_v4 : FVec F S32x2048x1024 .f32 := Host.absf main_arg1
  let main_cst_0 : FVec F S_ .f32 := constant S_ .f32 0x7F800000#32
  let main_v5 : FVec F S32x2048x1024 .f32 := broadcastInDim S32x2048x1024 ![] bcast_S_S32x2048x1024 main_cst_0
  let main_v6 : IVec S32x2048x1024 1 := cmpf .olt main_v4 main_v5
  let main_c_1 : IVec S_ 1 := constantI S_ 1 1#1
  let main_v7 : IVec S_ 1 := (fun x v => Host.reduce IntOp.andi x v reducesTo_S32x2048x1024_S_d0_1_2 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024 .f32 := Host.absf main_arg3
  let main_cst_4 : FVec F S_ .f32 := constant S_ .f32 0x7F800000#32
  let main_v15 : FVec F S1024 .f32 := broadcastInDim S1024 ![] bcast_S_S1024 main_cst_4
  let main_v16 : IVec S1024 1 := cmpf .olt main_v14 main_v15
  fn_part1 (F := F) main_v13 main_v16
-- ==== Kernel.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S1x1024 : Shape := ⟨2, ![1, 1024]⟩
abbrev S32x1x1024 : Shape := ⟨3, ![32, 1, 1024]⟩
abbrev S16x1x1024 : Shape := ⟨3, ![16, 1, 1024]⟩
abbrev S16x64x1024 : Shape := ⟨3, ![16, 64, 1024]⟩
abbrev S16x1024 : Shape := ⟨2, ![16, 1024]⟩

abbrev nBuf : Space → Nat
  | .hbm => 9
  | .vmem => 23
  | .smem => 0
  | _ => 0

abbrev bufTy : (tb : Table) → Fin (tcTables nBuf tb) → BufTy
  | .hbm, ⟨0, _⟩ => ⟨S32x1024, .f32⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S32x1024, .f32⟩
  | .hbm, ⟨5, _⟩ => ⟨S32x1x1024, .f32⟩
  | .hbm, ⟨6, _⟩ => ⟨S32x1024, .f32⟩
  | .hbm, ⟨7, _⟩ => ⟨S32x1024, .f32⟩
  | .hbm, ⟨8, _⟩ => ⟨S32x2048x1024, .f32⟩
  | .local _ .vmem, ⟨0, _⟩ => ⟨S32x1024, .f32⟩
  | .local _ .vmem, ⟨1, _⟩ => ⟨S1024x1024, .f32⟩
  | .local _ .vmem, ⟨2, _⟩ => ⟨S1024, .f32⟩
  | .local _ .vmem, ⟨3, _⟩ => ⟨S32x1024, .f32⟩
  | .local _ .vmem, ⟨4, _⟩ => ⟨S16x1x1024, .f32⟩
  | .local _ .vmem, ⟨5, _⟩ => ⟨S16x1x1024, .f32⟩
  | .local _ .vmem, ⟨6, _⟩ => ⟨S16x64x1024, .f32⟩
  | .local _ .vmem, ⟨7, _⟩ => ⟨S16x64x1024, .f32⟩
  | .local _ .vmem, ⟨8, _⟩ => ⟨S16x1024, .f32⟩
  | .local _ .vmem, ⟨9, _⟩ => ⟨S16x1024, .f32⟩
  | .local _ .vmem, ⟨10, _⟩ => ⟨S16x1024, .f32⟩
  | .local _ .vmem, ⟨11, _⟩ => ⟨S16x1024, .f32⟩
  | .local _ .vmem, ⟨12, _⟩ => ⟨S16x1024, .f32⟩
  | .local _ .vmem, ⟨13, _⟩ => ⟨S16x1024, .f32⟩
  | .local _ .vmem, ⟨14, _⟩ => ⟨S16x1024, .f32⟩
  | .local _ .vmem, ⟨15, _⟩ => ⟨S16x1x1024, .f32⟩
  | .local _ .vmem, ⟨16, _⟩ => ⟨S16x1x1024, .f32⟩
  | .local _ .vmem, ⟨17, _⟩ => ⟨S16x64x1024, .f32⟩
  | .local _ .vmem, ⟨18, _⟩ => ⟨S16x64x1024, .f32⟩
  | .local _ .vmem, ⟨19, _⟩ => ⟨S16x1024, .f32⟩
  | .local _ .vmem, ⟨20, _⟩ => ⟨S16x1024, .f32⟩
  | .local _ .vmem, ⟨21, _⟩ => ⟨S16x64x1024, .f32⟩
  | .local _ .vmem, ⟨22, _⟩ => ⟨S16x64x1024, .f32⟩
  | _, _ => ⟨S32x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2_0 : Ref sig .tc := ⟨.hbm, 6, rfl⟩
abbrev main_v2_1 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc1_stg0_0 : Ref sig .tc := ⟨.vmem, 4, rfl⟩
abbrev cc1_stg0_1 : Ref sig .tc := ⟨.vmem, 5, rfl⟩
abbrev cc1_stg1_0 : Ref sig .tc := ⟨.vmem, 6, rfl⟩
abbrev cc1_stg1_1 : Ref sig .tc := ⟨.vmem, 7, rfl⟩
abbrev cc1_stg2_0 : Ref sig .tc := ⟨.vmem, 8, rfl⟩
abbrev cc1_stg2_1 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc2_stg0_0 : Ref sig .tc := ⟨.vmem, 15, rfl⟩
abbrev cc2_stg0_1 : Ref sig .tc := ⟨.vmem, 16, rfl⟩
abbrev cc2_stg1_0 : Ref sig .tc := ⟨.vmem, 17, rfl⟩
abbrev cc2_stg1_1 : Ref sig .tc := ⟨.vmem, 18, rfl⟩
abbrev cc2_stg2_0 : Ref sig .tc := ⟨.vmem, 19, rfl⟩
abbrev cc2_stg2_1 : Ref sig .tc := ⟨.vmem, 20, rfl⟩
abbrev cc2_stg3_0 : Ref sig .tc := ⟨.vmem, 21, rfl⟩
abbrev cc2_stg3_1 : Ref sig .tc := ⟨.vmem, 22, rfl⟩
abbrev cc0_sem0_0 : DmaSem sig := 0
abbrev cc0_sem1_0 : DmaSem sig := 1
abbrev cc0_sem2_0 : DmaSem sig := 2
abbrev cc0_sem3_0 : DmaSem sig := 3
abbrev cc1_sem0_0 : DmaSem sig := 4
abbrev cc1_sem0_1 : DmaSem sig := 5
abbrev cc1_sem1_0 : DmaSem sig := 6
abbrev cc1_sem1_1 : DmaSem sig := 7
abbrev cc1_sem2_0 : DmaSem sig := 8
abbrev cc1_sem2_1 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc2_sem3_0 : DmaSem sig := 18
abbrev cc2_sem3_1 : DmaSem sig := 19

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S32x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S32x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev grid1 : Pipeline.Grid := ⟨2, ![2, 32], ![false, false]⟩

def k1_cond2 (i : grid1.Coords) : BitVec 1 :=
  let arg1 : BitVec 32 := BitVec.ofNat 32 (i 1).val
  let c31_i32 : BitVec 32 := 31#32
  let v39 : BitVec 1 := Scalar.cmpi .eq arg1 c31_i32
  let v40 : BitVec 32 := Scalar.extui v39
  let c0_i32_20 : BitVec 32 := 0#32
  let v41 : BitVec 1 := Scalar.cmpi .ne v40 c0_i32_20
  v41

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage1_0 : Fin 2 → Memref sig .tc .vmem S16x1x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S16x64x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S16x1024 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false]

abbrev stage1_3 : Fin 2 → Memref sig .tc .vmem S16x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

abbrev grid2 : Pipeline.Grid := ⟨2, ![2, 32], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc2_transform_1 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S16x1x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S16x64x1024 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true, true]

abbrev stage2_2 : Fin 2 → Memref sig .tc .vmem S16x1024 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, false]

abbrev stage2_3 : Fin 2 → Memref sig .tc .vmem S16x64x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  inb_S32x1024_S32x1024_0_0 : ∀ a, (![0, 0] : Fin 2 → Nat) a + S32x1024.size a ≤ S32x1024.size a
  h_S32x1024 : 0 < S32x1024.numel
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1024_S1024_0 : ∀ a, (![0] : Fin 1 → Nat) a + S1024.size a ≤ S1024.size a
  h_S1024 : 0 < S1024.numel
  shapeCasts_S1024_S1x1024 : S1024.ShapeCasts S1x1024
  broadcasts_S1x1024_S32x1024 : S1x1024.Broadcasts S32x1024
  bcast_S32x1024_S32x1x1024_0_2 : S32x1024.BroadcastsInDim S32x1x1024 (![0, 2] : Fin 2 → Fin S32x1x1024.rank)
  inb_S16x1024_S16x1024_0_0 : ∀ a, (![0, 0] : Fin 2 → Nat) a + S16x1024.size a ≤ S16x1024.size a
  h_S16x1024 : 0 < S16x1024.numel
  shapeCasts_S16x1024_S16x1024 : S16x1024.ShapeCasts S16x1024
  inb_S16x64x1024_S16x64x1024_0_0_0 : ∀ a, (![0, 0, 0] : Fin 3 → Nat) a + S16x64x1024.size a ≤ S16x64x1024.size a
  h_S16x64x1024 : 0 < S16x64x1024.numel
  inb_S16x1x1024_S16x1x1024_0_0_0 : ∀ a, (![0, 0, 0] : Fin 3 → Nat) a + S16x1x1024.size a ≤ S16x1x1024.size a
  h_S16x1x1024 : 0 < S16x1x1024.numel
  shapeCasts_S16x1x1024_S16x1x1024 : S16x1x1024.ShapeCasts S16x1x1024
  broadcasts_S16x1x1024_S16x64x1024 : S16x1x1024.Broadcasts S16x64x1024
  reduces_S16x64x1024_S16x1024 : S16x64x1024.Reduces [1] S16x1024
  shapeCasts_S16x1024_S16x1x1024 : S16x1024.ShapeCasts S16x1x1024
  shapeCasts_S16x1x1024_S16x1024 : S16x1x1024.ShapeCasts S16x1024
  dot_S32x1024_S1024x1024_S32x1024_1_0_0_1_n_n_wf : DotDims.WF S32x1024 S1024x1024 S32x1024 [1] [0] [0] [1] [] []
  hrank0 : 0 < grid0.rank
  hstage0_0 : ∀ j, (stage0_0 j).IsWhole
  nbuf0_0 : grid0.bufCount reads0_0 true = 1
  hreads0_0 : ∀ i i' : grid0.Coords, (∀ a, reads0_0 a = true → i a = i' a) → cc0_transform_0 i = cc0_transform_0 i'
  hinb0_0 : ∀ (i : grid0.Coords) a, (cc0_transform_0 i a + 1) * S32x1024.size a ≤ S32x1024.size a
  hwx0_0 : ∀ i : grid0.Coords, EltTy.bits .f32 = 32 ∨ (Rect.block (s := S32x1024) S32x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024.size a ≤ S1024.size a
  hwx0_2 : ∀ i : grid0.Coords, EltTy.bits .f32 = 32 ∨ (Rect.block (s := S1024) S1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x1024.size a ≤ S32x1024.size a
  hwx0_3 : ∀ i : grid0.Coords, EltTy.bits .f32 = 32 ∨ (Rect.block (s := S32x1024) S32x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S16x1x1024.size a ≤ S32x1x1024.size a
  hwx1_0 : ∀ i : grid1.Coords, EltTy.bits .f32 = 32 ∨ (Rect.block (s := S32x1x1024) S16x1x1024.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S16x64x1024.size a ≤ S32x2048x1024.size a
  hwx1_1 : ∀ i : grid1.Coords, EltTy.bits .f32 = 32 ∨ (Rect.block (s := S32x2048x1024) S16x64x1024.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S16x1024.size a ≤ S32x1024.size a
  hwx1_2 : ∀ i : grid1.Coords, EltTy.bits .f32 = 32 ∨ (Rect.block (s := S32x1024) S16x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S16x1024.size a ≤ S32x1024.size a
  hwx1_3 : ∀ i : grid1.Coords, EltTy.bits .f32 = 32 ∨ (Rect.block (s := S32x1024) S16x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S16x1x1024.size a ≤ S32x1x1024.size a
  hwx2_0 : ∀ i : grid2.Coords, EltTy.bits .f32 = 32 ∨ (Rect.block (s := S32x1x1024) S16x1x1024.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S16x64x1024.size a ≤ S32x2048x1024.size a
  hwx2_1 : ∀ i : grid2.Coords, EltTy.bits .f32 = 32 ∨ (Rect.block (s := S32x2048x1024) S16x64x1024.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S16x1024.size a ≤ S32x1024.size a
  hwx2_2 : ∀ i : grid2.Coords, EltTy.bits .f32 = 32 ∨ (Rect.block (s := S32x1024) S16x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S16x64x1024.size a ≤ S32x2048x1024.size a
  hwx2_3 : ∀ i : grid2.Coords, EltTy.bits .f32 = 32 ∨ (Rect.block (s := S32x2048x1024) S16x64x1024.size (cc2_transform_3 i) (hinb2_3 i)).WholeWords (EltTy.packing .f32)

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

abbrev win0_0 : Pipeline.Window sig grid0 :=
  Pipeline.Window.ofSpec (Memref.whole main_arg0) S32x1024.size cc0_transform_0 reads0_0 false true 1 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v0) S32x1024.size cc0_transform_3 reads0_3 true true 1 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v1) S16x1x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg1) S16x64x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2_0) S16x1024.size cc1_transform_2 reads1_2 true false 2 stage1_2 sem1_2
    hrank1 hreads1_2 hinb1_2 nbuf1_2 (Memref.isWhole_whole _) hwx1_2 hstage1_2

abbrev win1_3 : Pipeline.Window sig grid1 :=
  Pipeline.Window.ofSpec (Memref.whole main_v2_1) S16x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun i => !(k1_cond2 i == 1#1) | 3 => fun i => !(k1_cond2 i == 1#1) | ⟨_ + 4, h⟩ => absurd h (Nat.not_lt.2 (Nat.le_add_left _ _))

abbrev win2_0 : Pipeline.Window sig grid2 :=
  Pipeline.Window.ofSpec (Memref.whole main_v1) S16x1x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg1) S16x64x1024.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v2_1) S16x1024.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v3) S16x64x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S32x1024 : Shape := ⟨2, ![32, 1024]⟩
abbrev S32x2048x1024 : Shape := ⟨3, ![32, 2048, 1024]⟩
abbrev S1024x1024 : Shape := ⟨2, ![1024, 1024]⟩
abbrev S1024 : Shape := ⟨1, ![1024]⟩
abbrev S1x1024 : Shape := ⟨2, ![1, 1024]⟩
abbrev S32x1x1024 : Shape := ⟨3, ![32, 1, 1024]⟩
abbrev S_ : Shape := ⟨0, ![]⟩

abbrev nBuf : Space → Nat
  | .hbm => 28
  | .vmem => 0
  | .smem => 0
  | _ => 0

abbrev bufTy : (tb : Table) → Fin (tcTables nBuf tb) → BufTy
  | .hbm, ⟨0, _⟩ => ⟨S32x1024, .f32⟩
  | .hbm, ⟨1, _⟩ => ⟨S32x2048x1024, .f32⟩
  | .hbm, ⟨2, _⟩ => ⟨S1024x1024, .f32⟩
  | .hbm, ⟨3, _⟩ => ⟨S1024, .f32⟩
  | .hbm, ⟨4, _⟩ => ⟨S32x1024, .f32⟩
  | .hbm, ⟨5, _⟩ => ⟨S1x1024, .f32⟩
  | .hbm, ⟨6, _⟩ => ⟨S32x1024, .f32⟩
  | .hbm, ⟨7, _⟩ => ⟨S32x1024, .f32⟩
  | .hbm, ⟨8, _⟩ => ⟨S32x1x1024, .f32⟩
  | .hbm, ⟨9, _⟩ => ⟨S32x2048x1024, .f32⟩
  | .hbm, ⟨10, _⟩ => ⟨S32x2048x1024, .f32⟩
  | .hbm, ⟨11, _⟩ => ⟨S_, .f32⟩
  | .hbm, ⟨12, _⟩ => ⟨S32x1024, .f32⟩
  | .hbm, ⟨13, _⟩ => ⟨S_, .f32⟩
  | .hbm, ⟨14, _⟩ => ⟨S32x1024, .f32⟩
  | .hbm, ⟨15, _⟩ => ⟨S32x1024, .f32⟩
  | .hbm, ⟨16, _⟩ => ⟨S32x1x1024, .f32⟩
  | .hbm, ⟨17, _⟩ => ⟨S32x2048x1024, .f32⟩
  | .hbm, ⟨18, _⟩ => ⟨S32x2048x1024, .f32⟩
  | .hbm, ⟨19, _⟩ => ⟨S32x2048x1024, .f32⟩
  | .hbm, ⟨20, _⟩ => ⟨S_, .f32⟩
  | .hbm, ⟨21, _⟩ => ⟨S32x1024, .f32⟩
  | .hbm, ⟨22, _⟩ => ⟨S32x1x1024, .f32⟩
  | .hbm, ⟨23, _⟩ => ⟨S32x2048x1024, .f32⟩
  | .hbm, ⟨24, _⟩ => ⟨S32x2048x1024, .f32⟩
  | .hbm, ⟨25, _⟩ => ⟨S32x2048x1024, .f32⟩
  | .hbm, ⟨26, _⟩ => ⟨S_, .f32⟩
  | .hbm, ⟨27, _⟩ => ⟨S32x1024, .f32⟩
  | _, _ => ⟨S32x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩
abbrev main_cst_0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_cst_1 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩

abbrev nD : Nat := 1
abbrev τ : Topo := Topo.v7x

variable {F : FTy → Type} [FloatOps F]

class Facts₀ : Prop where
  bcast_S1024_S1x1024_1 : S1024.BroadcastsInDim S1x1024 (![1] : Fin 1 → Fin S1x1024.rank)
  bcast_S1x1024_S32x1024_0_1 : S1x1024.BroadcastsInDim S32x1024 (![0, 1] : Fin 2 → Fin S32x1024.rank)
  bcast_S32x1024_S32x1x1024_0_2 : S32x1024.BroadcastsInDim S32x1x1024 (![0, 2] : Fin 2 → Fin S32x1x1024.rank)
  bcast_S32x1x1024_S32x2048x1024_0_1_2 : S32x1x1024.BroadcastsInDim S32x2048x1024 (![0, 1, 2] : Fin 3 → Fin S32x2048x1024.rank)
  reducesTo_S32x2048x1024_S32x1024_d1 : S32x2048x1024.ReducesTo [1] S32x1024
  h_S_ : 0 < S_.numel
  bcast_S_S32x1024 : S_.BroadcastsInDim S32x1024 (![] : Fin 0 → Fin S32x1024.rank)
  dot_S32x1024_S1024x1024_S32x1024_1_0_0_1_n_n_wf : DotDims.WF S32x1024 S1024x1024 S32x1024 [1] [0] [0] [1] [] []

variable [Facts₀]

def dot_S32x1024_S1024x1024_S32x1024_1_0_0_1_n_n : DotDims S32x1024 S1024x1024 S32x1024 where
  lhsContracting := [1]
  rhsContracting := [0]
  lhsNonContracting := [0]
  rhsNonContracting := [1]
  lhsBatch := []
  rhsBatch := []
  wf := dot_S32x1024_S1024x1024_S32x1024_1_0_0_1_n_n_wf

class Facts : Prop extends Facts₀ where

variable [Facts]
-- ==== Proof.K_R0.lean ====
import proofs.«155699_j19834158973688_2_alg».proof.Proof.Gen.Kernel.Launch
import proofs.«155699_j19834158973688_2_alg».proof.Proof.Gen.Kernel.Skeleton
import proofs.«155699_j19834158973688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 0: the dense projection (one grid point; the whole of H, W and the bias staged, the whole result written back) -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: its current staging buffer holds the window's block at every point, whether the
    point fetched it or kept it from the point before (the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of region 0: its current staging buffer holds the window's block at every point, whether the
    point fetched it or kept it from the point before (the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of region 0: its current staging buffer holds the window's block at every point, whether the
    point fetched it or kept it from the point before (the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S32x1024 := Rect.unit (s := S32x1024) ![0, 0] S32x1024.size inb_S32x1024_S32x1024_0_0
abbrev r0_b : Rect S1024x1024 := Rect.unit (s := S1024x1024) ![0, 0] S1024x1024.size inb_S1024x1024_S1024x1024_0_0
abbrev r0_c : Rect S1024 := Rect.unit (s := S1024) ![0] S1024.size inb_S1024_S1024_0

/-- The result buffer after the body: its one store, of the matrix product plus the bias row, over the three loaded blocks. -/
def out0_3 (x0 : Vec F S32x1024 .f32) (x1 : Vec F S1024x1024 .f32) (x2 : Vec F S1024 .f32) : Vec F S32x1024 .f32 :=
  View.canon [⟨r0_a, k0_pay1 (View.ld x0 r0_a) (View.ld x1 r0_b) (View.ld x2 r0_c)⟩]

theorem cover0_3 (p0 : Vec F S32x1024 .f32) (y : S32x1024.Idx) :
    ∃ pc ∈ ([⟨r0_a, p0⟩] : List (View.Piece (Elt F) S32x1024 .f32)), y ∈ pc.1.set :=
  View.cover_of_tiled [⟨r0_a, p0⟩] S32x1024.size (by rfl) y

set_option maxHeartbeats 1000000 in
/-- The body on whole staging memrefs: the three inputs are left as found, the result buffer ends at `out0_3` of them. -/
theorem sound_kernel0 (c : Dev nD) (E : Set ℕ) (i : grid0.Coords) (arg1 : Memref sig .tc .vmem S32x1024 .f32) (harg1 : arg1.IsWhole) (arg2 : Memref sig .tc .vmem S1024x1024 .f32) (harg2 : arg2.IsWhole)
    (arg3 : Memref sig .tc .vmem S1024 .f32) (harg3 : arg3.IsWhole) (arg4 : Memref sig .tc .vmem S32x1024 .f32) (harg4 : arg4.IsWhole)
    (x0 : Vec F S32x1024 .f32) (x1 : Vec F S1024x1024 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of region 0: the arrays as the region finds them; each input's buffer keeps its block, the result's holds `out0_3` of the blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end

end Cert.Kernel.Fr

end
-- ==== Proof.K_R1s.lean ====
import proofs.«155699_j19834158973688_2_alg».proof.Proof.Gen.Kernel.Launch
import proofs.«155699_j19834158973688_2_alg».proof.Proof.Gen.Kernel.Skeleton
import proofs.«155699_j19834158973688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: the statistics pass (2 × 32 grid points; a running maximum, denominator and numerator kept in three
    scratch buffers across the 32 tiles of a batch half; the two results stored at the last tile only) — what its runs share -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: its current staging buffer holds the window's block at every point, whether the
    point fetched it or kept it from the point before (the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of region 1: its current staging buffer holds the window's block at every point, whether the
    point fetched it or kept it from the point before (the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- "This is the first tile of the batch half": the body's first branch condition, from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 32). -/
theorem hcond1_0 : ∀ t : Fin cfg1.N, cond1_0 (grid1.coords t) ↔ t.val % 32 = 0 :=
  (by decide +kernel : ∀ t : Fin grid1.N, cond1_0 (grid1.coords t) ↔ t.val % 32 = 0)
/-- "This is the last tile of the batch half": the body's second branch condition. -/
abbrev cond1_1 (i : grid1.Coords) : Prop := k1_cond2 i = 1#1
/-- It holds exactly at the points ≡ 31 (mod 32). -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_2_C : ∀ t : Fin cfg1.N, ¬cond1_0 (grid1.coords t) → cond1_1 (grid1.coords t) → cfg1.idle 2 (grid1.coords t) = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_2 : View sig .tc .vmem S16x1024 .f32 := (Memref.whole cc1_stg2_0 : Memref sig .tc .vmem S16x1024 .f32).view
abbrev VO1_3 : View sig .tc .vmem S16x1024 .f32 := (Memref.whole cc1_stg3_0 : Memref sig .tc .vmem S16x1024 .f32).view
abbrev ms1_0 (t : Fin cfg1.N) : Memref sig .tc .vmem S16x1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x64x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1024 .f32 := win1_3.stage (cfg1.slots t 3)
abbrev hs1_3 (t : Fin cfg1.N) : (ms1_3 t).IsWhole := hstage1_3 ((cfg1.slots t 3).cast nbuf1_3)
/-- The three scratch buffers: running maximum, running denominator, running numerator. -/
abbrev scM1_0 : Memref sig .tc .vmem S16x1024 .f32 := Memref.whole cc1_scratch0
abbrev scM1_1 : Memref sig .tc .vmem S16x1024 .f32 := Memref.whole cc1_scratch1
abbrev scM1_2 : Memref sig .tc .vmem S16x1024 .f32 := Memref.whole cc1_scratch2
abbrev VS1_0 : View sig .tc .vmem S16x1024 .f32 := scM1_0.view
abbrev VS1_1 : View sig .tc .vmem S16x1024 .f32 := scM1_1.view
abbrev VS1_2 : View sig .tc .vmem S16x1024 .f32 := scM1_2.view

/-- The scoped buffers that belong to the other two regions, each whole at some contents: this region never touches them. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's entry invariant splits into the three scratch buffers at some contents, the other regions' scoped
    buffers, and the generator register. -/
theorem PhiA1_split (c : Dev nD) :
    (Pipeline.ΦA spec1 c : sProp 𝕄)
      ⊢ iprop(((∃ d, owns (c : Thread nD τ) scM1_0 fullShare d) ∗ (∃ d, owns (c : Thread nD τ) scM1_1 fullShare d) ∗ (∃ d, owns (c : Thread nD τ) scM1_2 fullShare d)) ∗ Rest1 (F := F) c ∗ (∃ r, prngReg c r)) := by
  unfold Pipeline.ΦA Rest1; rw [scopedRest1_eq]; simp only [scM1_0, scM1_1, scM1_2, owns_whole]
  iintro ⟨⟨A1, A2, A3, A4, S0, S1, S2, B1, B2, B3, B4, B5, B6, B7, B8⟩, Hp⟩
  isplitl [S0 S1 S2]
  · isplitl [S0]; · iexact S0
    isplitl [S1]; · iexact S1
    iexact S2
  isplitr [Hp]
  · isplitl [A1]; · iexact A1
    isplitl [A2]; · iexact A2
    isplitl [A3]; · iexact A3
    isplitl [A4]; · iexact A4
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hp

/-- And back. -/
theorem PhiA1_join (c : Dev nD) :
    iprop(((∃ d, owns (c : Thread nD τ) scM1_0 fullShare d) ∗ (∃ d, owns (c : Thread nD τ) scM1_1 fullShare d) ∗ (∃ d, owns (c : Thread nD τ) scM1_2 fullShare d)) ∗ Rest1 (F := F) c ∗ (∃ r, prngReg c r))
      ⊢ (Pipeline.ΦA spec1 c : sProp 𝕄) := by
  unfold Pipeline.ΦA Rest1; rw [scopedRest1_eq]; simp only [scM1_0, scM1_1, scM1_2, owns_whole]
  iintro ⟨⟨S0, S1, S2⟩, ⟨A1, A2, A3, A4, B1, B2, B3, B4, B5, B6, B7, B8⟩, Hp⟩
  isplitr [Hp]
  · isplitl [A1]; · iexact A1
    isplitl [A2]; · iexact A2
    isplitl [A3]; · iexact A3
    isplitl [A4]; · iexact A4
    isplitl [S0]; · iexact S0
    isplitl [S1]; · iexact S1
    isplitl [S2]; · iexact S2
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hp

end Cert.Kernel.Fr

end
-- ==== Proof.K_R1A.lean ====
import proofs.«155699_j19834158973688_2_alg».proof.Proof.K_R1s

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a FIRST tile (points ≡ 0 mod 32): the three scratch buffers, found at anything, are reset and then
    updated with the tile; the two result buffers are handed back untouched. The pieces each scratch buffer ends with
    are what the run finds. -/
noncomputable def kernelRun1_A (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32) :
    Σ' (LS0 : List (View.Piece (Elt F) S16x1024 .f32)) (LS1 : List (View.Piece (Elt F) S16x1024 .f32)), { LS2 : List (View.Piece (Elt F) S16x1024 .f32) //
      ∀ (xi2 xi3 : Vec F S16x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__stats_kernel i arg2 harg2 arg3 harg3 arg4 harg4 arg5 harg5 arg6 harg6 arg7 harg7 arg8 harg8) K } := by
  refine ⟨?_, ?_, ?_, fun xi2 xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Fr

end
-- ==== Proof.K_R1B.lean ====
import proofs.«155699_j19834158973688_2_alg».proof.Proof.K_R1s

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a MIDDLE tile (points ≢ 0, 31 mod 32): the three scratch buffers, found at what the tile before left,
    are updated with the tile; the two result buffers are handed back untouched. -/
noncomputable def kernelRun1_B (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) :
    Σ' (LS0 : List (View.Piece (Elt F) S16x1024 .f32)) (LS1 : List (View.Piece (Elt F) S16x1024 .f32)), { LS2 : List (View.Piece (Elt F) S16x1024 .f32) //
      ∀ (xi2 xi3 : Vec F S16x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__stats_kernel i arg2 harg2 arg3 harg3 arg4 harg4 arg5 harg5 arg6 harg6 arg7 harg7 arg8 harg8) K } := by
  refine ⟨?_, ?_, ?_, fun xi2 xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Fr

end
-- ==== Proof.K_R1C.lean ====
import proofs.«155699_j19834158973688_2_alg».proof.Proof.K_R1s

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

set_option maxHeartbeats 4000000 in
/-- The body at a LAST tile (points ≡ 31 mod 32): the three scratch buffers, found at what the tile before left, are
    updated with the tile, and the two result buffers, found at anything, are stored from them. -/
noncomputable def kernelRun1_C (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) :
    Σ' (L2 : List (View.Piece (Elt F) S16x1024 .f32)) (L3 : List (View.Piece (Elt F) S16x1024 .f32)) (LS0 : List (View.Piece (Elt F) S16x1024 .f32)) (LS1 : List (View.Piece (Elt F) S16x1024 .f32)), { LS2 : List (View.Piece (Elt F) S16x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__stats_kernel i arg2 harg2 arg3 harg3 arg4 harg4 arg5 harg5 arg6 harg6 arg7 harg7 arg8 harg8) K } := by
  refine ⟨?_, ?_, ?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.Kernel.Fr

end
-- ==== Proof.K_R1.lean ====
import proofs.«155699_j19834158973688_2_alg».proof.Proof.K_R1A
import proofs.«155699_j19834158973688_2_alg».proof.Proof.K_R1B
import proofs.«155699_j19834158973688_2_alg».proof.Proof.K_R1C

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 1: what the scratch buffers and the results hold point by point, the proof data, the body obligation -/

theorem scover1_A_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  (y : S16x1024.Idx) :
    ∃ pc ∈ (kernelRun1_A c i arg2 harg2 arg3 harg3 arg4 harg4 arg5 harg5 arg6 harg6 arg7 harg7 arg8 harg8 hc0 hc1 x0 x1 ).1, y ∈ pc.1.set :=
  View.cover_of_tiledL (kernelRun1_A c i arg2 harg2 arg3 harg3 arg4 harg4 arg5 harg5 arg6 harg6 arg7 harg7 arg8 harg8 hc0 hc1 x0 x1 ).1 S16x1024.size (by sl_kernel_rfl) y

/-- What a first tile leaves in the running-maximum scratch. -/
def sout1_A_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  : Vec F S16x1024 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 ).1)

theorem scover1_A_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  (y : S16x1024.Idx) :
    ∃ pc ∈ (kernelRun1_A c i arg2 harg2 arg3 harg3 arg4 harg4 arg5 harg5 arg6 harg6 arg7 harg7 arg8 harg8 hc0 hc1 x0 x1 ).2.1, y ∈ pc.1.set :=
  View.cover_of_tiledL (kernelRun1_A c i arg2 harg2 arg3 harg3 arg4 harg4 arg5 harg5 arg6 harg6 arg7 harg7 arg8 harg8 hc0 hc1 x0 x1 ).2.1 S16x1024.size (by sl_kernel_rfl) y

/-- What a first tile leaves in the running-denominator scratch. -/
def sout1_A_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  : Vec F S16x1024 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 ).2.1)

theorem scover1_A_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  (y : S16x1024.Idx) :
    ∃ pc ∈ (kernelRun1_A c i arg2 harg2 arg3 harg3 arg4 harg4 arg5 harg5 arg6 harg6 arg7 harg7 arg8 harg8 hc0 hc1 x0 x1 ).2.2.1, y ∈ pc.1.set :=
  View.cover_of_tiledL (kernelRun1_A c i arg2 harg2 arg3 harg3 arg4 harg4 arg5 harg5 arg6 harg6 arg7 harg7 arg8 harg8 hc0 hc1 x0 x1 ).2.2.1 S16x1024.size (by sl_kernel_rfl) y

/-- What a first tile leaves in the running-numerator scratch. -/
def sout1_A_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  : Vec F S16x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 ).2.2.1)

theorem scover1_B_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) (y : S16x1024.Idx) :
    ∃ pc ∈ (kernelRun1_B c i arg2 harg2 arg3 harg3 arg4 harg4 arg5 harg5 arg6 harg6 arg7 harg7 arg8 harg8 hc0 hc1 x0 x1 xs0 xs1 xs2).1, y ∈ pc.1.set :=
  View.cover_of_tiledL (kernelRun1_B c i arg2 harg2 arg3 harg3 arg4 harg4 arg5 harg5 arg6 harg6 arg7 harg7 arg8 harg8 hc0 hc1 x0 x1 xs0 xs1 xs2).1 S16x1024.size (by sl_kernel_rfl) y

/-- What a middle tile leaves in the running-maximum scratch. -/
def sout1_B_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) : Vec F S16x1024 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 xs0 xs1 xs2).1)

theorem scover1_B_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) (y : S16x1024.Idx) :
    ∃ pc ∈ (kernelRun1_B c i arg2 harg2 arg3 harg3 arg4 harg4 arg5 harg5 arg6 harg6 arg7 harg7 arg8 harg8 hc0 hc1 x0 x1 xs0 xs1 xs2).2.1, y ∈ pc.1.set :=
  View.cover_of_tiledL (kernelRun1_B c i arg2 harg2 arg3 harg3 arg4 harg4 arg5 harg5 arg6 harg6 arg7 harg7 arg8 harg8 hc0 hc1 x0 x1 xs0 xs1 xs2).2.1 S16x1024.size (by sl_kernel_rfl) y

/-- What a middle tile leaves in the running-denominator scratch. -/
def sout1_B_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) : Vec F S16x1024 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 xs0 xs1 xs2).2.1)

theorem scover1_B_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) (y : S16x1024.Idx) :
    ∃ pc ∈ (kernelRun1_B c i arg2 harg2 arg3 harg3 arg4 harg4 arg5 harg5 arg6 harg6 arg7 harg7 arg8 harg8 hc0 hc1 x0 x1 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 xs0 xs1 xs2).2.2.1 S16x1024.size (by sl_kernel_rfl) y

/-- What a middle tile leaves in the running-numerator scratch. -/
def sout1_B_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) : Vec F S16x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 xs0 xs1 xs2).2.2.1)

theorem cover1_C_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) (y : S16x1024.Idx) :
    ∃ pc ∈ (kernelRun1_C c i arg2 harg2 arg3 harg3 arg4 harg4 arg5 harg5 arg6 harg6 arg7 harg7 arg8 harg8 hc0 hc1 x0 x1 xs0 xs1 xs2).1, y ∈ pc.1.set :=
  View.cover_of_tiledL (kernelRun1_C c i arg2 harg2 arg3 harg3 arg4 harg4 arg5 harg5 arg6 harg6 arg7 harg7 arg8 harg8 hc0 hc1 x0 x1 xs0 xs1 xs2).1 S16x1024.size (by sl_kernel_rfl) y

/-- What a last tile leaves in the context result's buffer. -/
def out1_C_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) : Vec F S16x1024 .f32 :=
  VO1_2.read (Elt F) (VO1_2.writes (Elt F) VO1_2.junk (kernelRun1_C c i arg2 harg2 arg3 harg3 arg4 harg4 arg5 harg5 arg6 harg6 arg7 harg7 arg8 harg8 hc0 hc1 x0 x1 xs0 xs1 xs2).1)

theorem cover1_C_3 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) (y : S16x1024.Idx) :
    ∃ pc ∈ (kernelRun1_C c i arg2 harg2 arg3 harg3 arg4 harg4 arg5 harg5 arg6 harg6 arg7 harg7 arg8 harg8 hc0 hc1 x0 x1 xs0 xs1 xs2).2.1, y ∈ pc.1.set :=
  View.cover_of_tiledL (kernelRun1_C c i arg2 harg2 arg3 harg3 arg4 harg4 arg5 harg5 arg6 harg6 arg7 harg7 arg8 harg8 hc0 hc1 x0 x1 xs0 xs1 xs2).2.1 S16x1024.size (by sl_kernel_rfl) y

/-- What a last tile leaves in the coefficient result's buffer. -/
def out1_C_3 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) : Vec F S16x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 xs0 xs1 xs2).2.1)

theorem scover1_C_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) (y : S16x1024.Idx) :
    ∃ pc ∈ (kernelRun1_C c i arg2 harg2 arg3 harg3 arg4 harg4 arg5 harg5 arg6 harg6 arg7 harg7 arg8 harg8 hc0 hc1 x0 x1 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 xs0 xs1 xs2).2.2.1 S16x1024.size (by sl_kernel_rfl) y

/-- What a last tile leaves in the running-maximum scratch. -/
def sout1_C_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) : Vec F S16x1024 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 xs0 xs1 xs2).2.2.1)

theorem scover1_C_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) (y : S16x1024.Idx) :
    ∃ pc ∈ (kernelRun1_C c i arg2 harg2 arg3 harg3 arg4 harg4 arg5 harg5 arg6 harg6 arg7 harg7 arg8 harg8 hc0 hc1 x0 x1 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 xs0 xs1 xs2).2.2.2.1 S16x1024.size (by sl_kernel_rfl) y

/-- What a last tile leaves in the running-denominator scratch. -/
def sout1_C_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) : Vec F S16x1024 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 xs0 xs1 xs2).2.2.2.1)

theorem scover1_C_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) (y : S16x1024.Idx) :
    ∃ pc ∈ (kernelRun1_C c i arg2 harg2 arg3 harg3 arg4 harg4 arg5 harg5 arg6 harg6 arg7 harg7 arg8 harg8 hc0 hc1 x0 x1 xs0 xs1 xs2).2.2.2.2.1, y ∈ pc.1.set :=
  View.cover_of_tiledL (kernelRun1_C c i arg2 harg2 arg3 harg3 arg4 harg4 arg5 harg5 arg6 harg6 arg7 harg7 arg8 harg8 hc0 hc1 x0 x1 xs0 xs1 xs2).2.2.2.2.1 S16x1024.size (by sl_kernel_rfl) y

/-- What a last tile leaves in the running-numerator scratch. -/
def sout1_C_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) : Vec F S16x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 xs0 xs1 xs2).2.2.2.2.1)

section
variable (V : (c : Dev nD) → (b : Ref sig .tc) → Buf (Elt F) ((c : Thread nD τ).loc b))

/-- A placeholder for a result buffer at a point that stores nothing into it (nothing consults it there). -/
def idleOut : Vec F S16x1024 .f32 := VO1_2.read (Elt F) (VO1_2.writes (Elt F) VO1_2.junk [])

/-- What the two result buffers and the three scratch buffers hold after the body at position `n`: a first tile starts
    afresh, a middle or last tile continues from what position `n - 1` left in the scratch buffers. In order: context
    result, coefficient result, running maximum, running denominator, running numerator. -/
def outsAt1 (c : Dev nD) : (n : ℕ) → n < cfg1.N → Vec F S16x1024 .f32 × Vec F S16x1024 .f32 × Vec F S16x1024 .f32 × Vec F S16x1024 .f32 × Vec F S16x1024 .f32
  | 0, hn =>
    have h0 : cond1_0 (grid1.coords ⟨0, hn⟩) := (hcond1_0 ⟨0, hn⟩).mpr (Nat.zero_mod _)
    have h1 : ¬cond1_1 (grid1.coords ⟨0, hn⟩) := fun h => by have := (hcond1_1 ⟨0, hn⟩).mp h; (try dsimp only at this); omega
    (idleOut, idleOut,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) h0 h1 (iblk1 V c 0 ⟨0, hn⟩) (iblk1 V c 1 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) h0 h1 (iblk1 V c 0 ⟨0, hn⟩) (iblk1 V c 1 ⟨0, hn⟩),
      sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) h0 h1 (iblk1 V c 0 ⟨0, hn⟩) (iblk1 V c 1 ⟨0, hn⟩))
  | n + 1, hn =>
    if h0 : (n + 1) % 32 = 0 then
      have hc0 : cond1_0 (grid1.coords ⟨n + 1, hn⟩) := (hcond1_0 ⟨n + 1, hn⟩).mpr h0
      have hc1 : ¬cond1_1 (grid1.coords ⟨n + 1, hn⟩) := fun h => by have := (hcond1_1 ⟨n + 1, hn⟩).mp h; (try dsimp only at this); omega
      (idleOut, idleOut,
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩),
        sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩))
    else
      have hc0 : ¬cond1_0 (grid1.coords ⟨n + 1, hn⟩) := fun h => h0 ((hcond1_0 ⟨n + 1, hn⟩).mp h)
      let p := outsAt1 c n (Nat.lt_of_succ_lt hn)
      if h1 : (n + 1) % 32 = 31 then
        have hc1 : cond1_1 (grid1.coords ⟨n + 1, hn⟩) := (hcond1_1 ⟨n + 1, hn⟩).mpr h1
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2)
      else
        have hc1 : ¬cond1_1 (grid1.coords ⟨n + 1, hn⟩) := fun h => h1 ((hcond1_1 ⟨n + 1, hn⟩).mp h)
        (idleOut, idleOut,
         sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2)

/-- The scratch contents after position `n`. -/
abbrev sc0 (c : Dev nD) (n : ℕ) (hn : n < cfg1.N) : Vec F S16x1024 .f32 := (outsAt1 V c n hn).2.2.1
abbrev sc1 (c : Dev nD) (n : ℕ) (hn : n < cfg1.N) : Vec F S16x1024 .f32 := (outsAt1 V c n hn).2.2.2.1
abbrev sc2 (c : Dev nD) (n : ℕ) (hn : n < cfg1.N) : Vec F S16x1024 .f32 := (outsAt1 V c n hn).2.2.2.2

theorem prev_lt (t : Fin cfg1.N) : t.val - 1 < cfg1.N := Nat.lt_of_le_of_lt (Nat.sub_le _ _) t.isLt

/-- `outsAt1` at a first tile. -/
theorem outsAt1_A (c : Dev nD) (t : Fin cfg1.N) (hc0 : cond1_0 (grid1.coords t)) (hc1 : ¬cond1_1 (grid1.coords t)) :
    outsAt1 V c t.val t.isLt = (idleOut, idleOut,
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t),
      sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t)) := by
  obtain ⟨n, hn⟩ := t
  cases n with
  | zero => rfl
  | succ n => exact (dif_pos ((hcond1_0 ⟨n + 1, hn⟩).mp hc0)).trans rfl

/-- `outsAt1` at a middle tile: over what the point before left. -/
theorem outsAt1_B (c : Dev nD) (t : Fin cfg1.N) (hc0 : ¬cond1_0 (grid1.coords t)) (hc1 : ¬cond1_1 (grid1.coords t)) :
    outsAt1 V c t.val t.isLt = (idleOut, idleOut,
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t))) := by
  obtain ⟨n, hn⟩ := t
  cases n with
  | zero => exact absurd ((hcond1_0 ⟨0, hn⟩).mpr (Nat.zero_mod _)) hc0
  | succ n => exact (dif_neg (fun h => hc0 ((hcond1_0 ⟨n + 1, hn⟩).mpr h))).trans ((dif_neg (fun h => hc1 ((hcond1_1 ⟨n + 1, hn⟩).mpr h))).trans rfl)

/-- `outsAt1` at a last tile: over what the point before left. -/
theorem outsAt1_C (c : Dev nD) (t : Fin cfg1.N) (hc0 : ¬cond1_0 (grid1.coords t)) (hc1 : cond1_1 (grid1.coords t)) :
    outsAt1 V c t.val t.isLt = (
      out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t))) := by
  obtain ⟨n, hn⟩ := t
  cases n with
  | zero => exact absurd ((hcond1_0 ⟨0, hn⟩).mpr (Nat.zero_mod _)) hc0
  | succ n => exact (dif_neg (fun h => hc0 ((hcond1_0 ⟨n + 1, hn⟩).mpr h))).trans ((dif_pos ((hcond1_1 ⟨n + 1, hn⟩).mp hc1)).trans rfl)

/-- The region invariant before position `n`: before the first point the entry invariant (every scratch at anything);
    afterwards the three scratch buffers at what the point before left, the other regions' scoped buffers, and the
    generator register. -/
def PhiS (c : Dev nD) : (n : ℕ) → n ≤ cfg1.N → sProp 𝕄
  | 0, _ => Pipeline.ΦA spec1 c
  | n + 1, hn => iprop((owns (c : Thread nD τ) scM1_0 fullShare (sc0 V c n hn) ∗ owns (c : Thread nD τ) scM1_1 fullShare (sc1 V c n hn) ∗ owns (c : Thread nD τ) scM1_2 fullShare (sc2 V c n hn)) ∗ Rest1 (F := F) c ∗ (∃ r, prngReg c r))

theorem PhiS_succ (c : Dev nD) (n : ℕ) (hn : n < cfg1.N) :
    PhiS V c (n + 1) hn = iprop((owns (c : Thread nD τ) scM1_0 fullShare (sc0 V c n hn) ∗ owns (c : Thread nD τ) scM1_1 fullShare (sc1 V c n hn) ∗ owns (c : Thread nD τ) scM1_2 fullShare (sc2 V c n hn)) ∗ Rest1 (F := F) c ∗ (∃ r, prngReg c r)) := rfl

theorem PhiS_pos (c : Dev nD) (n : ℕ) (h : n ≤ cfg1.N) (hz : n ≠ 0) :
    PhiS V c n h = iprop((owns (c : Thread nD τ) scM1_0 fullShare (sc0 V c (n - 1) (by omega)) ∗ owns (c : Thread nD τ) scM1_1 fullShare (sc1 V c (n - 1) (by omega)) ∗ owns (c : Thread nD τ) scM1_2 fullShare (sc2 V c (n - 1) (by omega))) ∗ Rest1 (F := F) c ∗ (∃ r, prngReg c r)) := by
  cases n with
  | zero => exact absurd rfl hz
  | succ n => rfl

/-- At any position the invariant gives the three scratch buffers at SOME contents (their named contents forgotten). -/
theorem PhiS_any (c : Dev nD) (n : ℕ) (h : n ≤ cfg1.N) :
    PhiS V c n h ⊢ iprop(((∃ d, owns (c : Thread nD τ) scM1_0 fullShare d) ∗ (∃ d, owns (c : Thread nD τ) scM1_1 fullShare d) ∗ (∃ d, owns (c : Thread nD τ) scM1_2 fullShare d)) ∗ Rest1 (F := F) c ∗ (∃ r, prngReg c r)) := by
  cases n with
  | zero => exact PhiA1_split c
  | succ n =>
    rw [PhiS_succ]
    iintro ⟨⟨S0, S1, S2⟩, HR, Hg⟩
    isplitl [S0 S1 S2]
    · isplitl [S0]; · iexists _; iexact S0
      isplitl [S1]; · iexists _; iexact S1
      iexists _; iexact S2
    isplitl [HR]; · iexact HR
    iexact Hg

/-- The proof data of region 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: which kind of tile it is is decided from the point's position; the invariant hands the body
    the scratch buffers at what the point before left (at anything at a first tile) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS_castSucc V c t]
  by_cases hc0 : cond1_0 (grid1.coords t)
  · have hc1 : ¬cond1_1 (grid1.coords t) := fun h => by
      have h0 := (hcond1_0 t).mp hc0; have h1 := (hcond1_1 t).mp h; omega
    rw [Dat.leavesExact_idle (dat1 V c) 2 t (idleAt1_2_A t hc0 hc1) (noFlush1_2_A t hc0 hc1)]
    rw [Dat.leavesExact_idle (dat1 V c) 3 t (idleAt1_3_A t hc0 hc1) (noFlush1_3_A t hc0 hc1)]
    unfold sc0 sc1 sc2
    rw [outsAt1_A V c t hc0 hc1]
    unfold sout1_A_0 sout1_A_1 sout1_A_2; (try dsimp only)
    iintro ⟨HΦ, Ho, ⟨%d0, H0⟩, ⟨%d1, H1⟩, ⟨%d2, H2⟩, ⟨%d3, H3⟩⟩
    ihave HΦ' := (PhiS_any V c _ _) $$ HΦ
    icases HΦ' with ⟨⟨HS0, HS1, HS2⟩, HR, Hg⟩
    iapply ((kernelRun1_A c (grid1.coords t) _ _ _ _ _ _ _ _ _ _ _ _ _ _ hc0 hc1 (iblk1 V c 0 t) (iblk1 V c 1 t)).2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 HR Hg]
    · isplitl [HS0 HS1 HS2]
      · isplitl [HS0]
        · unfold owns; iexists _; isplitr
          swap; · iexact HS0
          ipureintro; exact View.read_writes_of_cover _ _ _ _ _ (scover1_A_0 c _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexists _; iexact H2
    iexists _; iexact H3
  · have hz : t.val ≠ 0 := fun h => hc0 ((hcond1_0 t).mpr (by rw [h]))
    rw [PhiS_pos V c _ _ hz]
    by_cases hc1 : cond1_1 (grid1.coords t)
    · rw [show (dat1 V c).leavesExact 2 t = owns (c : Thread nD τ) (ms1_2 t) fullShare ((dat1 V c).after 2 t) from by
        unfold Dat.leavesExact; rw [liveAt1_2_C t hc0 hc1], after1_2]
      rw [show (dat1 V c).leavesExact 3 t = owns (c : Thread nD τ) (ms1_3 t) fullShare ((dat1 V c).after 3 t) from by
        unfold Dat.leavesExact; rw [liveAt1_3_C t hc0 hc1], after1_3]
      unfold sc0 sc1 sc2
      rw [outsAt1_C V c t hc0 hc1]
      unfold out1_C_2 out1_C_3 sout1_C_0 sout1_C_1 sout1_C_2; (try dsimp only)
      iintro ⟨⟨⟨HS0, HS1, HS2⟩, HR, Hg⟩, Ho, ⟨%d0, H0⟩, ⟨%d1, H1⟩, ⟨%d2, H2⟩, ⟨%d3, H3⟩⟩
      iapply ((kernelRun1_C c (grid1.coords t) _ _ _ _ _ _ _ _ _ _ _ _ _ _ hc0 hc1 (iblk1 V c 0 t) (iblk1 V c 1 t) _ _ _).2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, ⟨%e2, H2⟩, ⟨%e3, H3⟩, ⟨%es0, HS0⟩, ⟨%es1, HS1⟩, ⟨%es2, HS2⟩⟩
      isplitl [HS0 HS1 HS2 HR Hg]
      · isplitl [HS0 HS1 HS2]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _ _ _ _)
    · rw [Dat.leavesExact_idle (dat1 V c) 2 t (idleAt1_2_B t hc0 hc1) (noFlush1_2_B t hc0 hc1)]
      rw [Dat.leavesExact_idle (dat1 V c) 3 t (idleAt1_3_B t hc0 hc1) (noFlush1_3_B t hc0 hc1)]
      unfold sc0 sc1 sc2
      rw [outsAt1_B V c t hc0 hc1]
      unfold sout1_B_0 sout1_B_1 sout1_B_2; (try dsimp only)
      iintro ⟨⟨⟨HS0, HS1, HS2⟩, HR, Hg⟩, Ho, ⟨%d0, H0⟩, ⟨%d1, H1⟩, ⟨%d2, H2⟩, ⟨%d3, H3⟩⟩
      iapply ((kernelRun1_B c (grid1.coords t) _ _ _ _ _ _ _ _ _ _ _ _ _ _ hc0 hc1 (iblk1 V c 0 t) (iblk1 V c 1 t) _ _ _).2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitl [HS0 HS1 HS2]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Pipeline.ΦA spec1 c from rfl]

/-- After the last point the invariant gives the entry invariant back: the scratch buffers' named contents are forgotten. -/
theorem Phi_out1 (c : Dev nD) (t : Fin (cfg1.N + 1)) : (dat1 V c).Φ t ⊢ Pipeline.ΦA spec1 c := by
  rw [show (dat1 V c).Φ t = PhiS V c t.val (Nat.le_of_lt_succ t.isLt) from rfl]
  exact (PhiS_any V c t.val (Nat.le_of_lt_succ t.isLt)).trans (PhiA1_join c)
theorem hout1 (c : Dev nD) : (dat1 V c).Φ (Fin.last cfg1.N) ⊢ Pipeline.ΦA spec1 c := Phi_out1 V c _

end

end Cert.Kernel.Fr

end
-- ==== Proof.K_R2.lean ====
import proofs.«155699_j19834158973688_2_alg».proof.Proof.Gen.Kernel.Launch
import proofs.«155699_j19834158973688_2_alg».proof.Proof.Gen.Kernel.Skeleton
import proofs.«155699_j19834158973688_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # Region 2: the weights pass (2 × 32 grid points; at each, a 16 × 64 × 1024 tile of exp (score) times the coefficient row) -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of region 2: its current staging buffer holds the window's block at every point, whether the
    point fetched it or kept it from the point before (the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of region 2: its current staging buffer holds the window's block at every point, whether the
    point fetched it or kept it from the point before (the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 of region 2: its current staging buffer holds the window's block at every point, whether the
    point fetched it or kept it from the point before (the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S16x1x1024 := Rect.unit (s := S16x1x1024) ![0, 0, 0] S16x1x1024.size inb_S16x1x1024_S16x1x1024_0_0_0
abbrev r2_b : Rect S16x64x1024 := Rect.unit (s := S16x64x1024) ![0, 0, 0] S16x64x1024.size inb_S16x64x1024_S16x64x1024_0_0_0
abbrev r2_c : Rect S16x1024 := Rect.unit (s := S16x1024) ![0, 0] S16x1024.size inb_S16x1024_S16x1024_0_0

/-- The weights tile after the body: its one store, over the three loaded blocks (projection rows, encoder tile, coefficient rows). -/
def out2_3 (x0 : Vec F S16x1x1024 .f32) (x1 : Vec F S16x64x1024 .f32) (x2 : Vec F S16x1024 .f32) : Vec F S16x64x1024 .f32 :=
  View.canon [⟨r2_b, k2_pay1 (View.ld x1 r2_b) (View.ld x0 r2_a) (View.ld x2 r2_c)⟩]

theorem cover2_3 (p0 : Vec F S16x64x1024 .f32) (y : S16x64x1024.Idx) :
    ∃ pc ∈ ([⟨r2_b, p0⟩] : List (View.Piece (Elt F) S16x64x1024 .f32)), y ∈ pc.1.set :=
  View.cover_of_tiled [⟨r2_b, p0⟩] S16x64x1024.size (by rfl) y

set_option maxHeartbeats 1000000 in
/-- The body on whole staging memrefs: the three inputs are left as found, the weights tile ends at `out2_3` of them. -/
theorem sound_kernel2 (c : Dev nD) (E : Set ℕ) (i : grid2.Coords) (arg2 : Memref sig .tc .vmem S16x1x1024 .f32) (harg2 : arg2.IsWhole) (arg3 : Memref sig .tc .vmem S16x64x1024 .f32) (harg3 : arg3.IsWhole)
    (arg4 : Memref sig .tc .vmem S16x1024 .f32) (harg4 : arg4.IsWhole) (arg5 : Memref sig .tc .vmem S16x64x1024 .f32) (harg5 : arg5.IsWhole)
    (x0 : Vec F S16x1x1024 .f32) (x1 : Vec F S16x64x1024 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__aw_kernel i arg2 harg2 arg3 harg3 arg4 harg4 arg5 harg5) K := by
  simp only [cc2__aw_kernel_eq_skeleton]; unfold cc2__aw_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of region 2: the arrays as the region finds them; each input's buffer keeps its block, the weights' holds `out2_3` of the blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end

end Cert.Kernel.Fr

end
-- ==== Proof.K_Run.lean ====
import proofs.«155699_j19834158973688_2_alg».proof.Proof.K_R0
import proofs.«155699_j19834158973688_2_alg».proof.Proof.K_R1
import proofs.«155699_j19834158973688_2_alg».proof.Proof.K_R2

set_option maxRecDepth 16384

noncomputable section

namespace Cert.Kernel.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # The run: @main's four segments (projection region, one host broadcast, statistics region, weights region) from the launch to the return -/

variable (m : (ℓ : Loc nD τ sig) → Buf (Elt F) ℓ) (ρ : Dev nD → PrngReg)

/-- Core `c`'s buffers at launch (region 0's entry: nothing precedes it). -/
abbrev W0 : Dev nD → Valuation τ sig (Elt F) := fun c b => (s₀ m ρ).mem ((c : Dev nD), b)
abbrev Ve0 : (c : Dev nD) → (b : Ref sig .tc) → Buf (Elt F) ((c : Thread nD τ).loc b) := fun c b => W0 m ρ c b

/-- At region 0's exit: its arrays at what the pipeline leaves (inputs as entered, each output's write-backs folded), every other buffer as entered. -/
def W1 (c : Dev nD) : Valuation τ sig (Elt F) :=
  Pipeline.withArrays spec0 c (W0 m ρ c) fun w => (dat0 (Ve0 m ρ) c).arrAt w cfg0.N
theorem W1_arr (c : Dev nD) (w : Fin cfg0.W) :
    W1 m ρ c (Proc.devRef .tc (Pipeline.arrRef spec0 w)) = (dat0 (Ve0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

abbrev Vx0 : (c : Dev nD) → (b : Ref sig .tc) → Buf (Elt F) ((c : Thread nD τ).loc b) := fun c b => W1 m ρ c b
theorem hF0 (c : Dev nD) (w : Fin cfg0.W) : (dat0 (Ve0 m ρ) c).arrAt w cfg0.N = Vx0 m ρ c (Pipeline.arrRef spec0 w) :=
  (W1_arr m ρ c w).symm
theorem hrest0 (c : Dev nD) : ∀ b, b ∉ Finset.univ.image (Pipeline.arrRef spec0) → Vx0 m ρ c b = Ve0 m ρ c b :=
  fun b hb => W1_of_ne m ρ c b fun w e => hb (Finset.mem_image.mpr ⟨w, Finset.mem_univ _, e⟩)

/-- After the host broadcast (region 1's entry). -/
abbrev W2 : Dev nD → Valuation τ sig (Elt F) := fun c => StableHlo.after hostOps1 (W1 m ρ c)
abbrev Ve1 : (c : Dev nD) → (b : Ref sig .tc) → Buf (Elt F) ((c : Thread nD τ).loc b) := fun c b => W2 m ρ c b

/-- At region 1's exit: its arrays at what the pipeline leaves (inputs as entered, each output's write-backs folded), every other buffer as entered. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)

/-- Region 2 is entered from region 1's exit contents. -/
abbrev Ve2 : (c : Dev nD) → (b : Ref sig .tc) → Buf (Elt F) ((c : Thread nD τ).loc b) := fun c b => W3 m ρ c b

/-- At region 2's exit: its arrays at what the pipeline leaves (inputs as entered, each output's write-backs folded), every other buffer as entered. -/
def W4 (c : Dev nD) : Valuation τ sig (Elt F) :=
  Pipeline.withArrays spec2 c (W3 m ρ c) fun w => (dat2 (Ve2 m ρ) c).arrAt w cfg2.N
theorem W4_arr (c : Dev nD) (w : Fin cfg2.W) :
    W4 m ρ c (Proc.devRef .tc (Pipeline.arrRef spec2 w)) = (dat2 (Ve2 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb

abbrev Vx2 : (c : Dev nD) → (b : Ref sig .tc) → Buf (Elt F) ((c : Thread nD τ).loc b) := fun c b => W4 m ρ c b
theorem hF2 (c : Dev nD) (w : Fin cfg2.W) : (dat2 (Ve2 m ρ) c).arrAt w cfg2.N = Vx2 m ρ c (Pipeline.arrRef spec2 w) :=
  (W4_arr m ρ c w).symm
theorem hrest2 (c : Dev nD) : ∀ b, b ∉ Finset.univ.image (Pipeline.arrRef spec2) → Vx2 m ρ c b = Ve2 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg0) := (W1_arr m ρ c 0).trans (((dat0 (Ve0 m ρ) c).arrAt_in 0 rfl _).trans (A_eq0 (Ve0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat2 (Ve2 m ρ) c).arrAt_in 1 rfl _).trans (A_eq2 (Ve2 m ρ) c 1))
    _ = W2 m ρ c (Proc.devRef .tc main_arg1) := (W3_arr m ρ c 1).trans (((dat1 (Ve1 m ρ) c).arrAt_in 1 rfl _).trans (A_eq1 (Ve1 m ρ) c 1))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg2) := (W1_arr m ρ c 1).trans (((dat0 (Ve0 m ρ) c).arrAt_in 1 rfl _).trans (A_eq0 (Ve0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg3) := (W1_arr m ρ c 2).trans (((dat0 (Ve0 m ρ) c).arrAt_in 2 rfl _).trans (A_eq0 (Ve0 m ρ) c 2))
    _ = m ((c : Thread nD τ).loc main_arg3) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
  | ⟨2, _⟩ => fun c => dat2 (Ve2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: its arrays split out of the unscoped buffers at entry and put back at the exit
    contents; the generator register into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (Vx0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit
    contents; the generator register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (Ve1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at entry and put back at the exit
    contents; the generator register into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ve2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ve2 m ρ c) (Vx2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.Kernel.Fr

end
-- ==== Proof.KI_R0.lean ====
import proofs.«155699_j19834158973688_2_alg».proof.Proof.Gen.KernelIdeal.Launch
import proofs.«155699_j19834158973688_2_alg».proof.Proof.Gen.KernelIdeal.Skeleton
import proofs.«155699_j19834158973688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 0: the dense projection (one grid point; the whole of H, W and the bias staged, the whole result written back) -/

section
variable (V : (c : Dev nD) → (b : Ref sig .tc) → Buf (Elt F) ((c : Thread nD τ).loc b))

/-- Window `w`'s block at point `t`, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0 of region 0: its current staging buffer holds the window's block at every point, whether the
    point fetched it or kept it from the point before (the block index has not moved). -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1 of region 0: its current staging buffer holds the window's block at every point, whether the
    point fetched it or kept it from the point before (the block index has not moved). -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2 of region 0: its current staging buffer holds the window's block at every point, whether the
    point fetched it or kept it from the point before (the block index has not moved). -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

abbrev r0_a : Rect S32x1024 := Rect.unit (s := S32x1024) ![0, 0] S32x1024.size inb_S32x1024_S32x1024_0_0
abbrev r0_b : Rect S1024x1024 := Rect.unit (s := S1024x1024) ![0, 0] S1024x1024.size inb_S1024x1024_S1024x1024_0_0
abbrev r0_c : Rect S1024 := Rect.unit (s := S1024) ![0] S1024.size inb_S1024_S1024_0

/-- The result buffer after the body: its one store, of the matrix product plus the bias row, over the three loaded blocks. -/
def out0_3 (x0 : Vec F S32x1024 .f32) (x1 : Vec F S1024x1024 .f32) (x2 : Vec F S1024 .f32) : Vec F S32x1024 .f32 :=
  View.canon [⟨r0_a, k0_pay1 (View.ld x0 r0_a) (View.ld x1 r0_b) (View.ld x2 r0_c)⟩]

theorem cover0_3 (p0 : Vec F S32x1024 .f32) (y : S32x1024.Idx) :
    ∃ pc ∈ ([⟨r0_a, p0⟩] : List (View.Piece (Elt F) S32x1024 .f32)), y ∈ pc.1.set :=
  View.cover_of_tiled [⟨r0_a, p0⟩] S32x1024.size (by rfl) y

set_option maxHeartbeats 1000000 in
/-- The body on whole staging memrefs: the three inputs are left as found, the result buffer ends at `out0_3` of them. -/
theorem sound_kernel0 (c : Dev nD) (E : Set ℕ) (i : grid0.Coords) (arg1 : Memref sig .tc .vmem S32x1024 .f32) (harg1 : arg1.IsWhole) (arg2 : Memref sig .tc .vmem S1024x1024 .f32) (harg2 : arg2.IsWhole)
    (arg3 : Memref sig .tc .vmem S1024 .f32) (harg3 : arg3.IsWhole) (arg4 : Memref sig .tc .vmem S32x1024 .f32) (harg4 : arg4.IsWhole)
    (x0 : Vec F S32x1024 .f32) (x1 : Vec F S1024x1024 .f32) (x2 : Vec F S1024 .f32) (K : PUnit → sProp 𝕄) :
    iprop(owns (c : Thread nD τ) arg1 fullShare x0 ∗ owns (c : Thread nD τ) arg2 fullShare x1 ∗ owns (c : Thread nD τ) arg3 fullShare x2 ∗ (∃ d, owns (c : Thread nD τ) arg4 fullShare d)
        ∗ (iprop(owns (c : Thread nD τ) arg1 fullShare x0 ∗ owns (c : Thread nD τ) arg2 fullShare x1 ∗ owns (c : Thread nD τ) arg3 fullShare x2 ∗ owns (c : Thread nD τ) arg4 fullShare (out0_3 x0 x1 x2)) -∗ K ⟨⟩))
      ⊢ wp frame (wpE (defs₀ (F := F)) Variants.none c none) E (cc0__proj_kernel i arg1 harg1 arg2 harg2 arg3 harg3 arg4 harg4) K := by
  simp only [cc0__proj_kernel_eq_skeleton]; unfold cc0__proj_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover0_3 _)

/-- The proof data of region 0: the arrays as the region finds them; each input's buffer keeps its block, the result's holds `out0_3` of the blocks. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => out0_3 (iblk0 V c 0 t) (iblk0 V c 1 t) (iblk0 V c 2 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = out0_3 (iblk0 V c 0 t) (iblk0 V c 1 t) (iblk0 V c 2 t) := by dsimp only [dat0]

theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2]
  rw [show (dat0 V c).Φ t.succ = (dat0 V c).Φ t.castSucc from rfl,
    show (dat0 V c).owesAt () t.succ = (dat0 V c).owesAt () t.castSucc from rfl,
    after0_0, after0_1, after0_2, after0_3]
  iintro ⟨HΦ, Ho, ⟨%d0, H0⟩, ⟨%d1, H1⟩, ⟨%d2, H2⟩, ⟨%d3, H3⟩⟩
  iapply (sound_kernel0 c Set.univ _ _ _ _ _ _ _ _ _ (iblk0 V c 0 t) (iblk0 V c 1 t) (iblk0 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation0 (c : Dev nD) : BodyObligation (dat0 (F := F) V c) (defs₀ (F := F)) Variants.none () Set.univ := fun t => by
  rw [bigSep_W0, bigSep_W0]
  exact sound_body0 V c t

end

end Cert.KernelIdeal.Fr

end
-- ==== Proof.KI_R1s.lean ====
import proofs.«155699_j19834158973688_2_alg».proof.Proof.Gen.KernelIdeal.Launch
import proofs.«155699_j19834158973688_2_alg».proof.Proof.Gen.KernelIdeal.Skeleton
import proofs.«155699_j19834158973688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: the statistics pass (2 × 32 grid points; a running maximum, denominator and numerator kept in three
    scratch buffers across the 32 tiles of a batch half; the two results stored at the last tile only) — what its runs share -/

section
variable (V : (c : Dev nD) → (b : Ref sig .tc) → Buf (Elt F) ((c : Thread nD τ).loc b))

/-- Window `w`'s block at point `t`, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Input window 0 of region 1: its current staging buffer holds the window's block at every point, whether the
    point fetched it or kept it from the point before (the block index has not moved). -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)

/-- Input window 1 of region 1: its current staging buffer holds the window's block at every point, whether the
    point fetched it or kept it from the point before (the block index has not moved). -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)

end

/-- "This is the first tile of the batch half": the body's first branch condition, from the grid coordinates. -/
abbrev cond1_0 (i : grid1.Coords) : Prop := (Scalar.cmpi .ne (Scalar.extui (Scalar.cmpi .eq (BitVec.ofNat 32 (i 1).val) 0#32)) 0#32) = 1#1
/-- It holds exactly at the points ≡ 0 (mod 32). -/
theorem hcond1_0 : ∀ t : Fin cfg1.N, cond1_0 (grid1.coords t) ↔ t.val % 32 = 0 :=
  (by decide +kernel : ∀ t : Fin grid1.N, cond1_0 (grid1.coords t) ↔ t.val % 32 = 0)
/-- "This is the last tile of the batch half": the body's second branch condition. -/
abbrev cond1_1 (i : grid1.Coords) : Prop := k1_cond2 i = 1#1
/-- It holds exactly at the points ≡ 31 (mod 32). -/
theorem hcond1_1 : ∀ t : Fin cfg1.N, cond1_1 (grid1.coords t) ↔ t.val % 32 = 31 :=
  (by decide +kernel : ∀ t : Fin grid1.N, cond1_1 (grid1.coords t) ↔ t.val % 32 = 31)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem idleAt1_2_A : ∀ t : Fin cfg1.N, cond1_0 (grid1.coords t) → ¬cond1_1 (grid1.coords t) → cfg1.idle 2 (grid1.coords t) = true := by decide +kernel
theorem noFlush1_2_A : ∀ t : Fin cfg1.N, cond1_0 (grid1.coords t) → ¬cond1_1 (grid1.coords t) → (cfg1.win 2).flush t = false := by decide +kernel
theorem idleAt1_3_A : ∀ t : Fin cfg1.N, cond1_0 (grid1.coords t) → ¬cond1_1 (grid1.coords t) → cfg1.idle 3 (grid1.coords t) = true := by decide +kernel
theorem noFlush1_3_A : ∀ t : Fin cfg1.N, cond1_0 (grid1.coords t) → ¬cond1_1 (grid1.coords t) → (cfg1.win 3).flush t = false := by decide +kernel
theorem idleAt1_2_B : ∀ t : Fin cfg1.N, ¬cond1_0 (grid1.coords t) → ¬cond1_1 (grid1.coords t) → cfg1.idle 2 (grid1.coords t) = true := by decide +kernel
theorem noFlush1_2_B : ∀ t : Fin cfg1.N, ¬cond1_0 (grid1.coords t) → ¬cond1_1 (grid1.coords t) → (cfg1.win 2).flush t = false := by decide +kernel
theorem idleAt1_3_B : ∀ t : Fin cfg1.N, ¬cond1_0 (grid1.coords t) → ¬cond1_1 (grid1.coords t) → cfg1.idle 3 (grid1.coords t) = true := by decide +kernel
theorem noFlush1_3_B : ∀ t : Fin cfg1.N, ¬cond1_0 (grid1.coords t) → ¬cond1_1 (grid1.coords t) → (cfg1.win 3).flush t = false := by decide +kernel
theorem liveAt1_2_C : ∀ t : Fin cfg1.N, ¬cond1_0 (grid1.coords t) → cond1_1 (grid1.coords t) → cfg1.idle 2 (grid1.coords t) = false := by decide +kernel
theorem liveAt1_3_C : ∀ t : Fin cfg1.N, ¬cond1_0 (grid1.coords t) → cond1_1 (grid1.coords t) → cfg1.idle 3 (grid1.coords t) = false := by decide +kernel

/-! ## The memrefs the body is called with -/

abbrev VO1_2 : View sig .tc .vmem S16x1024 .f32 := (Memref.whole cc1_stg2_0 : Memref sig .tc .vmem S16x1024 .f32).view
abbrev VO1_3 : View sig .tc .vmem S16x1024 .f32 := (Memref.whole cc1_stg3_0 : Memref sig .tc .vmem S16x1024 .f32).view
abbrev ms1_0 (t : Fin cfg1.N) : Memref sig .tc .vmem S16x1x1024 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S16x64x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S16x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S16x1024 .f32 := win1_3.stage (cfg1.slots t 3)
abbrev hs1_3 (t : Fin cfg1.N) : (ms1_3 t).IsWhole := hstage1_3 ((cfg1.slots t 3).cast nbuf1_3)
/-- The three scratch buffers: running maximum, running denominator, running numerator. -/
abbrev scM1_0 : Memref sig .tc .vmem S16x1024 .f32 := Memref.whole cc1_scratch0
abbrev scM1_1 : Memref sig .tc .vmem S16x1024 .f32 := Memref.whole cc1_scratch1
abbrev scM1_2 : Memref sig .tc .vmem S16x1024 .f32 := Memref.whole cc1_scratch2
abbrev VS1_0 : View sig .tc .vmem S16x1024 .f32 := scM1_0.view
abbrev VS1_1 : View sig .tc .vmem S16x1024 .f32 := scM1_1.view
abbrev VS1_2 : View sig .tc .vmem S16x1024 .f32 := scM1_2.view

/-- The scoped buffers that belong to the other two regions, each whole at some contents: this region never touches them. -/
def Rest1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_stg3_0), ((c : Thread nD τ).loc cc0_stg3_0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_stg2_1), ((c : Thread nD τ).loc cc2_stg2_1) ↦{fullShare} f) ∗ (∃ f : Buf (Elt F) ((c : Thread nD τ).loc cc2_stg3_0), ((c : Thread nD τ).loc cc2_stg3_0) ↦{fullShare} f) ∗ (∃ f : Buf (Elt F) ((c : Thread nD τ).loc cc2_stg3_1), ((c : Thread nD τ).loc cc2_stg3_1) ↦{fullShare} f))

/-- The region's entry invariant splits into the three scratch buffers at some contents, the other regions' scoped
    buffers, and the generator register. -/
theorem PhiA1_split (c : Dev nD) :
    (Pipeline.ΦA spec1 c : sProp 𝕄)
      ⊢ iprop(((∃ d, owns (c : Thread nD τ) scM1_0 fullShare d) ∗ (∃ d, owns (c : Thread nD τ) scM1_1 fullShare d) ∗ (∃ d, owns (c : Thread nD τ) scM1_2 fullShare d)) ∗ Rest1 (F := F) c ∗ (∃ r, prngReg c r)) := by
  unfold Pipeline.ΦA Rest1; rw [scopedRest1_eq]; simp only [scM1_0, scM1_1, scM1_2, owns_whole]
  iintro ⟨⟨A1, A2, A3, A4, S0, S1, S2, B1, B2, B3, B4, B5, B6, B7, B8⟩, Hp⟩
  isplitl [S0 S1 S2]
  · isplitl [S0]; · iexact S0
    isplitl [S1]; · iexact S1
    iexact S2
  isplitr [Hp]
  · isplitl [A1]; · iexact A1
    isplitl [A2]; · iexact A2
    isplitl [A3]; · iexact A3
    isplitl [A4]; · iexact A4
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hp

/-- And back. -/
theorem PhiA1_join (c : Dev nD) :
    iprop(((∃ d, owns (c : Thread nD τ) scM1_0 fullShare d) ∗ (∃ d, owns (c : Thread nD τ) scM1_1 fullShare d) ∗ (∃ d, owns (c : Thread nD τ) scM1_2 fullShare d)) ∗ Rest1 (F := F) c ∗ (∃ r, prngReg c r))
      ⊢ (Pipeline.ΦA spec1 c : sProp 𝕄) := by
  unfold Pipeline.ΦA Rest1; rw [scopedRest1_eq]; simp only [scM1_0, scM1_1, scM1_2, owns_whole]
  iintro ⟨⟨S0, S1, S2⟩, ⟨A1, A2, A3, A4, B1, B2, B3, B4, B5, B6, B7, B8⟩, Hp⟩
  isplitr [Hp]
  · isplitl [A1]; · iexact A1
    isplitl [A2]; · iexact A2
    isplitl [A3]; · iexact A3
    isplitl [A4]; · iexact A4
    isplitl [S0]; · iexact S0
    isplitl [S1]; · iexact S1
    isplitl [S2]; · iexact S2
    isplitl [B1]; · iexact B1
    isplitl [B2]; · iexact B2
    isplitl [B3]; · iexact B3
    isplitl [B4]; · iexact B4
    isplitl [B5]; · iexact B5
    isplitl [B6]; · iexact B6
    isplitl [B7]; · iexact B7
    iexact B8
  iexact Hp

end Cert.KernelIdeal.Fr

end
-- ==== Proof.KI_R1A.lean ====
import proofs.«155699_j19834158973688_2_alg».proof.Proof.KI_R1s

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a FIRST tile (points ≡ 0 mod 32): the three scratch buffers, found at anything, are reset and then
    updated with the tile; the two result buffers are handed back untouched. The pieces each scratch buffer ends with
    are what the run finds. -/
noncomputable def kernelRun1_A (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32) :
    Σ' (LS0 : List (View.Piece (Elt F) S16x1024 .f32)) (LS1 : List (View.Piece (Elt F) S16x1024 .f32)), { LS2 : List (View.Piece (Elt F) S16x1024 .f32) //
      ∀ (xi2 xi3 : Vec F S16x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__stats_kernel i arg2 harg2 arg3 harg3 arg4 harg4 arg5 harg5 arg6 harg6 arg7 harg7 arg8 harg8) K } := by
  refine ⟨?_, ?_, ?_, fun xi2 xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Fr

end
-- ==== Proof.KI_R1B.lean ====
import proofs.«155699_j19834158973688_2_alg».proof.Proof.KI_R1s

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a MIDDLE tile (points ≢ 0, 31 mod 32): the three scratch buffers, found at what the tile before left,
    are updated with the tile; the two result buffers are handed back untouched. -/
noncomputable def kernelRun1_B (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) :
    Σ' (LS0 : List (View.Piece (Elt F) S16x1024 .f32)) (LS1 : List (View.Piece (Elt F) S16x1024 .f32)), { LS2 : List (View.Piece (Elt F) S16x1024 .f32) //
      ∀ (xi2 xi3 : Vec F S16x1024 .f32) (E : Set ℕ) (K : PUnit → sProp 𝕄),
        iprop(owns (c : Thread nD τ) arg2 fullShare x0 ∗ owns (c : Thread nD τ) arg3 fullShare x1 ∗ owns (c : Thread nD τ) arg4 fullShare xi2 ∗ owns (c : Thread nD τ) arg5 fullShare xi3 ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare xi2 ∗ owns (c : Thread nD τ) arg5 fullShare xi3 ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__stats_kernel i arg2 harg2 arg3 harg3 arg4 harg4 arg5 harg5 arg6 harg6 arg7 harg7 arg8 harg8) K } := by
  refine ⟨?_, ?_, ?_, fun xi2 xi3 E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Fr

end
-- ==== Proof.KI_R1C.lean ====
import proofs.«155699_j19834158973688_2_alg».proof.Proof.KI_R1s

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

set_option maxHeartbeats 4000000 in
/-- The body at a LAST tile (points ≡ 31 mod 32): the three scratch buffers, found at what the tile before left, are
    updated with the tile, and the two result buffers, found at anything, are stored from them. -/
noncomputable def kernelRun1_C (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) :
    Σ' (L2 : List (View.Piece (Elt F) S16x1024 .f32)) (L3 : List (View.Piece (Elt F) S16x1024 .f32)) (LS0 : List (View.Piece (Elt F) S16x1024 .f32)) (LS1 : List (View.Piece (Elt F) S16x1024 .f32)), { LS2 : List (View.Piece (Elt F) S16x1024 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d) ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ (∃ f, arg4.view.loc (c : Thread nD τ) ↦[arg4.view.set]{fullShare} arg4.view.writes (Elt F) f L2) ∗ (∃ f, arg5.view.loc (c : Thread nD τ) ↦[arg5.view.set]{fullShare} arg5.view.writes (Elt F) f L3) ∗ (∃ f, arg6.view.loc (c : Thread nD τ) ↦[arg6.view.set]{fullShare} arg6.view.writes (Elt F) f LS0) ∗ (∃ f, arg7.view.loc (c : Thread nD τ) ↦[arg7.view.set]{fullShare} arg7.view.writes (Elt F) f LS1) ∗ (∃ f, arg8.view.loc (c : Thread nD τ) ↦[arg8.view.set]{fullShare} arg8.view.writes (Elt F) f LS2)) -∗ K ⟨⟩))
          ⊢ wp frame (wpE (defs₀ (F := F)) Variants.none c none) E (cc1__stats_kernel i arg2 harg2 arg3 harg3 arg4 harg4 arg5 harg5 arg6 harg6 arg7 harg7 arg8 harg8) K } := by
  refine ⟨?_, ?_, ?_, ?_, ?_, fun E K => ?run⟩
  case run =>
    simp only [cc1__stats_kernel_eq_skeleton]; unfold cc1__stats_kernel_skel
    simp only [k1_part1_eq_skeleton]
    unfold owns
    iintro ⟨⟨%f0, %hf0, H0⟩, ⟨%f1, %hf1, H1⟩, ⟨%d2, %f2, -, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1
    obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    isplitl [H3]; · iexists _; iexact H3
    isplitl [HS0]; · iexists _; iexact HS0
    isplitl [HS1]; · iexists _; iexact HS1
    iexists _; iexact HS2

end Cert.KernelIdeal.Fr

end
-- ==== Proof.KI_R1.lean ====
import proofs.«155699_j19834158973688_2_alg».proof.Proof.KI_R1A
import proofs.«155699_j19834158973688_2_alg».proof.Proof.KI_R1B
import proofs.«155699_j19834158973688_2_alg».proof.Proof.KI_R1C

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: what the scratch buffers and the results hold point by point, the proof data, the body obligation -/

theorem scover1_A_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  (y : S16x1024.Idx) :
    ∃ pc ∈ (kernelRun1_A c i arg2 harg2 arg3 harg3 arg4 harg4 arg5 harg5 arg6 harg6 arg7 harg7 arg8 harg8 hc0 hc1 x0 x1 ).1, y ∈ pc.1.set :=
  View.cover_of_tiledL (kernelRun1_A c i arg2 harg2 arg3 harg3 arg4 harg4 arg5 harg5 arg6 harg6 arg7 harg7 arg8 harg8 hc0 hc1 x0 x1 ).1 S16x1024.size (by sl_kernel_rfl) y

/-- What a first tile leaves in the running-maximum scratch. -/
def sout1_A_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  : Vec F S16x1024 .f32 :=
  VS1_0.read (Elt F) (VS1_0.writes (Elt F) VS1_0.junk (kernelRun1_A c i arg2 harg2 arg3 harg3 arg4 harg4 arg5 harg5 arg6 harg6 arg7 harg7 arg8 harg8 hc0 hc1 x0 x1 ).1)

theorem scover1_A_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  (y : S16x1024.Idx) :
    ∃ pc ∈ (kernelRun1_A c i arg2 harg2 arg3 harg3 arg4 harg4 arg5 harg5 arg6 harg6 arg7 harg7 arg8 harg8 hc0 hc1 x0 x1 ).2.1, y ∈ pc.1.set :=
  View.cover_of_tiledL (kernelRun1_A c i arg2 harg2 arg3 harg3 arg4 harg4 arg5 harg5 arg6 harg6 arg7 harg7 arg8 harg8 hc0 hc1 x0 x1 ).2.1 S16x1024.size (by sl_kernel_rfl) y

/-- What a first tile leaves in the running-denominator scratch. -/
def sout1_A_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  : Vec F S16x1024 .f32 :=
  VS1_1.read (Elt F) (VS1_1.writes (Elt F) VS1_1.junk (kernelRun1_A c i arg2 harg2 arg3 harg3 arg4 harg4 arg5 harg5 arg6 harg6 arg7 harg7 arg8 harg8 hc0 hc1 x0 x1 ).2.1)

theorem scover1_A_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  (y : S16x1024.Idx) :
    ∃ pc ∈ (kernelRun1_A c i arg2 harg2 arg3 harg3 arg4 harg4 arg5 harg5 arg6 harg6 arg7 harg7 arg8 harg8 hc0 hc1 x0 x1 ).2.2.1, y ∈ pc.1.set :=
  View.cover_of_tiledL (kernelRun1_A c i arg2 harg2 arg3 harg3 arg4 harg4 arg5 harg5 arg6 harg6 arg7 harg7 arg8 harg8 hc0 hc1 x0 x1 ).2.2.1 S16x1024.size (by sl_kernel_rfl) y

/-- What a first tile leaves in the running-numerator scratch. -/
def sout1_A_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  : Vec F S16x1024 .f32 :=
  VS1_2.read (Elt F) (VS1_2.writes (Elt F) VS1_2.junk (kernelRun1_A c i arg2 harg2 arg3 harg3 arg4 harg4 arg5 harg5 arg6 harg6 arg7 harg7 arg8 harg8 hc0 hc1 x0 x1 ).2.2.1)

theorem scover1_B_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) (y : S16x1024.Idx) :
    ∃ pc ∈ (kernelRun1_B c i arg2 harg2 arg3 harg3 arg4 harg4 arg5 harg5 arg6 harg6 arg7 harg7 arg8 harg8 hc0 hc1 x0 x1 xs0 xs1 xs2).1, y ∈ pc.1.set :=
  View.cover_of_tiledL (kernelRun1_B c i arg2 harg2 arg3 harg3 arg4 harg4 arg5 harg5 arg6 harg6 arg7 harg7 arg8 harg8 hc0 hc1 x0 x1 xs0 xs1 xs2).1 S16x1024.size (by sl_kernel_rfl) y

/-- What a middle tile leaves in the running-maximum scratch. -/
def sout1_B_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) : Vec F S16x1024 .f32 :=
  VS1_0.read (Elt F) (VS1_0.writes (Elt F) VS1_0.junk (kernelRun1_B c i arg2 harg2 arg3 harg3 arg4 harg4 arg5 harg5 arg6 harg6 arg7 harg7 arg8 harg8 hc0 hc1 x0 x1 xs0 xs1 xs2).1)

theorem scover1_B_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) (y : S16x1024.Idx) :
    ∃ pc ∈ (kernelRun1_B c i arg2 harg2 arg3 harg3 arg4 harg4 arg5 harg5 arg6 harg6 arg7 harg7 arg8 harg8 hc0 hc1 x0 x1 xs0 xs1 xs2).2.1, y ∈ pc.1.set :=
  View.cover_of_tiledL (kernelRun1_B c i arg2 harg2 arg3 harg3 arg4 harg4 arg5 harg5 arg6 harg6 arg7 harg7 arg8 harg8 hc0 hc1 x0 x1 xs0 xs1 xs2).2.1 S16x1024.size (by sl_kernel_rfl) y

/-- What a middle tile leaves in the running-denominator scratch. -/
def sout1_B_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) : Vec F S16x1024 .f32 :=
  VS1_1.read (Elt F) (VS1_1.writes (Elt F) VS1_1.junk (kernelRun1_B c i arg2 harg2 arg3 harg3 arg4 harg4 arg5 harg5 arg6 harg6 arg7 harg7 arg8 harg8 hc0 hc1 x0 x1 xs0 xs1 xs2).2.1)

theorem scover1_B_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) (y : S16x1024.Idx) :
    ∃ pc ∈ (kernelRun1_B c i arg2 harg2 arg3 harg3 arg4 harg4 arg5 harg5 arg6 harg6 arg7 harg7 arg8 harg8 hc0 hc1 x0 x1 xs0 xs1 xs2).2.2.1, y ∈ pc.1.set :=
  View.cover_of_tiledL (kernelRun1_B c i arg2 harg2 arg3 harg3 arg4 harg4 arg5 harg5 arg6 harg6 arg7 harg7 arg8 harg8 hc0 hc1 x0 x1 xs0 xs1 xs2).2.2.1 S16x1024.size (by sl_kernel_rfl) y

/-- What a middle tile leaves in the running-numerator scratch. -/
def sout1_B_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) : Vec F S16x1024 .f32 :=
  VS1_2.read (Elt F) (VS1_2.writes (Elt F) VS1_2.junk (kernelRun1_B c i arg2 harg2 arg3 harg3 arg4 harg4 arg5 harg5 arg6 harg6 arg7 harg7 arg8 harg8 hc0 hc1 x0 x1 xs0 xs1 xs2).2.2.1)

theorem cover1_C_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) (y : S16x1024.Idx) :
    ∃ pc ∈ (kernelRun1_C c i arg2 harg2 arg3 harg3 arg4 harg4 arg5 harg5 arg6 harg6 arg7 harg7 arg8 harg8 hc0 hc1 x0 x1 xs0 xs1 xs2).1, y ∈ pc.1.set :=
  View.cover_of_tiledL (kernelRun1_C c i arg2 harg2 arg3 harg3 arg4 harg4 arg5 harg5 arg6 harg6 arg7 harg7 arg8 harg8 hc0 hc1 x0 x1 xs0 xs1 xs2).1 S16x1024.size (by sl_kernel_rfl) y

/-- What a last tile leaves in the context result's buffer. -/
def out1_C_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) : Vec F S16x1024 .f32 :=
  VO1_2.read (Elt F) (VO1_2.writes (Elt F) VO1_2.junk (kernelRun1_C c i arg2 harg2 arg3 harg3 arg4 harg4 arg5 harg5 arg6 harg6 arg7 harg7 arg8 harg8 hc0 hc1 x0 x1 xs0 xs1 xs2).1)

theorem cover1_C_3 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) (y : S16x1024.Idx) :
    ∃ pc ∈ (kernelRun1_C c i arg2 harg2 arg3 harg3 arg4 harg4 arg5 harg5 arg6 harg6 arg7 harg7 arg8 harg8 hc0 hc1 x0 x1 xs0 xs1 xs2).2.1, y ∈ pc.1.set :=
  View.cover_of_tiledL (kernelRun1_C c i arg2 harg2 arg3 harg3 arg4 harg4 arg5 harg5 arg6 harg6 arg7 harg7 arg8 harg8 hc0 hc1 x0 x1 xs0 xs1 xs2).2.1 S16x1024.size (by sl_kernel_rfl) y

/-- What a last tile leaves in the coefficient result's buffer. -/
def out1_C_3 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) : Vec F S16x1024 .f32 :=
  VO1_3.read (Elt F) (VO1_3.writes (Elt F) VO1_3.junk (kernelRun1_C c i arg2 harg2 arg3 harg3 arg4 harg4 arg5 harg5 arg6 harg6 arg7 harg7 arg8 harg8 hc0 hc1 x0 x1 xs0 xs1 xs2).2.1)

theorem scover1_C_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) (y : S16x1024.Idx) :
    ∃ pc ∈ (kernelRun1_C c i arg2 harg2 arg3 harg3 arg4 harg4 arg5 harg5 arg6 harg6 arg7 harg7 arg8 harg8 hc0 hc1 x0 x1 xs0 xs1 xs2).2.2.1, y ∈ pc.1.set :=
  View.cover_of_tiledL (kernelRun1_C c i arg2 harg2 arg3 harg3 arg4 harg4 arg5 harg5 arg6 harg6 arg7 harg7 arg8 harg8 hc0 hc1 x0 x1 xs0 xs1 xs2).2.2.1 S16x1024.size (by sl_kernel_rfl) y

/-- What a last tile leaves in the running-maximum scratch. -/
def sout1_C_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) : Vec F S16x1024 .f32 :=
  VS1_0.read (Elt F) (VS1_0.writes (Elt F) VS1_0.junk (kernelRun1_C c i arg2 harg2 arg3 harg3 arg4 harg4 arg5 harg5 arg6 harg6 arg7 harg7 arg8 harg8 hc0 hc1 x0 x1 xs0 xs1 xs2).2.2.1)

theorem scover1_C_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) (y : S16x1024.Idx) :
    ∃ pc ∈ (kernelRun1_C c i arg2 harg2 arg3 harg3 arg4 harg4 arg5 harg5 arg6 harg6 arg7 harg7 arg8 harg8 hc0 hc1 x0 x1 xs0 xs1 xs2).2.2.2.1, y ∈ pc.1.set :=
  View.cover_of_tiledL (kernelRun1_C c i arg2 harg2 arg3 harg3 arg4 harg4 arg5 harg5 arg6 harg6 arg7 harg7 arg8 harg8 hc0 hc1 x0 x1 xs0 xs1 xs2).2.2.2.1 S16x1024.size (by sl_kernel_rfl) y

/-- What a last tile leaves in the running-denominator scratch. -/
def sout1_C_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) : Vec F S16x1024 .f32 :=
  VS1_1.read (Elt F) (VS1_1.writes (Elt F) VS1_1.junk (kernelRun1_C c i arg2 harg2 arg3 harg3 arg4 harg4 arg5 harg5 arg6 harg6 arg7 harg7 arg8 harg8 hc0 hc1 x0 x1 xs0 xs1 xs2).2.2.2.1)

theorem scover1_C_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) (y : S16x1024.Idx) :
    ∃ pc ∈ (kernelRun1_C c i arg2 harg2 arg3 harg3 arg4 harg4 arg5 harg5 arg6 harg6 arg7 harg7 arg8 harg8 hc0 hc1 x0 x1 xs0 xs1 xs2).2.2.2.2.1, y ∈ pc.1.set :=
  View.cover_of_tiledL (kernelRun1_C c i arg2 harg2 arg3 harg3 arg4 harg4 arg5 harg5 arg6 harg6 arg7 harg7 arg8 harg8 hc0 hc1 x0 x1 xs0 xs1 xs2).2.2.2.2.1 S16x1024.size (by sl_kernel_rfl) y

/-- What a last tile leaves in the running-numerator scratch. -/
def sout1_C_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) : Vec F S16x1024 .f32 :=
  VS1_2.read (Elt F) (VS1_2.writes (Elt F) VS1_2.junk (kernelRun1_C c i arg2 harg2 arg3 harg3 arg4 harg4 arg5 harg5 arg6 harg6 arg7 harg7 arg8 harg8 hc0 hc1 x0 x1 xs0 xs1 xs2).2.2.2.2.1)

section
variable (V : (c : Dev nD) → (b : Ref sig .tc) → Buf (Elt F) ((c : Thread nD τ).loc b))

/-- A placeholder for a result buffer at a point that stores nothing into it (nothing consults it there). -/
def idleOut : Vec F S16x1024 .f32 := VO1_2.read (Elt F) (VO1_2.writes (Elt F) VO1_2.junk [])

/-- What the two result buffers and the three scratch buffers hold after the body at position `n`: a first tile starts
    afresh, a middle or last tile continues from what position `n - 1` left in the scratch buffers. In order: context
    result, coefficient result, running maximum, running denominator, running numerator. -/
def outsAt1 (c : Dev nD) : (n : ℕ) → n < cfg1.N → Vec F S16x1024 .f32 × Vec F S16x1024 .f32 × Vec F S16x1024 .f32 × Vec F S16x1024 .f32 × Vec F S16x1024 .f32
  | 0, hn =>
    have h0 : cond1_0 (grid1.coords ⟨0, hn⟩) := (hcond1_0 ⟨0, hn⟩).mpr (Nat.zero_mod _)
    have h1 : ¬cond1_1 (grid1.coords ⟨0, hn⟩) := fun h => by have := (hcond1_1 ⟨0, hn⟩).mp h; (try dsimp only at this); omega
    (idleOut, idleOut,
      sout1_A_0 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) h0 h1 (iblk1 V c 0 ⟨0, hn⟩) (iblk1 V c 1 ⟨0, hn⟩),
      sout1_A_1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) h0 h1 (iblk1 V c 0 ⟨0, hn⟩) (iblk1 V c 1 ⟨0, hn⟩),
      sout1_A_2 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) scM1_0 (Memref.isWhole_whole _) scM1_1 (Memref.isWhole_whole _) scM1_2 (Memref.isWhole_whole _) h0 h1 (iblk1 V c 0 ⟨0, hn⟩) (iblk1 V c 1 ⟨0, hn⟩))
  | n + 1, hn =>
    if h0 : (n + 1) % 32 = 0 then
      have hc0 : cond1_0 (grid1.coords ⟨n + 1, hn⟩) := (hcond1_0 ⟨n + 1, hn⟩).mpr h0
      have hc1 : ¬cond1_1 (grid1.coords ⟨n + 1, hn⟩) := fun h => by have := (hcond1_1 ⟨n + 1, hn⟩).mp h; (try dsimp only at this); omega
      (idleOut, idleOut,
        sout1_A_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩),
        sout1_A_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩),
        sout1_A_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩))
    else
      have hc0 : ¬cond1_0 (grid1.coords ⟨n + 1, hn⟩) := fun h => h0 ((hcond1_0 ⟨n + 1, hn⟩).mp h)
      let p := outsAt1 c n (Nat.lt_of_succ_lt hn)
      if h1 : (n + 1) % 32 = 31 then
        have hc1 : cond1_1 (grid1.coords ⟨n + 1, hn⟩) := (hcond1_1 ⟨n + 1, hn⟩).mpr h1
        (out1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         out1_C_3 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         sout1_C_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         sout1_C_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         sout1_C_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2)
      else
        have hc1 : ¬cond1_1 (grid1.coords ⟨n + 1, hn⟩) := fun h => h1 ((hcond1_1 ⟨n + 1, hn⟩).mp h)
        (idleOut, idleOut,
         sout1_B_0 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         sout1_B_1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2,
         sout1_B_2 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) scM1_0 (Memref.isWhole_whole _) scM1_1 (Memref.isWhole_whole _) scM1_2 (Memref.isWhole_whole _) hc0 hc1 (iblk1 V c 0 ⟨n + 1, hn⟩) (iblk1 V c 1 ⟨n + 1, hn⟩) p.2.2.1 p.2.2.2.1 p.2.2.2.2)

/-- The scratch contents after position `n`. -/
abbrev sc0 (c : Dev nD) (n : ℕ) (hn : n < cfg1.N) : Vec F S16x1024 .f32 := (outsAt1 V c n hn).2.2.1
abbrev sc1 (c : Dev nD) (n : ℕ) (hn : n < cfg1.N) : Vec F S16x1024 .f32 := (outsAt1 V c n hn).2.2.2.1
abbrev sc2 (c : Dev nD) (n : ℕ) (hn : n < cfg1.N) : Vec F S16x1024 .f32 := (outsAt1 V c n hn).2.2.2.2

theorem prev_lt (t : Fin cfg1.N) : t.val - 1 < cfg1.N := Nat.lt_of_le_of_lt (Nat.sub_le _ _) t.isLt

/-- `outsAt1` at a first tile. -/
theorem outsAt1_A (c : Dev nD) (t : Fin cfg1.N) (hc0 : cond1_0 (grid1.coords t)) (hc1 : ¬cond1_1 (grid1.coords t)) :
    outsAt1 V c t.val t.isLt = (idleOut, idleOut,
      sout1_A_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t),
      sout1_A_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t),
      sout1_A_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t)) := by
  obtain ⟨n, hn⟩ := t
  cases n with
  | zero => rfl
  | succ n => exact (dif_pos ((hcond1_0 ⟨n + 1, hn⟩).mp hc0)).trans rfl

/-- `outsAt1` at a middle tile: over what the point before left. -/
theorem outsAt1_B (c : Dev nD) (t : Fin cfg1.N) (hc0 : ¬cond1_0 (grid1.coords t)) (hc1 : ¬cond1_1 (grid1.coords t)) :
    outsAt1 V c t.val t.isLt = (idleOut, idleOut,
      sout1_B_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      sout1_B_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      sout1_B_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t))) := by
  obtain ⟨n, hn⟩ := t
  cases n with
  | zero => exact absurd ((hcond1_0 ⟨0, hn⟩).mpr (Nat.zero_mod _)) hc0
  | succ n => exact (dif_neg (fun h => hc0 ((hcond1_0 ⟨n + 1, hn⟩).mpr h))).trans ((dif_neg (fun h => hc1 ((hcond1_1 ⟨n + 1, hn⟩).mpr h))).trans rfl)

/-- `outsAt1` at a last tile: over what the point before left. -/
theorem outsAt1_C (c : Dev nD) (t : Fin cfg1.N) (hc0 : ¬cond1_0 (grid1.coords t)) (hc1 : cond1_1 (grid1.coords t)) :
    outsAt1 V c t.val t.isLt = (
      out1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      out1_C_3 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      sout1_C_0 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      sout1_C_1 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t)),
      sout1_C_2 c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 (iblk1 V c 0 t) (iblk1 V c 1 t) (sc0 V c (t.val - 1) (prev_lt t)) (sc1 V c (t.val - 1) (prev_lt t)) (sc2 V c (t.val - 1) (prev_lt t))) := by
  obtain ⟨n, hn⟩ := t
  cases n with
  | zero => exact absurd ((hcond1_0 ⟨0, hn⟩).mpr (Nat.zero_mod _)) hc0
  | succ n => exact (dif_neg (fun h => hc0 ((hcond1_0 ⟨n + 1, hn⟩).mpr h))).trans ((dif_pos ((hcond1_1 ⟨n + 1, hn⟩).mp hc1)).trans rfl)

/-- The region invariant before position `n`: before the first point the entry invariant (every scratch at anything);
    afterwards the three scratch buffers at what the point before left, the other regions' scoped buffers, and the
    generator register. -/
def PhiS (c : Dev nD) : (n : ℕ) → n ≤ cfg1.N → sProp 𝕄
  | 0, _ => Pipeline.ΦA spec1 c
  | n + 1, hn => iprop((owns (c : Thread nD τ) scM1_0 fullShare (sc0 V c n hn) ∗ owns (c : Thread nD τ) scM1_1 fullShare (sc1 V c n hn) ∗ owns (c : Thread nD τ) scM1_2 fullShare (sc2 V c n hn)) ∗ Rest1 (F := F) c ∗ (∃ r, prngReg c r))

theorem PhiS_succ (c : Dev nD) (n : ℕ) (hn : n < cfg1.N) :
    PhiS V c (n + 1) hn = iprop((owns (c : Thread nD τ) scM1_0 fullShare (sc0 V c n hn) ∗ owns (c : Thread nD τ) scM1_1 fullShare (sc1 V c n hn) ∗ owns (c : Thread nD τ) scM1_2 fullShare (sc2 V c n hn)) ∗ Rest1 (F := F) c ∗ (∃ r, prngReg c r)) := rfl

theorem PhiS_pos (c : Dev nD) (n : ℕ) (h : n ≤ cfg1.N) (hz : n ≠ 0) :
    PhiS V c n h = iprop((owns (c : Thread nD τ) scM1_0 fullShare (sc0 V c (n - 1) (by omega)) ∗ owns (c : Thread nD τ) scM1_1 fullShare (sc1 V c (n - 1) (by omega)) ∗ owns (c : Thread nD τ) scM1_2 fullShare (sc2 V c (n - 1) (by omega))) ∗ Rest1 (F := F) c ∗ (∃ r, prngReg c r)) := by
  cases n with
  | zero => exact absurd rfl hz
  | succ n => rfl

/-- At any position the invariant gives the three scratch buffers at SOME contents (their named contents forgotten). -/
theorem PhiS_any (c : Dev nD) (n : ℕ) (h : n ≤ cfg1.N) :
    PhiS V c n h ⊢ iprop(((∃ d, owns (c : Thread nD τ) scM1_0 fullShare d) ∗ (∃ d, owns (c : Thread nD τ) scM1_1 fullShare d) ∗ (∃ d, owns (c : Thread nD τ) scM1_2 fullShare d)) ∗ Rest1 (F := F) c ∗ (∃ r, prngReg c r)) := by
  cases n with
  | zero => exact PhiA1_split c
  | succ n =>
    rw [PhiS_succ]
    iintro ⟨⟨S0, S1, S2⟩, HR, Hg⟩
    isplitl [S0 S1 S2]
    · isplitl [S0]; · iexists _; iexact S0
      isplitl [S1]; · iexists _; iexact S1
      iexists _; iexact S2
    isplitl [HR]; · iexact HR
    iexact Hg

/-- The proof data of region 1. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (outsAt1 V c t.val t.isLt).1
    | ⟨3, _⟩ => (outsAt1 V c t.val t.isLt).2.1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (outsAt1 V c t.val t.isLt).1 := by dsimp only [dat1]
theorem after1_3 (c : Dev nD) (t : Fin cfg1.N) : (dat1 V c).after 3 t = (outsAt1 V c t.val t.isLt).2.1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4800000 in
/-- The body at any point: which kind of tile it is is decided from the point's position; the invariant hands the body
    the scratch buffers at what the point before left (at anything at a first tile) and takes them back at this point's contents. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [PhiS_castSucc V c t]
  by_cases hc0 : cond1_0 (grid1.coords t)
  · have hc1 : ¬cond1_1 (grid1.coords t) := fun h => by
      have h0 := (hcond1_0 t).mp hc0; have h1 := (hcond1_1 t).mp h; omega
    rw [Dat.leavesExact_idle (dat1 V c) 2 t (idleAt1_2_A t hc0 hc1) (noFlush1_2_A t hc0 hc1)]
    rw [Dat.leavesExact_idle (dat1 V c) 3 t (idleAt1_3_A t hc0 hc1) (noFlush1_3_A t hc0 hc1)]
    unfold sc0 sc1 sc2
    rw [outsAt1_A V c t hc0 hc1]
    unfold sout1_A_0 sout1_A_1 sout1_A_2; (try dsimp only)
    iintro ⟨HΦ, Ho, ⟨%d0, H0⟩, ⟨%d1, H1⟩, ⟨%d2, H2⟩, ⟨%d3, H3⟩⟩
    ihave HΦ' := (PhiS_any V c _ _) $$ HΦ
    icases HΦ' with ⟨⟨HS0, HS1, HS2⟩, HR, Hg⟩
    iapply ((kernelRun1_A c (grid1.coords t) _ _ _ _ _ _ _ _ _ _ _ _ _ _ hc0 hc1 (iblk1 V c 0 t) (iblk1 V c 1 t)).2.2.2 _ _ Set.univ _)
    isplitl [H0]; · iexact H0
    isplitl [H1]; · iexact H1
    isplitl [H2]; · iexact H2
    isplitl [H3]; · iexact H3
    isplitl [HS0]; · iexact HS0
    isplitl [HS1]; · iexact HS1
    isplitl [HS2]; · iexact HS2
    iintro ⟨H0, H1, H2, H3, ⟨%es0, HS0⟩, ⟨%es1, HS1⟩, ⟨%es2, HS2⟩⟩
    isplitl [HS0 HS1 HS2 HR Hg]
    · isplitl [HS0 HS1 HS2]
      · isplitl [HS0]
        · unfold owns; iexists _; isplitr
          swap; · iexact HS0
          ipureintro; exact View.read_writes_of_cover _ _ _ _ _ (scover1_A_0 c _ _ _ _ _ _ _ _ _ _ _ _ _ _ _ _ _ _ _)
        isplitl [HS1]
        · unfold owns; iexists _; isplitr
          swap; · iexact HS1
          ipureintro; exact View.read_writes_of_cover _ _ _ _ _ (scover1_A_1 c _ _ _ _ _ _ _ _ _ _ _ _ _ _ _ _ _ _ _)
        unfold owns; iexists _; isplitr
        swap; · iexact HS2
        ipureintro; exact View.read_writes_of_cover _ _ _ _ _ (scover1_A_2 c _ _ _ _ _ _ _ _ _ _ _ _ _ _ _ _ _ _ _)
      isplitl [HR]; · iexact HR
      iexact Hg
    isplitl [Ho]; · iexact Ho
    isplitl [H0]; · iexact H0
    isplitl [H1]; · iexact H1
    isplitl [H2]; · iexists _; iexact H2
    iexists _; iexact H3
  · have hz : t.val ≠ 0 := fun h => hc0 ((hcond1_0 t).mpr (by rw [h]))
    rw [PhiS_pos V c _ _ hz]
    by_cases hc1 : cond1_1 (grid1.coords t)
    · rw [show (dat1 V c).leavesExact 2 t = owns (c : Thread nD τ) (ms1_2 t) fullShare ((dat1 V c).after 2 t) from by
        unfold Dat.leavesExact; rw [liveAt1_2_C t hc0 hc1], after1_2]
      rw [show (dat1 V c).leavesExact 3 t = owns (c : Thread nD τ) (ms1_3 t) fullShare ((dat1 V c).after 3 t) from by
        unfold Dat.leavesExact; rw [liveAt1_3_C t hc0 hc1], after1_3]
      unfold sc0 sc1 sc2
      rw [outsAt1_C V c t hc0 hc1]
      unfold out1_C_2 out1_C_3 sout1_C_0 sout1_C_1 sout1_C_2; (try dsimp only)
      iintro ⟨⟨⟨HS0, HS1, HS2⟩, HR, Hg⟩, Ho, ⟨%d0, H0⟩, ⟨%d1, H1⟩, ⟨%d2, H2⟩, ⟨%d3, H3⟩⟩
      iapply ((kernelRun1_C c (grid1.coords t) _ _ _ _ _ _ _ _ _ _ _ _ _ _ hc0 hc1 (iblk1 V c 0 t) (iblk1 V c 1 t) _ _ _).2.2.2.2.2 Set.univ _)
      isplitl [H0]; · iexact H0
      isplitl [H1]; · iexact H1
      isplitl [H2]; · iexists _; iexact H2
      isplitl [H3]; · iexists _; iexact H3
      isplitl [HS0]; · iexact HS0
      isplitl [HS1]; · iexact HS1
      isplitl [HS2]; · iexact HS2
      iintro ⟨H0, H1, ⟨%e2, H2⟩, ⟨%e3, H3⟩, ⟨%es0, HS0⟩, ⟨%es1, HS1⟩, ⟨%es2, HS2⟩⟩
      isplitl [HS0 HS1 HS2 HR Hg]
      · isplitl [HS0 HS1 HS2]
        · isplitl [HS0]
          · unfold owns; iexists _; isplitr
            swap; · iexact HS0
            ipureintro; exact View.read_writes_of_cover _ _ _ _ _ (scover1_C_0 c _ _ _ _ _ _ _ _ _ _ _ _ _ _ _ _ _ _ _ _ _ _)
          isplitl [HS1]
          · unfold owns; iexists _; isplitr
            swap; · iexact HS1
            ipureintro; exact View.read_writes_of_cover _ _ _ _ _ (scover1_C_1 c _ _ _ _ _ _ _ _ _ _ _ _ _ _ _ _ _ _ _ _ _ _)
          unfold owns; iexists _; isplitr
          swap; · iexact HS2
          ipureintro; exact View.read_writes_of_cover _ _ _ _ _ (scover1_C_2 c _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]
      · unfold owns; iexists _; isplitr
        swap; · iexact H2
        ipureintro; exact View.read_writes_of_cover _ _ _ _ _ (cover1_C_2 c _ _ _ _ _ _ _ _ _ _ _ _ _ _ _ _ _ _ _ _ _ _)
      unfold owns; iexists _; isplitr
      swap; · iexact H3
      ipureintro; exact View.read_writes_of_cover _ _ _ _ _ (cover1_C_3 c _ _ _ _ _ _ _ _ _ _ _ _ _ _ _ _ _ _ _ _ _ _)
    · rw [Dat.leavesExact_idle (dat1 V c) 2 t (idleAt1_2_B t hc0 hc1) (noFlush1_2_B t hc0 hc1)]
      rw [Dat.leavesExact_idle (dat1 V c) 3 t (idleAt1_3_B t hc0 hc1) (noFlush1_3_B t hc0 hc1)]
      unfold sc0 sc1 sc2
      rw [outsAt1_B V c t hc0 hc1]
      unfold sout1_B_0 sout1_B_1 sout1_B_2; (try dsimp only)
      iintro ⟨⟨⟨HS0, HS1, HS2⟩, HR, Hg⟩, Ho, ⟨%d0, H0⟩, ⟨%d1, H1⟩, ⟨%d2, H2⟩, ⟨%d3, H3⟩⟩
      iapply ((kernelRun1_B c (grid1.coords t) _ _ _ _ _ _ _ _ _ _ _ _ _ _ hc0 hc1 (iblk1 V c 0 t) (iblk1 V c 1 t) _ _ _).2.2.2 _ _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%es0, HS0⟩, ⟨%es1, HS1⟩, ⟨%es2, HS2⟩⟩
      isplitl [HS0 HS1 HS2 HR Hg]
      · isplitl [HS0 HS1 HS2]
        · isplitl [HS0]
          · unfold owns; iexists _; isplitr
            swap; · iexact HS0
            ipureintro; exact View.read_writes_of_cover _ _ _ _ _ (scover1_B_0 c _ _ _ _ _ _ _ _ _ _ _ _ _ _ _ _ _ _ _ _ _ _)
          isplitl [HS1]
          · unfold owns; iexists _; isplitr
            swap; · iexact HS1
            ipureintro; exact View.read_writes_of_cover _ _ _ _ _ (scover1_B_1 c _ _ _ _ _ _ _ _ _ _ _ _ _ _ _ _ _ _ _ _ _ _)
          unfold owns; iexists _; isplitr
          swap; · iexact HS2
          ipureintro; exact View.read_writes_of_cover _ _ _ _ _ (scover1_B_2 c _ _ _ _ _ _ _ _ _ _ _ _ _ _ _ _ _ _ _ _ _ _)
        isplitl [HR]; · iexact HR
        iexact Hg
      isplitl [Ho]; · iexact Ho
      isplitl [H0]; · iexact H0
      isplitl [H1]; · iexact H1
      isplitl [H2]; · iexists _; iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the launch hands the region is the invariant before the first point. -/
theorem hin1 (c : Dev nD) : Pipeline.ΦA spec1 c ⊢ (dat1 V c).Φ 0 := by
  rw [show (dat1 V c).Φ 0 = Pipeline.ΦA spec1 c from rfl]

/-- After the last point the invariant gives the entry invariant back: the scratch buffers' named contents are forgotten. -/
theorem Phi_out1 (c : Dev nD) (t : Fin (cfg1.N + 1)) : (dat1 V c).Φ t ⊢ Pipeline.ΦA spec1 c := by
  rw [show (dat1 V c).Φ t = PhiS V c t.val (Nat.le_of_lt_succ t.isLt) from rfl]
  exact (PhiS_any V c t.val (Nat.le_of_lt_succ t.isLt)).trans (PhiA1_join c)
theorem hout1 (c : Dev nD) : (dat1 V c).Φ (Fin.last cfg1.N) ⊢ Pipeline.ΦA spec1 c := Phi_out1 V c _

end

end Cert.KernelIdeal.Fr

end
-- ==== Proof.KI_R2.lean ====
import proofs.«155699_j19834158973688_2_alg».proof.Proof.Gen.KernelIdeal.Launch
import proofs.«155699_j19834158973688_2_alg».proof.Proof.Gen.KernelIdeal.Skeleton
import proofs.«155699_j19834158973688_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 2: the weights pass (2 × 32 grid points; at each, a 16 × 64 × 1024 tile of exp (score) times the coefficient row) -/

section
variable (V : (c : Dev nD) → (b : Ref sig .tc) → Buf (Elt F) ((c : Thread nD τ).loc b))

/-- Window `w`'s block at point `t`, read off its array as the region finds it. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- Input window 0 of region 2: its current staging buffer holds the window's block at every point, whether the
    point fetched it or kept it from the point before (the block index has not moved). -/
theorem before2_0_of {c : Dev nD} (dat : Dat τ (Elt F) Unit ℕ (UR sig nD τ) ℕ cfg2 c) (hA : dat.A 0 = V c (Pipeline.arrRef spec2 0))
    (hafter : ∀ t, dat.after 0 t = iblk2 V c 0 t) (t : Fin cfg2.N) (d) : dat.before 0 t d = iblk2 V c 0 t :=
  (dat.before_in_eq_fetched 0 rfl (fun _ => rfl) (fun _ _ _ => rfl) (fun t => by rw [hafter]; unfold Dat.blockOf iblk2; rw [hA]; try rfl) t d).trans
    (by unfold Dat.fetched Dat.blockOf iblk2; rw [hA]; try rfl)

/-- Input window 1 of region 2: its current staging buffer holds the window's block at every point, whether the
    point fetched it or kept it from the point before (the block index has not moved). -/
theorem before2_1_of {c : Dev nD} (dat : Dat τ (Elt F) Unit ℕ (UR sig nD τ) ℕ cfg2 c) (hA : dat.A 1 = V c (Pipeline.arrRef spec2 1))
    (hafter : ∀ t, dat.after 1 t = iblk2 V c 1 t) (t : Fin cfg2.N) (d) : dat.before 1 t d = iblk2 V c 1 t :=
  (dat.before_in_eq_fetched 1 rfl (fun _ => rfl) (fun _ _ _ => rfl) (fun t => by rw [hafter]; unfold Dat.blockOf iblk2; rw [hA]; try rfl) t d).trans
    (by unfold Dat.fetched Dat.blockOf iblk2; rw [hA]; try rfl)

/-- Input window 2 of region 2: its current staging buffer holds the window's block at every point, whether the
    point fetched it or kept it from the point before (the block index has not moved). -/
theorem before2_2_of {c : Dev nD} (dat : Dat τ (Elt F) Unit ℕ (UR sig nD τ) ℕ cfg2 c) (hA : dat.A 2 = V c (Pipeline.arrRef spec2 2))
    (hafter : ∀ t, dat.after 2 t = iblk2 V c 2 t) (t : Fin cfg2.N) (d) : dat.before 2 t d = iblk2 V c 2 t :=
  (dat.before_in_eq_fetched 2 rfl (fun _ => rfl) (fun _ _ _ => rfl) (fun t => by rw [hafter]; unfold Dat.blockOf iblk2; rw [hA]; try rfl) t d).trans
    (by unfold Dat.fetched Dat.blockOf iblk2; rw [hA]; try rfl)

abbrev r2_a : Rect S16x1x1024 := Rect.unit (s := S16x1x1024) ![0, 0, 0] S16x1x1024.size inb_S16x1x1024_S16x1x1024_0_0_0
abbrev r2_b : Rect S16x64x1024 := Rect.unit (s := S16x64x1024) ![0, 0, 0] S16x64x1024.size inb_S16x64x1024_S16x64x1024_0_0_0
abbrev r2_c : Rect S16x1024 := Rect.unit (s := S16x1024) ![0, 0] S16x1024.size inb_S16x1024_S16x1024_0_0

/-- The weights tile after the body: its one store, over the three loaded blocks (projection rows, encoder tile, coefficient rows). -/
def out2_3 (x0 : Vec F S16x1x1024 .f32) (x1 : Vec F S16x64x1024 .f32) (x2 : Vec F S16x1024 .f32) : Vec F S16x64x1024 .f32 :=
  View.canon [⟨r2_b, k2_pay1 (View.ld x1 r2_b) (View.ld x0 r2_a) (View.ld x2 r2_c)⟩]

theorem cover2_3 (p0 : Vec F S16x64x1024 .f32) (y : S16x64x1024.Idx) :
    ∃ pc ∈ ([⟨r2_b, p0⟩] : List (View.Piece (Elt F) S16x64x1024 .f32)), y ∈ pc.1.set :=
  View.cover_of_tiled [⟨r2_b, p0⟩] S16x64x1024.size (by rfl) y

set_option maxHeartbeats 1000000 in
/-- The body on whole staging memrefs: the three inputs are left as found, the weights tile ends at `out2_3` of them. -/
theorem sound_kernel2 (c : Dev nD) (E : Set ℕ) (i : grid2.Coords) (arg2 : Memref sig .tc .vmem S16x1x1024 .f32) (harg2 : arg2.IsWhole) (arg3 : Memref sig .tc .vmem S16x64x1024 .f32) (harg3 : arg3.IsWhole)
    (arg4 : Memref sig .tc .vmem S16x1024 .f32) (harg4 : arg4.IsWhole) (arg5 : Memref sig .tc .vmem S16x64x1024 .f32) (harg5 : arg5.IsWhole)
    (x0 : Vec F S16x1x1024 .f32) (x1 : Vec F S16x64x1024 .f32) (x2 : Vec F S16x1024 .f32) (K : PUnit → sProp 𝕄) :
    iprop(owns (c : Thread nD τ) arg2 fullShare x0 ∗ owns (c : Thread nD τ) arg3 fullShare x1 ∗ owns (c : Thread nD τ) arg4 fullShare x2 ∗ (∃ d, owns (c : Thread nD τ) arg5 fullShare d)
        ∗ (iprop(owns (c : Thread nD τ) arg2 fullShare x0 ∗ owns (c : Thread nD τ) arg3 fullShare x1 ∗ owns (c : Thread nD τ) arg4 fullShare x2 ∗ owns (c : Thread nD τ) arg5 fullShare (out2_3 x0 x1 x2)) -∗ K ⟨⟩))
      ⊢ wp frame (wpE (defs₀ (F := F)) Variants.none c none) E (cc2__aw_kernel i arg2 harg2 arg3 harg3 arg4 harg4 arg5 harg5) K := by
  simp only [cc2__aw_kernel_eq_skeleton]; unfold cc2__aw_kernel_skel
  unfold owns
  iintro ⟨⟨%f0, %hf0, H0⟩, ⟨%f1, %hf1, H1⟩, ⟨%f2, %hf2, H2⟩, ⟨%d3, %f3, -, H3⟩, Hk⟩
  subst hf0; subst hf1; subst hf2
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  iexists _; isplitr
  swap; · iexact H3
  ipureintro
  exact View.read_writes_eq_canon _ _ _ (cover2_3 _)

/-- The proof data of region 2: the arrays as the region finds them; each input's buffer keeps its block, the weights' holds `out2_3` of the blocks. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => iblk2 V c 2 t
    | ⟨3, _⟩ => out2_3 (iblk2 V c 0 t) (iblk2 V c 1 t) (iblk2 V c 2 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = iblk2 V c 2 t := by dsimp only [dat2]
theorem after2_3 (c : Dev nD) (t : Fin cfg2.N) : (dat2 V c).after 3 t = out2_3 (iblk2 V c 0 t) (iblk2 V c 1 t) (iblk2 V c 2 t) := by dsimp only [dat2]

theorem before2_0 (c : Dev nD) (t : Fin cfg2.N) (d) : (dat2 V c).before 0 t d = iblk2 V c 0 t :=
  before2_0_of V (dat2 V c) (A_eq2 V c 0) (after2_0 V c) t d
theorem before2_1 (c : Dev nD) (t : Fin cfg2.N) (d) : (dat2 V c).before 1 t d = iblk2 V c 1 t :=
  before2_1_of V (dat2 V c) (A_eq2 V c 1) (after2_1 V c) t d
theorem before2_2 (c : Dev nD) (t : Fin cfg2.N) (d) : (dat2 V c).before 2 t d = iblk2 V c 2 t :=
  before2_2_of V (dat2 V c) (A_eq2 V c 2) (after2_2 V c) t d

def bodyPre2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d)))

def bodyPost2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t))

theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1, before2_2]
  rw [show (dat2 V c).Φ t.succ = (dat2 V c).Φ t.castSucc from rfl,
    show (dat2 V c).owesAt () t.succ = (dat2 V c).owesAt () t.castSucc from rfl,
    after2_0, after2_1, after2_2, after2_3]
  iintro ⟨HΦ, Ho, ⟨%d0, H0⟩, ⟨%d1, H1⟩, ⟨%d2, H2⟩, ⟨%d3, H3⟩⟩
  iapply (sound_kernel2 c Set.univ _ _ _ _ _ _ _ _ _ (iblk2 V c 0 t) (iblk2 V c 1 t) (iblk2 V c 2 t) _)
  isplitl [H0]; · iexact H0
  isplitl [H1]; · iexact H1
  isplitl [H2]; · iexact H2
  isplitl [H3]; · iexists _; iexact H3
  iintro ⟨H0, H1, H2, H3⟩
  isplitl [HΦ]; · iexact HΦ
  isplitl [Ho]; · iexact Ho
  isplitl [H0]; · iexact H0
  isplitl [H1]; · iexact H1
  isplitl [H2]; · iexact H2
  iexact H3

theorem body_obligation2 (c : Dev nD) : BodyObligation (dat2 (F := F) V c) (defs₀ (F := F)) Variants.none () Set.univ := fun t => by
  rw [bigSep_W2, bigSep_W2]
  exact sound_body2 V c t

end

end Cert.KernelIdeal.Fr

end
-- ==== Proof.KI_Run.lean ====
import proofs.«155699_j19834158973688_2_alg».proof.Proof.KI_R0
import proofs.«155699_j19834158973688_2_alg».proof.Proof.KI_R1
import proofs.«155699_j19834158973688_2_alg».proof.Proof.KI_R2

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # The run: @main's four segments (projection region, one host broadcast, statistics region, weights region) from the launch to the return -/

variable (m : (ℓ : Loc nD τ sig) → Buf (Elt F) ℓ) (ρ : Dev nD → PrngReg)

/-- Core `c`'s buffers at launch (region 0's entry: nothing precedes it). -/
abbrev W0 : Dev nD → Valuation τ sig (Elt F) := fun c b => (s₀ m ρ).mem ((c : Dev nD), b)
abbrev Ve0 : (c : Dev nD) → (b : Ref sig .tc) → Buf (Elt F) ((c : Thread nD τ).loc b) := fun c b => W0 m ρ c b

/-- At region 0's exit: its arrays at what the pipeline leaves (inputs as entered, each output's write-backs folded), every other buffer as entered. -/
def W1 (c : Dev nD) : Valuation τ sig (Elt F) :=
  Pipeline.withArrays spec0 c (W0 m ρ c) fun w => (dat0 (Ve0 m ρ) c).arrAt w cfg0.N
theorem W1_arr (c : Dev nD) (w : Fin cfg0.W) :
    W1 m ρ c (Proc.devRef .tc (Pipeline.arrRef spec0 w)) = (dat0 (Ve0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb

abbrev Vx0 : (c : Dev nD) → (b : Ref sig .tc) → Buf (Elt F) ((c : Thread nD τ).loc b) := fun c b => W1 m ρ c b
theorem hF0 (c : Dev nD) (w : Fin cfg0.W) : (dat0 (Ve0 m ρ) c).arrAt w cfg0.N = Vx0 m ρ c (Pipeline.arrRef spec0 w) :=
  (W1_arr m ρ c w).symm
theorem hrest0 (c : Dev nD) : ∀ b, b ∉ Finset.univ.image (Pipeline.arrRef spec0) → Vx0 m ρ c b = Ve0 m ρ c b :=
  fun b hb => W1_of_ne m ρ c b fun w e => hb (Finset.mem_image.mpr ⟨w, Finset.mem_univ _, e⟩)

/-- After the host broadcast (region 1's entry). -/
abbrev W2 : Dev nD → Valuation τ sig (Elt F) := fun c => StableHlo.after hostOps1 (W1 m ρ c)
abbrev Ve1 : (c : Dev nD) → (b : Ref sig .tc) → Buf (Elt F) ((c : Thread nD τ).loc b) := fun c b => W2 m ρ c b

/-- At region 1's exit: its arrays at what the pipeline leaves (inputs as entered, each output's write-backs folded), every other buffer as entered. -/
def W3 (c : Dev nD) : Valuation τ sig (Elt F) :=
  Pipeline.withArrays spec1 c (W2 m ρ c) fun w => (dat1 (Ve1 m ρ) c).arrAt w cfg1.N
theorem W3_arr (c : Dev nD) (w : Fin cfg1.W) :
    W3 m ρ c (Proc.devRef .tc (Pipeline.arrRef spec1 w)) = (dat1 (Ve1 m ρ) c).arrAt w cfg1.N := by
  unfold W3; exact Pipeline.withArrays_arr spec1 launch1.win.arr_inj c _ _ w
theorem W3_of_ne (c : Dev nD) (b : Ref sig .tc) (hb : ∀ w, Pipeline.arrRef spec1 w ≠ b) :
    W3 m ρ c (Proc.devRef .tc b) = W2 m ρ c (Proc.devRef .tc b) := by
  unfold W3; exact Pipeline.withArrays_of_ne spec1 c _ _ b hb

abbrev Vx1 : (c : Dev nD) → (b : Ref sig .tc) → Buf (Elt F) ((c : Thread nD τ).loc b) := fun c b => W3 m ρ c b
theorem hF1 (c : Dev nD) (w : Fin cfg1.W) : (dat1 (Ve1 m ρ) c).arrAt w cfg1.N = Vx1 m ρ c (Pipeline.arrRef spec1 w) :=
  (W3_arr m ρ c w).symm
theorem hrest1 (c : Dev nD) : ∀ b, b ∉ Finset.univ.image (Pipeline.arrRef spec1) → Vx1 m ρ c b = Ve1 m ρ c b :=
  fun b hb => W3_of_ne m ρ c b fun w e => hb (Finset.mem_image.mpr ⟨w, Finset.mem_univ _, e⟩)

/-- Region 2 is entered from region 1's exit contents. -/
abbrev Ve2 : (c : Dev nD) → (b : Ref sig .tc) → Buf (Elt F) ((c : Thread nD τ).loc b) := fun c b => W3 m ρ c b

/-- At region 2's exit: its arrays at what the pipeline leaves (inputs as entered, each output's write-backs folded), every other buffer as entered. -/
def W4 (c : Dev nD) : Valuation τ sig (Elt F) :=
  Pipeline.withArrays spec2 c (W3 m ρ c) fun w => (dat2 (Ve2 m ρ) c).arrAt w cfg2.N
theorem W4_arr (c : Dev nD) (w : Fin cfg2.W) :
    W4 m ρ c (Proc.devRef .tc (Pipeline.arrRef spec2 w)) = (dat2 (Ve2 m ρ) c).arrAt w cfg2.N := by
  unfold W4; exact Pipeline.withArrays_arr spec2 launch2.win.arr_inj c _ _ w
theorem W4_of_ne (c : Dev nD) (b : Ref sig .tc) (hb : ∀ w, Pipeline.arrRef spec2 w ≠ b) :
    W4 m ρ c (Proc.devRef .tc b) = W3 m ρ c (Proc.devRef .tc b) := by
  unfold W4; exact Pipeline.withArrays_of_ne spec2 c _ _ b hb

abbrev Vx2 : (c : Dev nD) → (b : Ref sig .tc) → Buf (Elt F) ((c : Thread nD τ).loc b) := fun c b => W4 m ρ c b
theorem hF2 (c : Dev nD) (w : Fin cfg2.W) : (dat2 (Ve2 m ρ) c).arrAt w cfg2.N = Vx2 m ρ c (Pipeline.arrRef spec2 w) :=
  (W4_arr m ρ c w).symm
theorem hrest2 (c : Dev nD) : ∀ b, b ∉ Finset.univ.image (Pipeline.arrRef spec2) → Vx2 m ρ c b = Ve2 m ρ c b :=
  fun b hb => W4_of_ne m ρ c b fun w e => hb (Finset.mem_image.mpr ⟨w, Finset.mem_univ _, e⟩)

/-! ## The arguments end as launched -/

theorem W4_main_arg0 (c : Dev nD) : W4 m ρ c (Proc.devRef .tc main_arg0) = m ((c : Thread nD τ).loc main_arg0) :=
  calc W4 m ρ c (Proc.devRef .tc main_arg0)
    _ = W3 m ρ c (Proc.devRef .tc main_arg0) := W4_of_ne m ρ c main_arg0 (by decide)
    _ = W2 m ρ c (Proc.devRef .tc main_arg0) := W3_of_ne m ρ c main_arg0 (by decide)
    _ = W1 m ρ c (Proc.devRef .tc main_arg0) := StableHlo.after_of_forall_not_mem (b := Proc.devRef .tc main_arg0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg0) := (W1_arr m ρ c 0).trans (((dat0 (Ve0 m ρ) c).arrAt_in 0 rfl _).trans (A_eq0 (Ve0 m ρ) c 0))
    _ = m ((c : Thread nD τ).loc main_arg0) := rfl

theorem W4_main_arg1 (c : Dev nD) : W4 m ρ c (Proc.devRef .tc main_arg1) = m ((c : Thread nD τ).loc main_arg1) :=
  calc W4 m ρ c (Proc.devRef .tc main_arg1)
    _ = W3 m ρ c (Proc.devRef .tc main_arg1) := (W4_arr m ρ c 1).trans (((dat2 (Ve2 m ρ) c).arrAt_in 1 rfl _).trans (A_eq2 (Ve2 m ρ) c 1))
    _ = W2 m ρ c (Proc.devRef .tc main_arg1) := (W3_arr m ρ c 1).trans (((dat1 (Ve1 m ρ) c).arrAt_in 1 rfl _).trans (A_eq1 (Ve1 m ρ) c 1))
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg1) := W1_of_ne m ρ c main_arg1 (by decide)
    _ = m ((c : Thread nD τ).loc main_arg1) := rfl

theorem W4_main_arg2 (c : Dev nD) : W4 m ρ c (Proc.devRef .tc main_arg2) = m ((c : Thread nD τ).loc main_arg2) :=
  calc W4 m ρ c (Proc.devRef .tc main_arg2)
    _ = W3 m ρ c (Proc.devRef .tc main_arg2) := W4_of_ne m ρ c main_arg2 (by decide)
    _ = W2 m ρ c (Proc.devRef .tc main_arg2) := W3_of_ne m ρ c main_arg2 (by decide)
    _ = W1 m ρ c (Proc.devRef .tc main_arg2) := StableHlo.after_of_forall_not_mem (b := Proc.devRef .tc main_arg2) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg2) := (W1_arr m ρ c 1).trans (((dat0 (Ve0 m ρ) c).arrAt_in 1 rfl _).trans (A_eq0 (Ve0 m ρ) c 1))
    _ = m ((c : Thread nD τ).loc main_arg2) := rfl

theorem W4_main_arg3 (c : Dev nD) : W4 m ρ c (Proc.devRef .tc main_arg3) = m ((c : Thread nD τ).loc main_arg3) :=
  calc W4 m ρ c (Proc.devRef .tc main_arg3)
    _ = W3 m ρ c (Proc.devRef .tc main_arg3) := W4_of_ne m ρ c main_arg3 (by decide)
    _ = W2 m ρ c (Proc.devRef .tc main_arg3) := W3_of_ne m ρ c main_arg3 (by decide)
    _ = W1 m ρ c (Proc.devRef .tc main_arg3) := StableHlo.after_of_forall_not_mem (b := Proc.devRef .tc main_arg3) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg3) := (W1_arr m ρ c 2).trans (((dat0 (Ve0 m ρ) c).arrAt_in 2 rfl _).trans (A_eq0 (Ve0 m ρ) c 2))
    _ = m ((c : Thread nD τ).loc main_arg3) := rfl

/-! ## The proof data family and the thread state -/

abbrev adm : (p : Fin 3) → (pcfgs (F := F) p).Adm := fun p => (cfgs p).toPCfg_adm
def pdats : (p : Fin 3) → (c : Dev nD) → Dat τ (Elt F) Unit ℕ (UR sig nD τ) ℕ (Pipeline.pin (pcfgs (F := F)) adm p) c
  | ⟨0, _⟩ => fun c => dat0 (Ve0 m ρ) c
  | ⟨1, _⟩ => fun c => dat1 (Ve1 m ρ) c
  | ⟨2, _⟩ => fun c => dat2 (Ve2 m ρ) c
abbrev 𝒱₀ : Variants := Variants.none
abbrev L : GSem nD τ sig → Finset Unit := fun _ => ∅
abbrev lv : GSem nD τ sig → Unit → ℕ := fun _ _ => 0
/-- What rides beside the buffers through every segment: the generator register at some state and the core owing nothing. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem hostOps1_fresh' : (hostOps1 : List (HloOp τ sig (Elt F))).Forall fun op => op.fresh = ∅ := by
  simp only [List.Forall]; repeat' constructor
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: its arrays split out of the unscoped buffers at entry and put back at the exit
    contents; the generator register into the region's invariant and out; nothing owed; no semaphore of the kernel's own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (Ve0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (Ve0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (Ve0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (Ve0 m ρ c) (Vx0 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: its arrays split out of the unscoped buffers at entry and put back at the exit
    contents; the generator register into the region's invariant and out; nothing owed; no semaphore of the kernel's own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (Ve1 m ρ) c).loose
  hwaits := Pipeline.hwaits_of_owed_zero _ _ _ _ L lv 1 fun _ _ => rfl
  pre c := iprop(StableHlo.held (c : Thread nD τ) (Pipeline.ucRefs τ sig) (W2 m ρ c) ∗ R c)
  post c := iprop(StableHlo.held (c : Thread nD τ) (Pipeline.ucRefs τ sig) (W3 m ρ c) ∗ R c)
  X c := iprop(∃ r, prngReg c r)
  Y c := iprop(∃ r, prngReg c r)
  Z c := Pipeline.unscopedRest (Ix := Unit) (Name := ℕ) (U := UR sig nD τ) (Lvl := ℕ) spec1 c (Ve1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (Ve1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (Ve1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (Ve1 m ρ c) (Vx1 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 2 over the thread state: its arrays split out of the unscoped buffers at entry and put back at the exit
    contents; the generator register into the region's invariant and out; nothing owed; no semaphore of the kernel's own. -/
def reg2 : Pipeline.RegionSeg (pcfgs (F := F)) adm (pdats m ρ) () defs₀ 𝒱₀ L lv 2 where
  win := launch2.win.to₀
  block_pos := launch2.block_pos
  stage_whole := launch2.stage_whole
  K := PEmpty
  osem k := k.elim
  ho := Pipeline.OwnSemFacts.none _
  hbody c := (body_obligation2 (Ve2 m ρ) c).loose
  hwaits := Pipeline.hwaits_of_owed_zero _ _ _ _ L lv 2 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec2 c (Ve2 m ρ c)
  hentry c := by
    rw [Pipeline.ownSems0_none]
    have hsplit := Pipeline.arrays_of_unscopedBufs (p := 2) (pcfgs (F := F)) adm (pdats m ρ) launch2.win launch2.arr_whole c
      ((pdats m ρ 2 c).share_full fun _ => rfl) (Ve2 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 2 c).Φ 0 = Pipeline.ΦA spec2 c from rfl]; unfold Pipeline.ΦA
    iintro ⟨Hp, -, Hr⟩
    isplitl [Hr]; · iexact Hr
    iexact Hp
  hout c := by
    rw [Pipeline.ownSems0_none, show (pdats m ρ 2 c).Φ (Fin.last _) = Pipeline.ΦA spec2 c from rfl]; unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (pdats m ρ) ((pdats m ρ 2 c).share_full fun _ => rfl)
      (Ve2 m ρ c) (Vx2 m ρ c) ((pdats m ρ 2 c).arrAt · cfg2.N) (hF2 m ρ c) (hrest2 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .region (reg0 m ρ),
    .host (hseg hostOps1 hostOps1_sub hostOps1_fresh' (W1 m ρ)),
    .region (reg1 m ρ),
    .region (reg2 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting, and
    every final state holds every unscoped buffer at the last boundary's contents `W4`. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h c => h c)

/-- THE FRAME: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all m ρ)

end Cert.KernelIdeal.Fr

end
-- ==== Proof.Spec.lean ====
/-
  What the two programs compute, as plain mathematics over the extended reals.

  For one batch row b and one feature u, write x s = p · e s for the score at sequence position s (p the projection
  entry, e s the encoder entry). The reference takes M = max over s of x s, the weights
  exp (x s - M) / Σ exp (x s' - M), and the context Σ weight s · e s. The kernel walks the sequence in 32 tiles of 64
  positions keeping a running maximum m, a running denominator l and a running numerator a, rescaling both by
  exp (m_old - m_new) at each tile; at the end it emits a / l and the coefficient exp (0 - m) / l, and the weights as
  exp (x s) · coefficient.
-/
import Mathlib
import Idealize.ShloMosaic.PureOps.Ideal
import Idealize.ShloMosaic.Lib.ValueIdx

noncomputable section

open scoped BigOperators

namespace Cert.Attn

open Idealize.ShloMosaic Idealize.ShloMosaic.ValueIdx

/-- Sequence position of row `j` of tile `k`: 64 · k + j. -/
def pos (k : Fin 32) (j : Fin 64) : Fin 2048 := ⟨k.val * 64 + j.val, by omega⟩

/-- The running state of the tiled pass: maximum so far, denominator and numerator relative to that maximum. -/
structure St where
  m : EReal
  l : EReal
  a : EReal

/-- Before the first tile: maximum -∞, both sums zero. -/
def St.init : St := ⟨⊥, 0, 0⟩

/-- One tile: the new maximum is the old one joined with the tile's; the old sums are rescaled by
    exp (m_old - m_new) and the tile's terms, taken relative to the new maximum, are added. -/
def St.step (x e : Fin 64 → EReal) (st : St) : St :=
  ⟨max st.m (Finset.univ.fold max ⊥ x),
   Ideal.exp (st.m - max st.m (Finset.univ.fold max ⊥ x)) * st.l
     + ∑ j : Fin 64, Ideal.exp (x j - max st.m (Finset.univ.fold max ⊥ x)),
   Ideal.exp (st.m - max st.m (Finset.univ.fold max ⊥ x)) * st.a
     + ∑ j : Fin 64, Ideal.exp (x j - max st.m (Finset.univ.fold max ⊥ x)) * e j⟩

/-- The state after the first `n` tiles of the sequence. -/
def St.after (x e : Fin 2048 → EReal) : (n : ℕ) → n ≤ 32 → St
  | 0, _ => St.init
  | n + 1, h => St.step (fun j => x (pos ⟨n, h⟩ j)) (fun j => e (pos ⟨n, h⟩ j)) (St.after x e n (Nat.le_of_succ_le h))

/-- The tiled pass's context entry: numerator over denominator after the last tile. -/
def kCtx (x e : Fin 2048 → EReal) : EReal := Ideal.div (St.after x e 32 le_rfl).a (St.after x e 32 le_rfl).l
/-- The tiled pass's coefficient exp (0 - m) / l after the last tile. -/
def kCoef (x e : Fin 2048 → EReal) : EReal :=
  Ideal.div (Ideal.exp (0 - (St.after x e 32 le_rfl).m)) (St.after x e 32 le_rfl).l
/-- The tiled pass's weight at position `s`: exp (x s) times the coefficient. -/
def kAw (x e : Fin 2048 → EReal) (s : Fin 2048) : EReal := Ideal.exp (x s) * kCoef x e

/-- The reference's maximum over the sequence (joined once more with -∞, as the reference does). -/
def rMax (x : Fin 2048 → EReal) : EReal := max ⊥ (Finset.univ.fold max ⊥ x)
/-- The reference's unnormalised weight. -/
def rP (x : Fin 2048 → EReal) (s : Fin 2048) : EReal := Ideal.exp (x s - rMax x)
/-- The reference's denominator. -/
def rL (x : Fin 2048 → EReal) : EReal := 0 + ∑ s : Fin 2048, rP x s
/-- The reference's weight. -/
def rAw (x : Fin 2048 → EReal) (s : Fin 2048) : EReal := Ideal.div (rP x s) (rL x)
/-- The reference's context entry. -/
def rCtx (x e : Fin 2048 → EReal) : EReal := 0 + ∑ s : Fin 2048, rAw x s * e s

/-! ## The same over the argument arrays -/

abbrev ArrH : Type := (⟨2, ![32, 1024]⟩ : Shape).Idx → EReal
abbrev ArrE : Type := (⟨3, ![32, 2048, 1024]⟩ : Shape).Idx → EReal
abbrev ArrW : Type := (⟨2, ![1024, 1024]⟩ : Shape).Idx → EReal
abbrev ArrB : Type := (⟨1, ![1024]⟩ : Shape).Idx → EReal

/-- The dense projection: row `b` of H against column `u` of W, plus the bias. -/
def projA (h : ArrH) (w : ArrW) (bias : ArrB) (b : Fin 32) (u : Fin 1024) : EReal :=
  (∑ k : Fin 1024, h (ix2 b k) * w (ix2 k u)) + bias (ix1 u)
/-- The scores of column (b, u) along the sequence. -/
def scoreA (h : ArrH) (e : ArrE) (w : ArrW) (bias : ArrB) (b : Fin 32) (u : Fin 1024) (s : Fin 2048) : EReal :=
  projA h w bias b u * e (ix3 b s u)
/-- The encoder entries of column (b, u) along the sequence. -/
def valA (e : ArrE) (b : Fin 32) (u : Fin 1024) (s : Fin 2048) : EReal := e (ix3 b s u)

def kCtxA (h : ArrH) (e : ArrE) (w : ArrW) (bias : ArrB) : ArrH :=
  fun i => kCtx (scoreA h e w bias (i 0) (i 1)) (valA e (i 0) (i 1))
def kCoefA (h : ArrH) (e : ArrE) (w : ArrW) (bias : ArrB) : ArrH :=
  fun i => kCoef (scoreA h e w bias (i 0) (i 1)) (valA e (i 0) (i 1))
def kAwA (h : ArrH) (e : ArrE) (w : ArrW) (bias : ArrB) : ArrE :=
  fun i => kAw (scoreA h e w bias (i 0) (i 2)) (valA e (i 0) (i 2)) (i 1)
def rCtxA (h : ArrH) (e : ArrE) (w : ArrW) (bias : ArrB) : ArrH :=
  fun i => rCtx (scoreA h e w bias (i 0) (i 1)) (valA e (i 0) (i 1))
def rAwA (h : ArrH) (e : ArrE) (w : ArrW) (bias : ArrB) : ArrE :=
  fun i => rAw (scoreA h e w bias (i 0) (i 2)) (i 1)

/-- Every entry of an array is a real number. -/
def Fin' {ι : Type} (f : ι → EReal) : Prop := ∀ i, ∃ r : ℝ, f i = (r : EReal)

end Cert.Attn

end
-- ==== Proof.Payload.lean ====
/-
  The kernels' arithmetic read at an index, over the extended reals. The projection kernel's stored value at (b, u) is
  Σ_k h(b,k) · w(k,u) + bias(u). The statistics kernel keeps, per (r, u), a running maximum m, denominator l and
  numerator a; one tile of 64 sequence positions with scores x j = p(r,u) · e(r,j,u) replaces them by
  m' = max m (max_j x j), exp (m - m') · l + Σ_j exp (x j - m'), exp (m - m') · a + Σ_j exp (x j - m') · e(r,j,u);
  at the end it emits a / l and exp (0 - m) / l. The weights kernel emits exp (x j) times that coefficient.
-/
import proofs.«155699_j19834158973688_2_alg».proof.Proof.Gen.KernelIdeal.Skeleton
import proofs.«155699_j19834158973688_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.Pay

open Idealize.ShloMosaic Idealize.ShloMosaic.ValueIdx Cert.KernelIdeal Cert.KernelIdeal.Gen Cert.Attn

/-- The word 0xFF800000 denotes -∞. -/
theorem ofBits_negInf : Ideal.ofBits .f32 0xFF800000#32 = (⊥ : EReal) := by simp [Ideal.ofBits, Ideal.ieee]

/-! ## Layout: a unit middle axis added, dropped, or broadcast -/

section Layout
variable {α : Type}

/-- An [a, 1, c] array broadcast to [a, b, c] reads, at (i, j, k), the operand at (i, 0, k). -/
theorem bcast_mid {a b c : ℕ} (x : (⟨3, ![a, 1, c]⟩ : Shape).Idx → α)
    (h : (⟨3, ![a, 1, c]⟩ : Shape).Broadcasts ⟨3, ![a, b, c]⟩) (i : Fin a) (j : Fin b) (k : Fin c) :
    broadcastTo ⟨3, ![a, b, c]⟩ x h (ix3 i j k) = x (ix3 i (0 : Fin 1) k) := by
  refine broadcastTo_apply x h (ix3 i j k) (ix3 i (0 : Fin 1) k) fun ax => ?_
  match ax with
  | ⟨0, _⟩ =>
    show i.val = if a = 1 then 0 else i.val
    split
    · have := i.isLt; omega
    · rfl
  | ⟨1, _⟩ => rfl
  | ⟨2, _⟩ =>
    show k.val = if c = 1 then 0 else k.val
    split
    · have := k.isLt; omega
    · rfl

/-- An [a, c] array cast to [a, 1, c] reads, at (i, w, k), the operand at (i, k). -/
theorem cast_keep {a c : ℕ} (x : (⟨2, ![a, c]⟩ : Shape).Idx → α)
    (h : (⟨2, ![a, c]⟩ : Shape).ShapeCasts ⟨3, ![a, 1, c]⟩) (i : Fin a) (w : Fin 1) (k : Fin c) :
    shapeCast ⟨3, ![a, 1, c]⟩ x h (ix3 i w k) = x (ix2 i k) :=
  shapeCast_apply x h _ _ (by
    have hw : w.val = 0 := by omega
    rw [Shape.rowMajor_val_three, Shape.rowMajor_val_two]
    show i.val * c + k.val = (i.val * 1 + w.val) * c + k.val
    rw [hw, Nat.mul_one, Nat.add_zero])

/-- An [a, 1, c] array cast to [a, c] reads, at (i, k), the operand at (i, 0, k). -/
theorem cast_drop {a c : ℕ} (x : (⟨3, ![a, 1, c]⟩ : Shape).Idx → α)
    (h : (⟨3, ![a, 1, c]⟩ : Shape).ShapeCasts ⟨2, ![a, c]⟩) (i : Fin a) (k : Fin c) :
    shapeCast ⟨2, ![a, c]⟩ x h (ix2 i k) = x (ix3 i (0 : Fin 1) k) :=
  shapeCast_apply x h _ _ (by
    rw [Shape.rowMajor_val_three, Shape.rowMajor_val_two]
    show (i.val * 1 + 0) * c + k.val = i.val * c + k.val
    rw [Nat.mul_one, Nat.add_zero])

end Layout

/-! ## The lane reductions over the 64 rows of a tile -/

/-- The reduced index (r, u) with row k put back on the middle axis is (r, k, u). -/
theorem lift_mid (h : S16x64x1024.Reduces [1] S16x1024) (r : Fin 16) (u : Fin 1024) (k : Fin (S16x64x1024.size 1)) :
    h.lift (ix2 r u) k = ix3 r (⟨k.val, k.isLt⟩ : Fin 64) u := by
  funext c
  apply Fin.ext
  match c with
  | ⟨0, _⟩ => rfl
  | ⟨1, _⟩ => rfl
  | ⟨2, _⟩ => rfl

/-- The lane sum over the tile's rows at (r, u). -/
theorem laneSum_at (src : FVec Ideal S16x64x1024 .f32) (r : Fin 16) (u : Fin 1024) :
    multiReduction .add [1] S16x1024 src 0x00000000#32 reduces_S16x64x1024_S16x1024 (.inl rfl) rfl (ix2 r u)
      = ∑ j : Fin 64, src (ix3 r j u) := by
  refine (Ideal.multiReduction_add_single src 0x00000000#32 reduces_S16x64x1024_S16x1024 (.inl rfl) rfl (ix2 r u)).trans ?_
  exact Finset.sum_congr rfl fun k _ => congrArg src (lift_mid _ r u k)

/-- The lane maximum over the tile's rows at (r, u), from -∞. -/
theorem laneMax_at (src : FVec Ideal S16x64x1024 .f32) (r : Fin 16) (u : Fin 1024) :
    multiReduction .maximumf [1] S16x1024 src 0xFF800000#32 reduces_S16x64x1024_S16x1024 (.inl rfl) rfl (ix2 r u)
      = Finset.univ.fold max (⊥ : EReal) (fun j : Fin 64 => src (ix3 r j u)) := by
  refine (Ideal.multiReduction_maximumf_single src 0xFF800000#32 reduces_S16x64x1024_S16x1024 (.inl rfl) rfl (ix2 r u)).trans ?_
  have hf : (src ∘ reduces_S16x64x1024_S16x1024.lift (ix2 r u)) = fun j : Fin 64 => src (ix3 r j u) :=
    funext fun k => congrArg src (lift_mid _ r u k)
  rw [Ideal.ofBits_def, ofBits_negInf]
  exact congrArg (fun f => Finset.fold max (⊥ : EReal) f (Finset.univ : Finset (Fin 64))) hf

/-! ## The statistics kernel's final values and initial values -/

/-- The context entry: numerator over denominator. -/
theorem pay1_ctx (l a : Vec Ideal S16x1024 .f32) (r : Fin 16) (u : Fin 1024) :
    k1_pay2 (F := Ideal) l a (ix2 r u) = Ideal.div (a (ix2 r u)) (l (ix2 r u)) := rfl

/-- The coefficient: exp (0 - m) over the denominator. -/
theorem pay1_coef (l m : Vec Ideal S16x1024 .f32) (r : Fin 16) (u : Fin 1024) :
    k1_pay3 (F := Ideal) l m (ix2 r u) = Ideal.div (Ideal.exp (0 - m (ix2 r u))) (l (ix2 r u)) :=
  congrArg (fun z : EReal => Ideal.div (Ideal.exp (z - m (ix2 r u))) (l (ix2 r u))) Ideal.ofBits_zero_f32

/-- The running maximum starts at -∞. -/
theorem pay1_init_m (r : Fin 16) (u : Fin 1024) : k1_pay4 (F := Ideal) (ix2 r u) = (⊥ : EReal) :=
  (congrFun (shapeCast_self (broadcast S16x1024 (Scalar.ofBits (F := Ideal) .f32 0xFF800000#32)) shapeCasts_S16x1024_S16x1024)
    (ix2 r u)).trans ofBits_negInf

/-- The running denominator starts at zero. -/
theorem pay1_init_l (r : Fin 16) (u : Fin 1024) : k1_pay5 (F := Ideal) (ix2 r u) = (0 : EReal) :=
  (congrFun (shapeCast_self (broadcast S16x1024 (Scalar.ofBits (F := Ideal) .f32 0x00000000#32)) shapeCasts_S16x1024_S16x1024)
    (ix2 r u)).trans Ideal.ofBits_zero_f32

/-- The running numerator starts at zero. -/
theorem pay1_init_a (r : Fin 16) (u : Fin 1024) : k1_pay6 (F := Ideal) (ix2 r u) = (0 : EReal) :=
  (congrFun (shapeCast_self (broadcast S16x1024 (Scalar.ofBits (F := Ideal) .f32 0x00000000#32)) shapeCasts_S16x1024_S16x1024)
    (ix2 r u)).trans Ideal.ofBits_zero_f32

/-! ## The weights kernel -/

/-- The weight at (r, j, u): exp of the score p · e times the coefficient of column (r, u). -/
theorem pay2 (v0 : Vec Ideal S16x64x1024 .f32) (v1 : Vec Ideal S16x1x1024 .f32) (v5 : Vec Ideal S16x1024 .f32)
    (r : Fin 16) (j : Fin 64) (u : Fin 1024) :
    k2_pay1 (F := Ideal) v0 v1 v5 (ix3 r j u) = Ideal.exp (v1 (ix3 r (0 : Fin 1) u) * v0 (ix3 r j u)) * v5 (ix2 r u) := by
  have e1 : broadcastTo S16x64x1024 (shapeCast S16x1x1024 (v1 : FVec Ideal S16x1x1024 .f32) shapeCasts_S16x1x1024_S16x1x1024)
      broadcasts_S16x1x1024_S16x64x1024 (ix3 r j u) = v1 (ix3 r (0 : Fin 1) u) :=
    (bcast_mid _ _ r j u).trans (congrFun (shapeCast_self (v1 : FVec Ideal S16x1x1024 .f32) _) _)
  have e2 : broadcastTo S16x64x1024 (shapeCast S16x1x1024 (shapeCast S16x1024 (v5 : FVec Ideal S16x1024 .f32) shapeCasts_S16x1024_S16x1024)
      shapeCasts_S16x1024_S16x1x1024) broadcasts_S16x1x1024_S16x64x1024 (ix3 r j u) = v5 (ix2 r u) :=
    (bcast_mid _ _ r j u).trans ((cast_keep _ _ r 0 u).trans (congrFun (shapeCast_self (v5 : FVec Ideal S16x1024 .f32) _) _))
  exact congrArg₂ (fun p q : EReal => Ideal.exp (p * v0 (ix3 r j u)) * q) e1 e2

/-! ## One tile of the statistics kernel -/

/-- The scores of the tile's 64 rows in column (r, u): the projection entry times the encoder entry. -/
def tileX (v3 : Vec Ideal S16x64x1024 .f32) (v4 : Vec Ideal S16x1x1024 .f32) (r : Fin 16) (u : Fin 1024) : Fin 64 → EReal :=
  fun j => v4 (ix3 r (0 : Fin 1) u) * v3 (ix3 r j u)
/-- The encoder entries of the tile's 64 rows in column (r, u). -/
def tileE (v3 : Vec Ideal S16x64x1024 .f32) (r : Fin 16) (u : Fin 1024) : Fin 64 → EReal := fun j => v3 (ix3 r j u)

section Step
variable (v3 : Vec Ideal S16x64x1024 .f32) (v4 : Vec Ideal S16x1x1024 .f32) (m l a : Vec Ideal S16x1024 .f32)

/-- The tile's scores. -/
theorem pay7_at (r : Fin 16) (j : Fin 64) (u : Fin 1024) : k1_pay7 (F := Ideal) v3 v4 (ix3 r j u) = tileX v3 v4 r u j := by
  have e : broadcastTo S16x64x1024 (shapeCast S16x1x1024 (v4 : FVec Ideal S16x1x1024 .f32) shapeCasts_S16x1x1024_S16x1x1024)
      broadcasts_S16x1x1024_S16x64x1024 (ix3 r j u) = v4 (ix3 r (0 : Fin 1) u) :=
    (bcast_mid _ _ r j u).trans (congrFun (shapeCast_self (v4 : FVec Ideal S16x1x1024 .f32) _) _)
  exact congrArg (fun p : EReal => p * v3 (ix3 r j u)) e

/-- The old maximum with a unit middle axis. -/
theorem pay8_at (r : Fin 16) (w : Fin 1) (u : Fin 1024) : k1_pay8 (F := Ideal) m (ix3 r w u) = m (ix2 r u) :=
  cast_keep (m : FVec Ideal S16x1024 .f32) shapeCasts_S16x1024_S16x1x1024 r w u

/-- The new maximum: the old one joined with the tile's. -/
theorem pay9_at (r : Fin 16) (w : Fin 1) (u : Fin 1024) :
    k1_pay9 (F := Ideal) v3 v4 m (ix3 r w u) = max (m (ix2 r u)) (Finset.univ.fold max (⊥ : EReal) (tileX v3 v4 r u)) := by
  have e : shapeCast S16x1x1024 (multiReduction .maximumf [1] S16x1024 (k1_pay7 (F := Ideal) v3 v4) 0xFF800000#32
        reduces_S16x64x1024_S16x1024 (.inl rfl) rfl) shapeCasts_S16x1024_S16x1x1024 (ix3 r w u)
      = Finset.univ.fold max (⊥ : EReal) (tileX v3 v4 r u) :=
    (cast_keep _ _ r w u).trans ((laneMax_at _ r u).trans
      (congrArg (fun f => Finset.fold max (⊥ : EReal) f (Finset.univ : Finset (Fin 64))) (funext fun j => pay7_at v3 v4 r j u)))
  exact congrArg₂ (fun p q : EReal => max p q) (pay8_at m r w u) e

/-- The rescaling factor exp (m_old - m_new). -/
theorem pay10_at (r : Fin 16) (w : Fin 1) (u : Fin 1024) :
    k1_pay10 (F := Ideal) v3 v4 m (ix3 r w u)
      = Ideal.exp (m (ix2 r u) - max (m (ix2 r u)) (Finset.univ.fold max (⊥ : EReal) (tileX v3 v4 r u))) :=
  congrArg₂ (fun p q : EReal => Ideal.exp (p - q)) (pay8_at m r w u) (pay9_at v3 v4 m r w u)

/-- The tile's terms exp (x j - m_new). -/
theorem pay11_at (r : Fin 16) (j : Fin 64) (u : Fin 1024) :
    k1_pay11 (F := Ideal) v3 v4 m (ix3 r j u)
      = Ideal.exp (tileX v3 v4 r u j - max (m (ix2 r u)) (Finset.univ.fold max (⊥ : EReal) (tileX v3 v4 r u))) := by
  have e : broadcastTo S16x64x1024 (k1_pay9 (F := Ideal) v3 v4 m) broadcasts_S16x1x1024_S16x64x1024 (ix3 r j u)
      = max (m (ix2 r u)) (Finset.univ.fold max (⊥ : EReal) (tileX v3 v4 r u)) :=
    (bcast_mid _ _ r j u).trans (pay9_at v3 v4 m r 0 u)
  exact congrArg₂ (fun p q : EReal => Ideal.exp (p - q)) (pay7_at v3 v4 r j u) e

/-- The stored maximum after the tile. -/
theorem step_m (r : Fin 16) (u : Fin 1024) :
    k1_pay1 (F := Ideal) (k1_pay9 v3 v4 m) (ix2 r u) = max (m (ix2 r u)) (Finset.univ.fold max (⊥ : EReal) (tileX v3 v4 r u)) :=
  (congrFun (shapeCast_self (shapeCast S16x1024 (k1_pay9 (F := Ideal) v3 v4 m) shapeCasts_S16x1x1024_S16x1024)
    shapeCasts_S16x1024_S16x1024) (ix2 r u)).trans ((cast_drop _ _ r u).trans (pay9_at v3 v4 m r 0 u))

/-- The stored denominator after the tile. -/
theorem step_l (r : Fin 16) (u : Fin 1024) :
    k1_pay12 (F := Ideal) v3 v4 m l (ix2 r u)
      = Ideal.exp (m (ix2 r u) - max (m (ix2 r u)) (Finset.univ.fold max (⊥ : EReal) (tileX v3 v4 r u))) * l (ix2 r u)
        + ∑ j : Fin 64, Ideal.exp (tileX v3 v4 r u j - max (m (ix2 r u)) (Finset.univ.fold max (⊥ : EReal) (tileX v3 v4 r u))) := by
  have e1 : shapeCast S16x1024 (k1_pay10 (F := Ideal) v3 v4 m) shapeCasts_S16x1x1024_S16x1024 (ix2 r u)
      = Ideal.exp (m (ix2 r u) - max (m (ix2 r u)) (Finset.univ.fold max (⊥ : EReal) (tileX v3 v4 r u))) :=
    (cast_drop _ _ r u).trans (pay10_at v3 v4 m r 0 u)
  have e2 : multiReduction .add [1] S16x1024 (k1_pay11 (F := Ideal) v3 v4 m) 0x00000000#32 reduces_S16x64x1024_S16x1024 (.inl rfl) rfl (ix2 r u)
      = ∑ j : Fin 64, Ideal.exp (tileX v3 v4 r u j - max (m (ix2 r u)) (Finset.univ.fold max (⊥ : EReal) (tileX v3 v4 r u))) :=
    (laneSum_at _ r u).trans (Finset.sum_congr rfl fun j _ => pay11_at v3 v4 m r j u)
  refine (congrFun (shapeCast_self (addf (mulf (shapeCast S16x1024 (k1_pay10 (F := Ideal) v3 v4 m) shapeCasts_S16x1x1024_S16x1024)
      (l : FVec Ideal S16x1024 .f32)) (multiReduction .add [1] S16x1024 (k1_pay11 (F := Ideal) v3 v4 m) 0x00000000#32
      reduces_S16x64x1024_S16x1024 (.inl rfl) rfl)) shapeCasts_S16x1024_S16x1024) (ix2 r u)).trans ?_
  exact congrArg₂ (fun p q : EReal => p * l (ix2 r u) + q) e1 e2

/-- The stored numerator after the tile. -/
theorem step_a (r : Fin 16) (u : Fin 1024) :
    k1_pay13 (F := Ideal) v3 v4 m a (ix2 r u)
      = Ideal.exp (m (ix2 r u) - max (m (ix2 r u)) (Finset.univ.fold max (⊥ : EReal) (tileX v3 v4 r u))) * a (ix2 r u)
        + ∑ j : Fin 64, Ideal.exp (tileX v3 v4 r u j - max (m (ix2 r u)) (Finset.univ.fold max (⊥ : EReal) (tileX v3 v4 r u)))
            * tileE v3 r u j := by
  have e1 : shapeCast S16x1024 (k1_pay10 (F := Ideal) v3 v4 m) shapeCasts_S16x1x1024_S16x1024 (ix2 r u)
      = Ideal.exp (m (ix2 r u) - max (m (ix2 r u)) (Finset.univ.fold max (⊥ : EReal) (tileX v3 v4 r u))) :=
    (cast_drop _ _ r u).trans (pay10_at v3 v4 m r 0 u)
  have e2 : multiReduction .add [1] S16x1024 (mulf (k1_pay11 (F := Ideal) v3 v4 m) (v3 : FVec Ideal S16x64x1024 .f32)) 0x00000000#32
        reduces_S16x64x1024_S16x1024 (.inl rfl) rfl (ix2 r u)
      = ∑ j : Fin 64, Ideal.exp (tileX v3 v4 r u j - max (m (ix2 r u)) (Finset.univ.fold max (⊥ : EReal) (tileX v3 v4 r u)))
          * tileE v3 r u j :=
    (laneSum_at _ r u).trans (Finset.sum_congr rfl fun j _ =>
      congrArg (fun p : EReal => p * v3 (ix3 r j u)) (pay11_at v3 v4 m r j u))
  refine (congrFun (shapeCast_self (addf (mulf (shapeCast S16x1024 (k1_pay10 (F := Ideal) v3 v4 m) shapeCasts_S16x1x1024_S16x1024)
      (a : FVec Ideal S16x1024 .f32)) (multiReduction .add [1] S16x1024 (mulf (k1_pay11 (F := Ideal) v3 v4 m)
      (v3 : FVec Ideal S16x64x1024 .f32)) 0x00000000#32 reduces_S16x64x1024_S16x1024 (.inl rfl) rfl))
      shapeCasts_S16x1024_S16x1024) (ix2 r u)).trans ?_
  exact congrArg₂ (fun p q : EReal => p * a (ix2 r u) + q) e1 e2

/-- One tile of the statistics kernel at (r, u) is one step of the specification's running state. -/
theorem pay1_step (r : Fin 16) (u : Fin 1024) :
    (⟨k1_pay1 (F := Ideal) (k1_pay9 v3 v4 m) (ix2 r u), k1_pay12 (F := Ideal) v3 v4 m l (ix2 r u),
        k1_pay13 (F := Ideal) v3 v4 m a (ix2 r u)⟩ : Cert.Attn.St)
      = Cert.Attn.St.step (tileX v3 v4 r u) (tileE v3 r u) ⟨m (ix2 r u), l (ix2 r u), a (ix2 r u)⟩ := by
  rw [step_m, step_l, step_a]
  rfl

end Step

/-! ## The projection kernel -/

/-- On the left operand's first axis, which is not contracted, the operand index is the output row. -/
theorem lhs_row (i : S32x1024.Idx) (q : dot_S32x1024_S1024x1024_S32x1024_1_0_0_1_n_n.contr.Idx) : (dot_S32x1024_S1024x1024_S32x1024_1_0_0_1_n_n.lhsIdx i q 0).val = (i 0).val := by
  unfold DotDims.lhsIdx
  rw [dif_neg (show ¬(0 : Fin S32x1024.rank) ∈ dot_S32x1024_S1024x1024_S32x1024_1_0_0_1_n_n.lhsBatch by decide),
    dif_pos (show (0 : Fin S32x1024.rank) ∈ dot_S32x1024_S1024x1024_S32x1024_1_0_0_1_n_n.lhsNonContracting by decide)]
  rfl

/-- On the right operand's second axis, which is not contracted, the operand index is the output column. -/
theorem rhs_col (i : S32x1024.Idx) (q : dot_S32x1024_S1024x1024_S32x1024_1_0_0_1_n_n.contr.Idx) : (dot_S32x1024_S1024x1024_S32x1024_1_0_0_1_n_n.rhsIdx i q 1).val = (i 1).val := by
  unfold DotDims.rhsIdx
  rw [dif_neg (show ¬(1 : Fin S1024x1024.rank) ∈ dot_S32x1024_S1024x1024_S32x1024_1_0_0_1_n_n.rhsBatch by decide),
    dif_pos (show (1 : Fin S1024x1024.rank) ∈ dot_S32x1024_S1024x1024_S32x1024_1_0_0_1_n_n.rhsNonContracting by decide)]
  rfl

/-- The projection at (b, u): row b of the first operand against column u of the second, plus the bias at u. -/
theorem pay0 (v0 : Vec Ideal S32x1024 .f32) (v2 : Vec Ideal S1024x1024 .f32) (v5 : Vec Ideal S1024 .f32)
    (b : Fin 32) (u : Fin 1024) :
    k0_pay1 (F := Ideal) v0 v2 v5 (ix2 b u) = projA v0 v2 v5 b u := by
  have eB : broadcastTo S32x1024 (shapeCast S1x1024 (v5 : FVec Ideal S1024 .f32) shapeCasts_S1024_S1x1024)
      broadcasts_S1x1024_S32x1024 (ix2 b u) = v5 (ix1 u) :=
    (broadcastTo_1b_ab_apply _ _ b u).trans (shapeCast_a_1a_apply _ _ 0 u)
  have eM : FloatOps.matmul (F := Ideal) dot_S32x1024_S1024x1024_S32x1024_1_0_0_1_n_n none
        (truncf .bf16 (v0 : FVec Ideal S32x1024 .f32) bitsLt_bf16_f32) (truncf .bf16 (v2 : FVec Ideal S1024x1024 .f32) bitsLt_bf16_f32)
        (constant S32x1024 .f32 0x00000000#32) (ix2 b u)
      = ∑ k : Fin 1024, v0 (ix2 b k) * v2 (ix2 k u) := by
    rw [Ideal.matmul_constant_zero_apply, ← Equiv.sum_comp (contrEquiv1 dot_S32x1024_S1024x1024_S32x1024_1_0_0_1_n_n 1024 rfl rfl).symm]
    refine Finset.sum_congr rfl fun k _ => ?_
    have hk := contrEquiv1_symm_val dot_S32x1024_S1024x1024_S32x1024_1_0_0_1_n_n 1024 rfl rfl k
    have el : dot_S32x1024_S1024x1024_S32x1024_1_0_0_1_n_n.lhsIdx (ix2 b u) ((contrEquiv1 dot_S32x1024_S1024x1024_S32x1024_1_0_0_1_n_n 1024 rfl rfl).symm k) = ix2 b k := funext fun a => Fin.ext (by
      match a with
      | ⟨0, _⟩ => exact lhs_row _ _
      | ⟨1, _⟩ => exact (dot_S32x1024_S1024x1024_S32x1024_1_0_0_1_n_n.lhsIdx_val_of_single rfl _ _).trans hk)
    have er : dot_S32x1024_S1024x1024_S32x1024_1_0_0_1_n_n.rhsIdx (ix2 b u) ((contrEquiv1 dot_S32x1024_S1024x1024_S32x1024_1_0_0_1_n_n 1024 rfl rfl).symm k) = ix2 k u := funext fun a => Fin.ext (by
      match a with
      | ⟨0, _⟩ => exact (dot_S32x1024_S1024x1024_S32x1024_1_0_0_1_n_n.rhsIdx_val_of_single rfl _ _).trans hk
      | ⟨1, _⟩ => exact rhs_col _ _)
    rw [el, er]
    rfl
  exact congrArg₂ (fun p q : EReal => p + q) eM eB

end Cert.KernelIdeal.Pay

end
-- ==== Proof.KV0.lean ====
/-
  Region 0 read as mathematics: the projection kernel has one grid point and every window's block is its whole array, so
  the result array after the region is, entry by entry, the dense projection Σ_k h(b,k) · w(k,u) + bias(u) of the arrays
  the region finds.
-/
import proofs.«155699_j19834158973688_2_alg».proof.Proof.KI_R0
import proofs.«155699_j19834158973688_2_alg».proof.Proof.Spec
import proofs.«155699_j19834158973688_2_alg».proof.Proof.Payload
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero2 : (![0, 0] : Fin 2 → Nat) = fun _ => 0 := funext fun a => by fin_cases a <;> rfl
theorem zero1 : (![0] : Fin 1 → Nat) = fun _ => 0 := funext fun a => by fin_cases a <;> rfl

/-- The one grid point's block index is zero on every axis of every window. -/
theorem index_zero0 : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 1) = 0
    ∧ win0_3.index t (0 : Fin 2) = 0 ∧ win0_3.index t (1 : Fin 2) = 0 :=
  (by decide +kernel : ∀ t : Fin grid0.N, _)

/-- Window 0's block is the whole of H. -/
theorem blk0_H (c : Dev nD) (t : Fin cfg0.N) (y : S32x1024.Idx) : iblk0 (F := Ideal) V c 0 t y = V c main_arg0 y := by
  obtain ⟨e0, e1, -⟩ := index_zero0 t
  show V c main_arg0 (((cfg0.win 0).blk t).view.emb y) = V c main_arg0 y
  congr 1
  funext a; apply Fin.ext
  match a with
  | ⟨0, _⟩ => show win0_0.index t (0 : Fin 2) * 32 + 1 * (y 0).val = (y 0).val; omega
  | ⟨1, _⟩ => show win0_0.index t (1 : Fin 2) * 1024 + 1 * (y 1).val = (y 1).val; omega

/-- Window 1's block is the whole of W. -/
theorem blk0_W (c : Dev nD) (t : Fin cfg0.N) (y : S1024x1024.Idx) : iblk0 (F := Ideal) V c 1 t y = V c main_arg2 y := by
  obtain ⟨-, -, e0, e1, -⟩ := index_zero0 t
  show V c main_arg2 (((cfg0.win 1).blk t).view.emb y) = V c main_arg2 y
  congr 1
  funext a; apply Fin.ext
  match a with
  | ⟨0, _⟩ => show win0_1.index t (0 : Fin 2) * 1024 + 1 * (y 0).val = (y 0).val; omega
  | ⟨1, _⟩ => show win0_1.index t (1 : Fin 2) * 1024 + 1 * (y 1).val = (y 1).val; omega

/-- Window 2's block is the whole bias row. -/
theorem blk0_B (c : Dev nD) (t : Fin cfg0.N) (y : S1024.Idx) : iblk0 (F := Ideal) V c 2 t y = V c main_arg3 y := by
  obtain ⟨-, -, -, -, e0, -⟩ := index_zero0 t
  show V c main_arg3 (((cfg0.win 2).blk t).view.emb y) = V c main_arg3 y
  congr 1
  funext a; apply Fin.ext
  match a with
  | ⟨0, _⟩ => show win0_2.index t (0 : Fin 1) * 1024 + 1 * (y 0).val = (y 0).val; omega

/-- The result window's block sits at the array's origin. -/
theorem emb0_out (t : Fin cfg0.N) (y : S32x1024.Idx) : ((cfg0.win 3).blk t).view.emb y = y := by
  obtain ⟨-, -, -, -, -, e0, e1⟩ := index_zero0 t
  funext a; apply Fin.ext
  match a with
  | ⟨0, _⟩ => show win0_3.index t (0 : Fin 2) * 32 + 1 * (y 0).val = (y 0).val; omega
  | ⟨1, _⟩ => show win0_3.index t (1 : Fin 2) * 1024 + 1 * (y 1).val = (y 1).val; omega

/-- The dense projection of the arrays region 0 finds. -/
abbrev G0 (c : Dev nD) : S32x1024.Idx → EReal :=
  fun i => Cert.Attn.projA (V c main_arg0) (V c main_arg2) (V c main_arg3) (i 0) (i 1)

/-- What the one point writes back is the projection read through the result window's block. -/
theorem flushed0_eq (c : Dev nD) (t : Fin cfg0.N)
    (hp : ∀ (v0 : Vec Ideal S32x1024 .f32) (v2 : Vec Ideal S1024x1024 .f32) (v5 : Vec Ideal S1024 .f32) (b : Fin 32) (u : Fin 1024),
      k0_pay1 (F := Ideal) v0 v2 v5 (ix2 b u) = (∑ k : Fin 1024, v0 (ix2 b k) * v2 (ix2 k u)) + v5 (ix1 u)) :
    (dat0 (F := Ideal) V c).flushed 3 t = ((cfg0.win 3).blk t).view.read (Elt Ideal) (G0 V c) := by
  show (cfg0.win 3).cut (grid0.coords t) ((dat0 (F := Ideal) V c).after 3 t) = _
  rw [after0_3]
  unfold out0_3
  rw [View.canon_unit_zero zero2]
  simp only [View.ld_unit_zero (S := S32x1024) zero2, View.ld_unit_zero (S := S1024x1024) zero2, View.ld_unit_zero (S := S1024) zero1]
  refine funext fun (j : S32x1024.Idx) => ?_
  obtain ⟨b, u, rfl⟩ : ∃ (b : Fin 32) (u : Fin 1024), j = ix2 b u := ⟨j 0, j 1, eq_ix2 j⟩
  show k0_pay1 (F := Ideal) (iblk0 V c 0 t) (iblk0 V c 1 t) (iblk0 V c 2 t) (ix2 b u) = G0 V c (((cfg0.win 3).blk t).view.emb (ix2 b u))
  rw [emb0_out t (ix2 b u)]
  refine (hp _ _ _ b u).trans ?_
  show _ = Cert.Attn.projA (V c main_arg0) (V c main_arg2) (V c main_arg3) b u
  unfold Cert.Attn.projA
  rw [blk0_B V c t (ix1 u)]
  congr 1
  exact Finset.sum_congr rfl fun k _ => by rw [blk0_H V c t (ix2 b k), blk0_W V c t (ix2 k u)]

/-- Every entry of the result array is in the one point's block. -/
theorem cover0 (i : S32x1024.Idx) : ∃ t : Fin cfg0.N, (cfg0.win 3).flush t = true ∧ i ∈ ((cfg0.win 3).blk t).view.set := by
  refine ⟨t0_0, flush0_3 t0_0, ?_⟩
  rw [← emb0_out t0_0 i]
  exact ((cfg0.win 3).blk t0_0).view.emb_mem_set i

/-- The result array after region 0 is the dense projection of the arrays the region finds, given the kernel's arithmetic
    read at an entry. -/
theorem final0_of (c : Dev nD)
    (hp : ∀ (v0 : Vec Ideal S32x1024 .f32) (v2 : Vec Ideal S1024x1024 .f32) (v5 : Vec Ideal S1024 .f32) (b : Fin 32) (u : Fin 1024),
      k0_pay1 (F := Ideal) v0 v2 v5 (ix2 b u) = (∑ k : Fin 1024, v0 (ix2 b k) * v2 (ix2 k u)) + v5 (ix1 u)) :
    (dat0 (F := Ideal) V c).arrAt 3 cfg0.N
      = fun i => Cert.Attn.projA (V c main_arg0) (V c main_arg2) (V c main_arg3) (i 0) (i 1) :=
  (dat0 (F := Ideal) V c).arrAt_eq_of_cover 3 (G0 V c) (fun t _ => flushed0_eq V c t hp) cover0

/-- The result array after region 0 is the dense projection of the arrays the region finds. -/
theorem final0 (c : Dev nD) :
    (dat0 (F := Ideal) V c).arrAt 3 cfg0.N
      = fun i => Cert.Attn.projA (V c main_arg0) (V c main_arg2) (V c main_arg3) (i 0) (i 1) :=
  final0_of V c Cert.KernelIdeal.Pay.pay0

end Cert.KernelIdeal.Val

end
-- ==== Proof.KV2.lean ====
/-
  Region 2 read as mathematics: the weights kernel walks a 2 × 32 grid; at point (g, k) it reads rows 16g … 16g+15 of the
  projection and of the coefficient array and the 16 × 64 × 1024 tile (g, k) of the encoder array, and writes the tile
  exp (p(b,u) · e(b,s,u)) · coef(b,u). The 64 tiles fill the array, so after the region the weights array holds that
  expression at every entry.
-/
import proofs.«155699_j19834158973688_2_alg».proof.Proof.KI_R2
import proofs.«155699_j19834158973688_2_alg».proof.Proof.Spec
import proofs.«155699_j19834158973688_2_alg».proof.Proof.Payload
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr Cert.Attn
open Idealize.ShloMosaic Idealize.ShloMosaic.TcCoe Idealize.SL.Sem Idealize.ShloMosaic.ValueIdx
open Idealize.ShloMosaic.Pipeline (Dat)

variable (V : (c : Dev nD) → (b : Ref sig .tc) → Buf (Elt Ideal) ((c : Thread nD τ).loc b))

theorem zero3 : (![0, 0, 0] : Fin 3 → Nat) = fun _ => 0 := funext fun a => by fin_cases a <;> rfl
theorem zero2' : (![0, 0] : Fin 2 → Nat) = fun _ => 0 := funext fun a => by fin_cases a <;> rfl

/-- The printed index maps over the grid: the projection rows, the encoder tile and the coefficient rows move with the
    weights tile; the weights tile's block index is (g, k, 0) with g ≤ 1 and k ≤ 31. -/
theorem index_facts2 : ∀ t : Fin cfg2.N,
    win2_0.index t (0 : Fin 3) = win2_3.index t (0 : Fin 3) ∧ win2_0.index t (1 : Fin 3) = 0 ∧ win2_0.index t (2 : Fin 3) = 0
    ∧ win2_1.index t (0 : Fin 3) = win2_3.index t (0 : Fin 3) ∧ win2_1.index t (1 : Fin 3) = win2_3.index t (1 : Fin 3)
    ∧ win2_1.index t (2 : Fin 3) = 0
    ∧ win2_2.index t (0 : Fin 2) = win2_3.index t (0 : Fin 3) ∧ win2_2.index t (1 : Fin 2) = 0
    ∧ win2_3.index t (0 : Fin 3) ≤ 1 ∧ win2_3.index t (1 : Fin 3) ≤ 31 ∧ win2_3.index t (2 : Fin 3) = 0 :=
  (by decide +kernel : ∀ t : Fin grid2.N, _)

/-- Every tile (g, k) is some grid point's. -/
theorem index_onto2 : ∀ (g : Fin 2) (k : Fin 32), ∃ t : Fin cfg2.N, win2_3.index t = ![g.val, k.val, 0] :=
  (by decide +kernel : ∀ (g : Fin 2) (k : Fin 32), ∃ t : Fin grid2.N, win2_3.index t = ![g.val, k.val, 0])

section Blocks
variable (c : Dev nD) (t : Fin cfg2.N) (a1 : ArrE) (P Cf : ArrH)

/-- The projection row read by the tile: entry (r, 0, u) of window 0's block is p at the tile's batch row and feature. -/
theorem blk2_P (hv1 : V c main_v1 = fun i : S32x1x1024.Idx => P (ix2 (i 0) (i 2)))
    (r : Fin 16) (s : Fin 64) (u : Fin 1024) :
    iblk2 (F := Ideal) V c 0 t (ix3 r (0 : Fin 1) u)
      = P (ix2 (((cfg2.win 3).blk t).view.emb (ix3 r s u) 0) (((cfg2.win 3).blk t).view.emb (ix3 r s u) 2)) := by
  obtain ⟨e0, e1, e2, -, -, -, -, -, -, -, e10⟩ := index_facts2 t
  show V c main_v1 (((cfg2.win 0).blk t).view.emb (ix3 r (0 : Fin 1) u)) = _
  refine (congrFun hv1 _).trans (congrArg P ?_)
  funext a; apply Fin.ext
  match a with
  | ⟨0, _⟩ => show win2_0.index t (0 : Fin 3) * 16 + 1 * r.val = win2_3.index t (0 : Fin 3) * 16 + 1 * r.val; omega
  | ⟨1, _⟩ => show win2_0.index t (2 : Fin 3) * 1024 + 1 * u.val = win2_3.index t (2 : Fin 3) * 1024 + 1 * u.val; omega

/-- The encoder tile: entry (r, s, u) of window 1's block is the encoder array under the weights tile's entry. -/
theorem blk2_E (he : V c main_arg1 = a1) (y : S16x64x1024.Idx) :
    iblk2 (F := Ideal) V c 1 t y = a1 (((cfg2.win 3).blk t).view.emb y) := by
  obtain ⟨-, -, -, e3, e4, e5, -, -, -, -, e10⟩ := index_facts2 t
  show V c main_arg1 (((cfg2.win 1).blk t).view.emb y) = _
  refine (congrFun he _).trans (congrArg a1 ?_)
  funext a; apply Fin.ext
  match a with
  | ⟨0, _⟩ => show win2_1.index t (0 : Fin 3) * 16 + 1 * (y 0).val = win2_3.index t (0 : Fin 3) * 16 + 1 * (y 0).val; omega
  | ⟨1, _⟩ => show win2_1.index t (1 : Fin 3) * 64 + 1 * (y 1).val = win2_3.index t (1 : Fin 3) * 64 + 1 * (y 1).val; omega
  | ⟨2, _⟩ => show win2_1.index t (2 : Fin 3) * 1024 + 1 * (y 2).val = win2_3.index t (2 : Fin 3) * 1024 + 1 * (y 2).val; omega

/-- The coefficient row read by the tile. -/
theorem blk2_C (hcf : V c main_v2_1 = Cf) (r : Fin 16) (s : Fin 64) (u : Fin 1024) :
    iblk2 (F := Ideal) V c 2 t (ix2 r u)
      = Cf (ix2 (((cfg2.win 3).blk t).view.emb (ix3 r s u) 0) (((cfg2.win 3).blk t).view.emb (ix3 r s u) 2)) := by
  obtain ⟨-, -, -, -, -, -, e6, e7, -, -, e10⟩ := index_facts2 t
  show V c main_v2_1 (((cfg2.win 2).blk t).view.emb (ix2 r u)) = _
  refine (congrFun hcf _).trans (congrArg Cf ?_)
  funext a; apply Fin.ext
  match a with
  | ⟨0, _⟩ => show win2_2.index t (0 : Fin 2) * 16 + 1 * r.val = win2_3.index t (0 : Fin 3) * 16 + 1 * r.val; omega
  | ⟨1, _⟩ => show win2_2.index t (1 : Fin 2) * 1024 + 1 * u.val = win2_3.index t (2 : Fin 3) * 1024 + 1 * u.val; omega

end Blocks

/-- The weights array the region leaves: exp (p · e) times the coefficient, entry by entry. -/
abbrev G2 (a1 : ArrE) (P Cf : ArrH) : S32x2048x1024.Idx → EReal :=
  fun i => Ideal.exp (P (ix2 (i 0) (i 2)) * a1 i) * Cf (ix2 (i 0) (i 2))

/-- What grid point t writes back is tile t of that array. -/
theorem flushed2_eq (c : Dev nD) (t : Fin cfg2.N)
    (hp2 : ∀ (v0 : Vec Ideal S16x64x1024 .f32) (v1 : Vec Ideal S16x1x1024 .f32) (v5 : Vec Ideal S16x1024 .f32)
      (r : Fin 16) (j : Fin 64) (u : Fin 1024),
      k2_pay1 (F := Ideal) v0 v1 v5 (ix3 r j u) = Ideal.exp (v1 (ix3 r (0 : Fin 1) u) * v0 (ix3 r j u)) * v5 (ix2 r u))
    (a1 : ArrE) (P Cf : ArrH)
    (hv1 : V c main_v1 = fun i : S32x1x1024.Idx => P (ix2 (i 0) (i 2))) (he : V c main_arg1 = a1) (hcf : V c main_v2_1 = Cf) :
    (dat2 (F := Ideal) V c).flushed 3 t = ((cfg2.win 3).blk t).view.read (Elt Ideal) (G2 a1 P Cf) := by
  show (cfg2.win 3).cut (grid2.coords t) ((dat2 (F := Ideal) V c).after 3 t) = _
  rw [after2_3]
  unfold out2_3
  rw [View.canon_unit_zero zero3]
  simp only [View.ld_unit_zero (S := S16x1x1024) zero3, View.ld_unit_zero (S := S16x64x1024) zero3, View.ld_unit_zero (S := S16x1024) zero2']
  refine funext fun (j : S16x64x1024.Idx) => ?_
  obtain ⟨r, s, u, rfl⟩ : ∃ (r : Fin 16) (s : Fin 64) (u : Fin 1024), j = ix3 r s u := ⟨j 0, j 1, j 2, eq_ix3 j⟩
  show k2_pay1 (F := Ideal) (iblk2 V c 1 t) (iblk2 V c 0 t) (iblk2 V c 2 t) (ix3 r s u)
    = G2 a1 P Cf (((cfg2.win 3).blk t).view.emb (ix3 r s u))
  refine (hp2 _ _ _ r s u).trans ?_
  rw [blk2_P V c t P hv1 r s u, blk2_E V c t a1 he (ix3 r s u), blk2_C V c t Cf hcf r s u]

/-- An entry of the weights array is in point t's tile iff each coordinate is in the tile's range on its axis. -/
theorem mem_blk2 (t : Fin cfg2.N) (i : S32x2048x1024.Idx) :
    i ∈ ((cfg2.win 3).blk t).view.set ↔ ∀ a : Fin 3, win2_3.index t a * S16x64x1024.size a ≤ (i a).val
      ∧ (i a).val < win2_3.index t a * S16x64x1024.size a + S16x64x1024.size a := by
  show i ∈ ((View.whole main_v3).slice (win2_3.rect t)).set ↔ _
  rw [View.set_slice_whole, Rect.mem_set_unit]
  exact Iff.rfl

/-- Every entry (b, s, u) is in the tile of the point with block index (b / 16, s / 64, 0). -/
theorem cover2 (i : S32x2048x1024.Idx) :
    ∃ t : Fin cfg2.N, (cfg2.win 3).flush t = true ∧ i ∈ ((cfg2.win 3).blk t).view.set := by
  have hi0 : (i 0).val < 32 := (i 0).isLt
  have hi1 : (i 1).val < 2048 := (i 1).isLt
  have hi2 : (i 2).val < 1024 := (i 2).isLt
  obtain ⟨t, ht⟩ := index_onto2 ⟨(i 0).val / 16, by omega⟩ ⟨(i 1).val / 64, by omega⟩
  have q0 : win2_3.index t (0 : Fin 3) = (i 0).val / 16 := congrFun ht 0
  have q1 : win2_3.index t (1 : Fin 3) = (i 1).val / 64 := congrFun ht 1
  have q2 : win2_3.index t (2 : Fin 3) = 0 := congrFun ht 2
  refine ⟨t, flush2_3 t, ?_⟩
  rw [mem_blk2]
  intro a
  match a with
  | ⟨0, _⟩ => show win2_3.index t (0 : Fin 3) * 16 ≤ (i 0).val ∧ (i 0).val < win2_3.index t (0 : Fin 3) * 16 + 16; omega
  | ⟨1, _⟩ => show win2_3.index t (1 : Fin 3) * 64 ≤ (i 1).val ∧ (i 1).val < win2_3.index t (1 : Fin 3) * 64 + 64; omega
  | ⟨2, _⟩ => show win2_3.index t (2 : Fin 3) * 1024 ≤ (i 2).val ∧ (i 2).val < win2_3.index t (2 : Fin 3) * 1024 + 1024; omega

/-- The weights array after region 2, given the kernel's arithmetic read at an entry. -/
theorem final2_of (c : Dev nD)
    (hp2 : ∀ (v0 : Vec Ideal S16x64x1024 .f32) (v1 : Vec Ideal S16x1x1024 .f32) (v5 : Vec Ideal S16x1024 .f32)
      (r : Fin 16) (j : Fin 64) (u : Fin 1024),
      k2_pay1 (F := Ideal) v0 v1 v5 (ix3 r j u) = Ideal.exp (v1 (ix3 r (0 : Fin 1) u) * v0 (ix3 r j u)) * v5 (ix2 r u))
    (a1 : ArrE) (P Cf : ArrH)
    (hv1 : V c main_v1 = fun i : S32x1x1024.Idx => P (ix2 (i 0) (i 2))) (he : V c main_arg1 = a1) (hcf : V c main_v2_1 = Cf) :
    (dat2 (F := Ideal) V c).arrAt 3 cfg2.N
      = fun i : S32x2048x1024.Idx => Ideal.exp (P (ix2 (i 0) (i 2)) * a1 i) * Cf (ix2 (i 0) (i 2)) :=
  (dat2 (F := Ideal) V c).arrAt_eq_of_cover 3 (G2 a1 P Cf) (fun t _ => flushed2_eq V c t hp2 a1 P Cf hv1 he hcf) cover2

/-- The weights array after region 2: exp (p(b,u) · e(b,s,u)) · coef(b,u) at every entry, for the projection p and the
    coefficient array the region finds. -/
theorem final2 (c : Dev nD) (a1 : ArrE) (P Cf : ArrH)
    (hv1 : V c main_v1 = fun i : S32x1x1024.Idx => P (ix2 (i 0) (i 2))) (he : V c main_arg1 = a1) (hcf : V c main_v2_1 = Cf) :
    (dat2 (F := Ideal) V c).arrAt 3 cfg2.N
      = fun i : S32x2048x1024.Idx => Ideal.exp (P (ix2 (i 0) (i 2)) * a1 i) * Cf (ix2 (i 0) (i 2)) :=
  final2_of V c Cert.KernelIdeal.Pay.pay2 a1 P Cf hv1 he hcf

end Cert.KernelIdeal.Val

end
-- ==== Proof.KVrun.lean ====
/-
  The kernel program's run read as mathematics. Region 0 leaves the dense projection p; the host broadcast copies it to a
  [32, 1, 1024] array; region 1 leaves, for every column (b, u), the tiled pass's context entry and coefficient of the scores
  p(b,u) · e(b,s,u); region 2 leaves exp (p(b,u) · e(b,s,u)) times the coefficient. Read back through the boundary
  contents these are the context array and the weights array of the tiled pass, and the four arguments end as launched.
-/
import proofs.«155699_j19834158973688_2_alg».proof.Proof.KI_Run
import proofs.«155699_j19834158973688_2_alg».proof.Proof.KV0
import proofs.«155699_j19834158973688_2_alg».proof.Proof.KV2
import proofs.«155699_j19834158973688_2_alg».proof.Proof.Payload
import proofs.«155699_j19834158973688_2_alg».proof.Proof.Spec

set_option maxRecDepth 16384

noncomputable section

open scoped BigOperators

namespace Cert.KernelIdeal.Val

open Cert.KernelIdeal Cert.KernelIdeal.Gen Cert.KernelIdeal.Fr Cert.Attn
open Idealize.ShloMosaic Idealize.ShloMosaic.TcCoe Idealize.SL.Sem Idealize.ShloMosaic.ValueIdx
open Idealize.ShloMosaic.Pipeline (Dat)

variable (m : (ℓ : Loc nD τ sig) → Buf (Elt Ideal) ℓ) (ρ : Dev nD → PrngReg)

/-- The dense projection of the launch arguments. -/
abbrev Pj (c : Dev nD) : ArrH := fun i =>
  projA (m ((c.tc : Thread nD τ).loc main_arg0)) (m ((c.tc : Thread nD τ).loc main_arg2)) (m ((c.tc : Thread nD τ).loc main_arg3)) (i 0) (i 1)

/-- The encoder argument. -/
abbrev Enc (c : Dev nD) : ArrE := m ((c.tc : Thread nD τ).loc main_arg1)

/-- The tiled pass's context entries, column by column. -/
abbrev CtxArr (c : Dev nD) : ArrH := fun i : S32x1024.Idx =>
  kCtx (fun s => Pj m c (ix2 (i 0) (i 1)) * Enc m c (ix3 (i 0) s (i 1))) (fun s => Enc m c (ix3 (i 0) s (i 1)))

/-- The tiled pass's coefficients, column by column. -/
abbrev CoefArr (c : Dev nD) : ArrH := fun i : S32x1024.Idx =>
  kCoef (fun s => Pj m c (ix2 (i 0) (i 1)) * Enc m c (ix3 (i 0) s (i 1))) (fun s => Enc m c (ix3 (i 0) s (i 1)))

/-! ## After region 0 and the host broadcast -/

/-- Region 0's result array holds the projection. -/
theorem W1_proj (c : Dev nD) : W1 (F := Ideal) m ρ c (Proc.devRef .tc main_v0) = Pj m c :=
  (W1_arr m ρ c 3).trans (final0 (Ve0 m ρ) c)

/-- The host broadcast leaves the projection with a unit middle axis. -/
theorem W2_proj (c : Dev nD) :
    W2 (F := Ideal) m ρ c (Proc.devRef .tc main_v1) = fun i : S32x1x1024.Idx => Pj m c (ix2 (i 0) (i 2)) := by
  show StableHlo.after (hostOps1 (F := Ideal)) (W1 m ρ c) (Proc.devRef .tc main_v1) = _
  after_results
  refine (congrArg _ (W1_proj m ρ c)).trans ?_
  funext i
  refine broadcastInDim_apply _ _ _ i (ix2 (i 0) (i 2)) fun a => ?_
  match a with
  | ⟨0, _⟩ => rfl
  | ⟨1, _⟩ => rfl

/-- The encoder argument is untouched up to region 1's entry. -/
theorem W2_enc (c : Dev nD) : W2 (F := Ideal) m ρ c (Proc.devRef .tc main_arg1) = Enc m c :=
  calc W2 m ρ c (Proc.devRef .tc main_arg1)
    _ = W1 m ρ c (Proc.devRef .tc main_arg1) := StableHlo.after_of_forall_not_mem (b := Proc.devRef .tc main_arg1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          exact StableHlo.devRef_ne_of_ne (by decide)))
    _ = W0 m ρ c (Proc.devRef .tc main_arg1) := W1_of_ne m ρ c main_arg1 (by decide)
    _ = m ((c : Thread nD τ).loc main_arg1) := rfl

/-! ## After region 1 -/

section AfterStats

/- Region 1's two result arrays, for any entry contents whose projection window holds p with a unit middle axis and
   whose encoder window holds e. -/
variable (hfinal1 : ∀ (V : (c : Dev nD) → (b : Ref sig .tc) → Buf (Elt Ideal) ((c : Thread nD τ).loc b)) (c : Dev nD)
    (P : ArrH) (a1 : ArrE) (hv1 : V c main_v1 = fun i : S32x1x1024.Idx => P (ix2 (i 0) (i 2))) (he : V c main_arg1 = a1),
    (dat1 (F := Ideal) V c).arrAt 2 cfg1.N
        = (fun i : S32x1024.Idx => kCtx (fun s => P (ix2 (i 0) (i 1)) * a1 (ix3 (i 0) s (i 1))) (fun s => a1 (ix3 (i 0) s (i 1))))
      ∧ (dat1 (F := Ideal) V c).arrAt 3 cfg1.N
        = (fun i : S32x1024.Idx => kCoef (fun s => P (ix2 (i 0) (i 1)) * a1 (ix3 (i 0) s (i 1))) (fun s => a1 (ix3 (i 0) s (i 1)))))

include hfinal1

theorem W3_ctx (c : Dev nD) : W3 (F := Ideal) m ρ c (Proc.devRef .tc main_v2_0) = CtxArr m c :=
  (W3_arr m ρ c 2).trans (hfinal1 (Ve1 m ρ) c (Pj m c) (Enc m c) (W2_proj m ρ c) (W2_enc m ρ c)).1

theorem W3_coef (c : Dev nD) : W3 (F := Ideal) m ρ c (Proc.devRef .tc main_v2_1) = CoefArr m c :=
  (W3_arr m ρ c 3).trans (hfinal1 (Ve1 m ρ) c (Pj m c) (Enc m c) (W2_proj m ρ c) (W2_enc m ρ c)).2

omit hfinal1 in
/-- Region 1 stages the broadcast projection and never writes it back. -/
theorem W3_proj (c : Dev nD) :
    W3 (F := Ideal) m ρ c (Proc.devRef .tc main_v1) = fun i : S32x1x1024.Idx => Pj m c (ix2 (i 0) (i 2)) :=
  ((W3_arr m ρ c 0).trans (((dat1 (Ve1 m ρ) c).arrAt_in 0 rfl _).trans (A_eq1 (Ve1 m ρ) c 0))).trans (W2_proj m ρ c)

omit hfinal1 in
/-- Region 1 stages the encoder argument and never writes it back. -/
theorem W3_enc (c : Dev nD) : W3 (F := Ideal) m ρ c (Proc.devRef .tc main_arg1) = Enc m c :=
  ((W3_arr m ρ c 1).trans (((dat1 (Ve1 m ρ) c).arrAt_in 1 rfl _).trans (A_eq1 (Ve1 m ρ) c 1))).trans (W2_enc m ρ c)

/-! ## After region 2 -/

/-- The weights array after the last region. -/
theorem W4_weights (c : Dev nD) :
    W4 (F := Ideal) m ρ c (Proc.devRef .tc main_v3)
      = fun i : S32x2048x1024.Idx => Ideal.exp (Pj m c (ix2 (i 0) (i 2)) * Enc m c i) * CoefArr m c (ix2 (i 0) (i 2)) :=
  (W4_arr m ρ c 3).trans
    (final2 (Ve2 m ρ) c (Enc m c) (Pj m c) (CoefArr m c) (W3_proj m ρ c) (W3_enc m ρ c) (W3_coef m ρ hfinal1 c))

/-- The context array is not one of region 2's arrays. -/
theorem W4_ctx (c : Dev nD) : W4 (F := Ideal) m ρ c (Proc.devRef .tc main_v2_0) = CtxArr m c :=
  (W4_of_ne m ρ c main_v2_0 (by decide)).trans (W3_ctx m ρ hfinal1 c)

omit hfinal1 in
/-- The column-by-column context entries are the tiled pass's context array of the launch arguments. -/
theorem ctxArr_eq (c : Dev nD) :
    CtxArr m c = kCtxA (m ((c.tc : Thread nD τ).loc main_arg0)) (m ((c.tc : Thread nD τ).loc main_arg1))
      (m ((c.tc : Thread nD τ).loc main_arg2)) (m ((c.tc : Thread nD τ).loc main_arg3)) := rfl

omit hfinal1 in
/-- exp (score) times the column's coefficient is the tiled pass's weights array of the launch arguments. -/
theorem weights_eq (c : Dev nD) :
    (fun i : S32x2048x1024.Idx => Ideal.exp (Pj m c (ix2 (i 0) (i 2)) * Enc m c i) * CoefArr m c (ix2 (i 0) (i 2)))
      = kAwA (m ((c.tc : Thread nD τ).loc main_arg0)) (m ((c.tc : Thread nD τ).loc main_arg1))
          (m ((c.tc : Thread nD τ).loc main_arg2)) (m ((c.tc : Thread nD τ).loc main_arg3)) := by
  funext i
  obtain ⟨b, s, u, rfl⟩ : ∃ (b : Fin 32) (s : Fin 2048) (u : Fin 1024), i = ix3 b s u := ⟨i 0, i 1, i 2, eq_ix3 i⟩
  rfl

/-- THE RUN, READ: the two results are the tiled pass's context and weights arrays of the arguments, and the arguments
    end as launched. -/
theorem run_of : θ_run defs (onTc (τ := τ) (main (F := Ideal))) ⟨m, fun _ => 0, ρ⟩ fun r => ∀ c : Dev nD,
      r.2.mem ((c.tc : Thread nD τ).loc main_v2_0)
        = kCtxA (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_v3)
        = kAwA (m ((c.tc : Thread nD τ).loc main_arg0)) (m ((c.tc : Thread nD τ).loc main_arg1))
            (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
    ⟨((h c _ (mem_uc main_v2_0 (by decide))).trans (W4_ctx m ρ hfinal1 c)).trans (ctxArr_eq m c),
     ((h c _ (mem_uc main_v3 (by decide))).trans (W4_weights m ρ hfinal1 c)).trans (weights_eq m c),
     (h c _ (mem_uc main_arg0 (by decide))).trans (W4_main_arg0 m ρ c),
     (h c _ (mem_uc main_arg1 (by decide))).trans (W4_main_arg1 m ρ c),
     (h c _ (mem_uc main_arg2 (by decide))).trans (W4_main_arg2 m ρ c),
     (h c _ (mem_uc main_arg3 (by decide))).trans (W4_main_arg3 m ρ c)⟩) (run_all (F := Ideal) m ρ)

end AfterStats

end Cert.KernelIdeal.Val

end
-- ==== Proof.KI_Pieces.lean ====
import proofs.«155699_j19834158973688_2_alg».proof.Proof.KI_R1
import Idealize.ShloMosaic.Lib.Pipeline.Value

set_option maxRecDepth 16384

noncomputable section

namespace Cert.KernelIdeal.Fr

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # Region 1: what each kind of tile leaves, as the body's arithmetic over the blocks and the scratch contents it found -/

theorem hz2 : (![0, 0] : Fin 2 → Nat) = fun _ => 0 := funext fun a => by fin_cases a <;> rfl
theorem hz3 : (![0, 0, 0] : Fin 3 → Nat) = fun _ => 0 := funext fun a => by fin_cases a <;> rfl

theorem piece_B_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) :
    sout1_B_0 c i arg2 harg2 arg3 harg3 arg4 harg4 arg5 harg5 arg6 harg6 arg7 harg7 arg8 harg8 hc0 hc1 x0 x1 xs0 xs1 xs2 = k1_pay1 (k1_pay9 x1 x0 xs0) := by
  unfold sout1_B_0
  rw [View.read_writes_eq_canon _ _ _ (scover1_B_0 c i arg2 harg2 arg3 harg3 arg4 harg4 arg5 harg5 arg6 harg6 arg7 harg7 arg8 harg8 hc0 hc1 x0 x1 xs0 xs1 xs2)]
  unfold kernelRun1_B
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

theorem piece_B_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) :
    sout1_B_1 c i arg2 harg2 arg3 harg3 arg4 harg4 arg5 harg5 arg6 harg6 arg7 harg7 arg8 harg8 hc0 hc1 x0 x1 xs0 xs1 xs2 = k1_pay12 x1 x0 xs0 xs1 := by
  unfold sout1_B_1
  rw [View.read_writes_eq_canon _ _ _ (scover1_B_1 c i arg2 harg2 arg3 harg3 arg4 harg4 arg5 harg5 arg6 harg6 arg7 harg7 arg8 harg8 hc0 hc1 x0 x1 xs0 xs1 xs2)]
  unfold kernelRun1_B
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

theorem piece_B_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : ¬cond1_1 i)
    (x0 : Vec F S16x1x1024 .f32) (x1 : Vec F S16x64x1024 .f32) (xs0 xs1 xs2 : Vec F S16x1024 .f32) :
    sout1_B_2 c i arg2 harg2 arg3 harg3 arg4 harg4 arg5 harg5 arg6 harg6 arg7 harg7 arg8 harg8 hc0 hc1 x0 x1 xs0 xs1 xs2 = k1_pay13 x1 x0 xs0 xs2 := by
  unfold sout1_B_2
  rw [View.read_writes_eq_canon _ _ _ (scover1_B_2 c i arg2 harg2 arg3 harg3 arg4 harg4 arg5 harg5 arg6 harg6 arg7 harg7 arg8 harg8 hc0 hc1 x0 x1 xs0 xs1 xs2)]
  unfold kernelRun1_B
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

theorem piece_C_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) :
    sout1_C_0 c i arg2 harg2 arg3 harg3 arg4 harg4 arg5 harg5 arg6 harg6 arg7 harg7 arg8 harg8 hc0 hc1 x0 x1 xs0 xs1 xs2 = k1_pay1 (k1_pay9 x1 x0 xs0) := by
  unfold sout1_C_0
  rw [View.read_writes_eq_canon _ _ _ (scover1_C_0 c i arg2 harg2 arg3 harg3 arg4 harg4 arg5 harg5 arg6 harg6 arg7 harg7 arg8 harg8 hc0 hc1 x0 x1 xs0 xs1 xs2)]
  unfold kernelRun1_C
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

theorem piece_C_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) :
    sout1_C_1 c i arg2 harg2 arg3 harg3 arg4 harg4 arg5 harg5 arg6 harg6 arg7 harg7 arg8 harg8 hc0 hc1 x0 x1 xs0 xs1 xs2 = k1_pay12 x1 x0 xs0 xs1 := by
  unfold sout1_C_1
  rw [View.read_writes_eq_canon _ _ _ (scover1_C_1 c i arg2 harg2 arg3 harg3 arg4 harg4 arg5 harg5 arg6 harg6 arg7 harg7 arg8 harg8 hc0 hc1 x0 x1 xs0 xs1 xs2)]
  unfold kernelRun1_C
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

theorem piece_C_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) :
    sout1_C_2 c i arg2 harg2 arg3 harg3 arg4 harg4 arg5 harg5 arg6 harg6 arg7 harg7 arg8 harg8 hc0 hc1 x0 x1 xs0 xs1 xs2 = k1_pay13 x1 x0 xs0 xs2 := by
  unfold sout1_C_2
  rw [View.read_writes_eq_canon _ _ _ (scover1_C_2 c i arg2 harg2 arg3 harg3 arg4 harg4 arg5 harg5 arg6 harg6 arg7 harg7 arg8 harg8 hc0 hc1 x0 x1 xs0 xs1 xs2)]
  unfold kernelRun1_C
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

theorem piece_C_out2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) :
    out1_C_2 c i arg2 harg2 arg3 harg3 arg4 harg4 arg5 harg5 arg6 harg6 arg7 harg7 arg8 harg8 hc0 hc1 x0 x1 xs0 xs1 xs2 = k1_pay2 (k1_pay12 x1 x0 xs0 xs1) (k1_pay13 x1 x0 xs0 xs2) := by
  unfold out1_C_2
  rw [View.read_writes_eq_canon _ _ _ (cover1_C_2 c i arg2 harg2 arg3 harg3 arg4 harg4 arg5 harg5 arg6 harg6 arg7 harg7 arg8 harg8 hc0 hc1 x0 x1 xs0 xs1 xs2)]
  unfold kernelRun1_C
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

theorem piece_C_out3 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : ¬cond1_0 i) (hc1 : cond1_1 i)
    (x0 : Vec F S16x1x1024 .f32) (x1 : Vec F S16x64x1024 .f32) (xs0 xs1 xs2 : Vec F S16x1024 .f32) :
    out1_C_3 c i arg2 harg2 arg3 harg3 arg4 harg4 arg5 harg5 arg6 harg6 arg7 harg7 arg8 harg8 hc0 hc1 x0 x1 xs0 xs1 xs2 = k1_pay3 (k1_pay12 x1 x0 xs0 xs1) (k1_pay1 (k1_pay9 x1 x0 xs0)) := by
  unfold out1_C_3
  rw [View.read_writes_eq_canon _ _ _ (cover1_C_3 c i arg2 harg2 arg3 harg3 arg4 harg4 arg5 harg5 arg6 harg6 arg7 harg7 arg8 harg8 hc0 hc1 x0 x1 xs0 xs1 xs2)]
  unfold kernelRun1_C
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

theorem piece_A_0 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  :
    sout1_A_0 c i arg2 harg2 arg3 harg3 arg4 harg4 arg5 harg5 arg6 harg6 arg7 harg7 arg8 harg8 hc0 hc1 x0 x1 = k1_pay1 (k1_pay9 x1 x0 k1_pay4) := by
  unfold sout1_A_0
  rw [View.read_writes_eq_canon _ _ _ (scover1_A_0 c i arg2 harg2 arg3 harg3 arg4 harg4 arg5 harg5 arg6 harg6 arg7 harg7 arg8 harg8 hc0 hc1 x0 x1)]
  unfold kernelRun1_A
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

theorem piece_A_1 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  :
    sout1_A_1 c i arg2 harg2 arg3 harg3 arg4 harg4 arg5 harg5 arg6 harg6 arg7 harg7 arg8 harg8 hc0 hc1 x0 x1 = k1_pay12 x1 x0 k1_pay4 k1_pay5 := by
  unfold sout1_A_1
  rw [View.read_writes_eq_canon _ _ _ (scover1_A_1 c i arg2 harg2 arg3 harg3 arg4 harg4 arg5 harg5 arg6 harg6 arg7 harg7 arg8 harg8 hc0 hc1 x0 x1)]
  unfold kernelRun1_A
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

theorem piece_A_2 (c : Dev nD) (i : grid1.Coords) (arg2 : Memref sig .tc .vmem S16x1x1024 .f32) (harg2 : arg2.IsWhole) (arg3 : Memref sig .tc .vmem S16x64x1024 .f32) (harg3 : arg3.IsWhole) (arg4 : Memref sig .tc .vmem S16x1024 .f32) (harg4 : arg4.IsWhole) (arg5 : Memref sig .tc .vmem S16x1024 .f32) (harg5 : arg5.IsWhole) (arg6 : Memref sig .tc .vmem S16x1024 .f32) (harg6 : arg6.IsWhole) (arg7 : Memref sig .tc .vmem S16x1024 .f32) (harg7 : arg7.IsWhole) (arg8 : Memref sig .tc .vmem S16x1024 .f32) (harg8 : arg8.IsWhole) (hc0 : cond1_0 i) (hc1 : ¬cond1_1 i)
    (x0 : Vec F S16x1x1024 .f32) (x1 : Vec F S16x64x1024 .f32)  :
    sout1_A_2 c i arg2 harg2 arg3 harg3 arg4 harg4 arg5 harg5 arg6 harg6 arg7 harg7 arg8 harg8 hc0 hc1 x0 x1 = k1_pay13 x1 x0 k1_pay4 k1_pay6 := by
  unfold sout1_A_2
  rw [View.read_writes_eq_canon _ _ _ (scover1_A_2 c i arg2 harg2 arg3 harg3 arg4 harg4 arg5 harg5 arg6 harg6 arg7 harg7 arg8 harg8 hc0 hc1 x0 x1)]
  unfold kernelRun1_A
  dsimp only
  sl_unfold_words
  rw [View.canon_cons_unit_zero hz2]
  simp only [View.readAt_eq_ld, Memref.IsWhole.read_unread, View.readCov_unit_zero (S := S16x1024) _ hz2, View.ld_unit_zero (S := S16x1024) hz2, View.ld_unit_zero (S := S16x64x1024) hz3, View.ld_unit_zero (S := S16x1x1024) hz3]
  try rfl

end Cert.KernelIdeal.Fr

end
-- ==== Proof.KV1.lean ====
/-
  Region 1 read as mathematics: the statistics kernel walks a 2 × 32 grid; the 32 points of a batch half g walk the
  sequence in tiles of 64 positions, keeping for every (row, feature) of the half a running maximum, denominator and
  numerator. After tile k these are the specification's state after k + 1 tiles of the column's scores
  x s = p(b,u) · e(b,s,u); the last tile of the half stores numerator / denominator and exp (0 - maximum) / denominator,
  and the two halves' last points fill the two result arrays.
-/
import proofs.«155699_j19834158973688_2_alg».proof.Proof.KI_R1
import proofs.«155699_j19834158973688_2_alg».proof.Proof.KI_Pieces
import proofs.«155699_j19834158973688_2_alg».proof.Proof.Payload
import proofs.«155699_j19834158973688_2_alg».proof.Proof.Spec
import Idealize.ShloMosaic.Lib.Pipeline.Value
import Idealize.ShloMosaic.Lib.ValueIdx

noncomputable section

open scoped BigOperators

namespace Cert.KernelIdeal.Val

open Cert.KernelIdeal Cert.KernelIdeal.Gen Cert.KernelIdeal.Fr Cert.KernelIdeal.Pay Cert.Attn
open Idealize.ShloMosaic Idealize.ShloMosaic.TcCoe Idealize.SL.Sem Idealize.ShloMosaic.ValueIdx
open Idealize.ShloMosaic.Pipeline (Dat)

/-- What each kind of tile leaves, as the kernel's arithmetic: a first tile starts from the initial values, a middle or
    last tile continues from the running values it finds, and a last tile also emits the two results. -/
structure Pieces : Prop where
  A0 : ∀ (c : Dev nD) (t : Fin cfg1.N) (hc0 : cond1_0 (grid1.coords t)) (hc1 : ¬cond1_1 (grid1.coords t))
      (x0 : Vec Ideal S16x1x1024 .f32) (x1 : Vec Ideal S16x64x1024 .f32),
      sout1_A_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 = k1_pay1 (k1_pay9 x1 x0 (k1_pay4 (F := Ideal)))
  A1 : ∀ (c : Dev nD) (t : Fin cfg1.N) (hc0 : cond1_0 (grid1.coords t)) (hc1 : ¬cond1_1 (grid1.coords t))
      (x0 : Vec Ideal S16x1x1024 .f32) (x1 : Vec Ideal S16x64x1024 .f32),
      sout1_A_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 = k1_pay12 x1 x0 (k1_pay4 (F := Ideal)) (k1_pay5 (F := Ideal))
  A2 : ∀ (c : Dev nD) (t : Fin cfg1.N) (hc0 : cond1_0 (grid1.coords t)) (hc1 : ¬cond1_1 (grid1.coords t))
      (x0 : Vec Ideal S16x1x1024 .f32) (x1 : Vec Ideal S16x64x1024 .f32),
      sout1_A_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 = k1_pay13 x1 x0 (k1_pay4 (F := Ideal)) (k1_pay6 (F := Ideal))
  B0 : ∀ (c : Dev nD) (t : Fin cfg1.N) (hc0 : ¬cond1_0 (grid1.coords t)) (hc1 : ¬cond1_1 (grid1.coords t))
      (x0 : Vec Ideal S16x1x1024 .f32) (x1 : Vec Ideal S16x64x1024 .f32) (xs0 xs1 xs2 : Vec Ideal S16x1024 .f32),
      sout1_B_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2 = k1_pay1 (k1_pay9 x1 x0 xs0)
  B1 : ∀ (c : Dev nD) (t : Fin cfg1.N) (hc0 : ¬cond1_0 (grid1.coords t)) (hc1 : ¬cond1_1 (grid1.coords t))
      (x0 : Vec Ideal S16x1x1024 .f32) (x1 : Vec Ideal S16x64x1024 .f32) (xs0 xs1 xs2 : Vec Ideal S16x1024 .f32),
      sout1_B_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2 = k1_pay12 x1 x0 xs0 xs1
  B2 : ∀ (c : Dev nD) (t : Fin cfg1.N) (hc0 : ¬cond1_0 (grid1.coords t)) (hc1 : ¬cond1_1 (grid1.coords t))
      (x0 : Vec Ideal S16x1x1024 .f32) (x1 : Vec Ideal S16x64x1024 .f32) (xs0 xs1 xs2 : Vec Ideal S16x1024 .f32),
      sout1_B_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2 = k1_pay13 x1 x0 xs0 xs2
  C0 : ∀ (c : Dev nD) (t : Fin cfg1.N) (hc0 : ¬cond1_0 (grid1.coords t)) (hc1 : cond1_1 (grid1.coords t))
      (x0 : Vec Ideal S16x1x1024 .f32) (x1 : Vec Ideal S16x64x1024 .f32) (xs0 xs1 xs2 : Vec Ideal S16x1024 .f32),
      sout1_C_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2 = k1_pay1 (k1_pay9 x1 x0 xs0)
  C1 : ∀ (c : Dev nD) (t : Fin cfg1.N) (hc0 : ¬cond1_0 (grid1.coords t)) (hc1 : cond1_1 (grid1.coords t))
      (x0 : Vec Ideal S16x1x1024 .f32) (x1 : Vec Ideal S16x64x1024 .f32) (xs0 xs1 xs2 : Vec Ideal S16x1024 .f32),
      sout1_C_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2 = k1_pay12 x1 x0 xs0 xs1
  C2 : ∀ (c : Dev nD) (t : Fin cfg1.N) (hc0 : ¬cond1_0 (grid1.coords t)) (hc1 : cond1_1 (grid1.coords t))
      (x0 : Vec Ideal S16x1x1024 .f32) (x1 : Vec Ideal S16x64x1024 .f32) (xs0 xs1 xs2 : Vec Ideal S16x1024 .f32),
      sout1_C_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2 = k1_pay13 x1 x0 xs0 xs2
  Co2 : ∀ (c : Dev nD) (t : Fin cfg1.N) (hc0 : ¬cond1_0 (grid1.coords t)) (hc1 : cond1_1 (grid1.coords t))
      (x0 : Vec Ideal S16x1x1024 .f32) (x1 : Vec Ideal S16x64x1024 .f32) (xs0 xs1 xs2 : Vec Ideal S16x1024 .f32),
      out1_C_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2 = k1_pay2 (k1_pay12 x1 x0 xs0 xs1) (k1_pay13 x1 x0 xs0 xs2)
  Co3 : ∀ (c : Dev nD) (t : Fin cfg1.N) (hc0 : ¬cond1_0 (grid1.coords t)) (hc1 : cond1_1 (grid1.coords t))
      (x0 : Vec Ideal S16x1x1024 .f32) (x1 : Vec Ideal S16x64x1024 .f32) (xs0 xs1 xs2 : Vec Ideal S16x1024 .f32),
      out1_C_3 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2 = k1_pay3 (k1_pay12 x1 x0 xs0 xs1) (k1_pay1 (k1_pay9 x1 x0 xs0))

/-- The scores of column (b, u) along the sequence: the projection entry times the encoder entry. -/
abbrev xcol (P : ArrH) (a1 : ArrE) (b : Fin 32) (u : Fin 1024) : Fin 2048 → EReal := fun s => P (ix2 b u) * a1 (ix3 b s u)
/-- The encoder entries of column (b, u) along the sequence. -/
abbrev ecol (a1 : ArrE) (b : Fin 32) (u : Fin 1024) : Fin 2048 → EReal := fun s => a1 (ix3 b s u)

/-- The grid has 64 points. -/
theorem N1 : cfg1.N = 64 := rfl

/-- The state after n + 1 tiles is one step over the state after n. -/
theorem after_succ (x e : Fin 2048 → EReal) (n : ℕ) (h : n + 1 ≤ 32) :
    St.after x e (n + 1) h
      = St.step (fun j => x (pos ⟨n, h⟩ j)) (fun j => e (pos ⟨n, h⟩ j)) (St.after x e n (Nat.le_of_succ_le h)) := rfl

/-- The printed index maps over the grid: point t is tile t mod 32 of batch half t div 32. -/
theorem index_facts1 : ∀ t : Fin cfg1.N,
    win1_0.index t (0 : Fin 3) = t.val / 32 ∧ win1_0.index t (1 : Fin 3) = 0 ∧ win1_0.index t (2 : Fin 3) = 0
    ∧ win1_1.index t (0 : Fin 3) = t.val / 32 ∧ win1_1.index t (1 : Fin 3) = t.val % 32 ∧ win1_1.index t (2 : Fin 3) = 0
    ∧ win1_2.index t (0 : Fin 2) = t.val / 32 ∧ win1_2.index t (1 : Fin 2) = 0
    ∧ win1_3.index t (0 : Fin 2) = t.val / 32 ∧ win1_3.index t (1 : Fin 2) = 0 :=
  (by decide +kernel : ∀ t : Fin grid1.N, _)

section Blocks
variable (V : (c : Dev nD) → (b : Ref sig .tc) → Buf (Elt Ideal) ((c : Thread nD τ).loc b))
variable (c : Dev nD) (P : ArrH) (a1 : ArrE)

/-- The projection row read at point t: entry (r, 0, u) of window 0's block is p at row 16 · (t div 32) + r. -/
theorem blk1_P (hv1 : V c main_v1 = fun i : S32x1x1024.Idx => P (ix2 (i 0) (i 2))) (t : Fin cfg1.N)
    (r : Fin 16) (u : Fin 1024) (b : Fin 32) (hb : b.val = 16 * (t.val / 32) + r.val) :
    iblk1 (F := Ideal) V c 0 t (ix3 r (0 : Fin 1) u) = P (ix2 b u) := by
  obtain ⟨e0, e1, e2, -⟩ := index_facts1 t
  show V c main_v1 (((cfg1.win 0).blk t).view.emb (ix3 r (0 : Fin 1) u)) = _
  refine (congrFun hv1 _).trans (congrArg P ?_)
  funext a; apply Fin.ext
  match a with
  | ⟨0, _⟩ => show win1_0.index t (0 : Fin 3) * 16 + 1 * r.val = b.val; omega
  | ⟨1, _⟩ => show win1_0.index t (2 : Fin 3) * 1024 + 1 * u.val = u.val; omega

/-- The encoder tile read at point t: entry (r, j, u) of window 1's block is the encoder array at row
    16 · (t div 32) + r and sequence position 64 · (t mod 32) + j. -/
theorem blk1_E (he : V c main_arg1 = a1) (t : Fin cfg1.N) (r : Fin 16) (j : Fin 64) (u : Fin 1024)
    (b : Fin 32) (hb : b.val = 16 * (t.val / 32) + r.val) (s : Fin 2048) (hs : s.val = (t.val % 32) * 64 + j.val) :
    iblk1 (F := Ideal) V c 1 t (ix3 r j u) = a1 (ix3 b s u) := by
  obtain ⟨-, -, -, e3, e4, e5, -⟩ := index_facts1 t
  show V c main_arg1 (((cfg1.win 1).blk t).view.emb (ix3 r j u)) = _
  refine (congrFun he _).trans (congrArg a1 ?_)
  funext a; apply Fin.ext
  match a with
  | ⟨0, _⟩ => show win1_1.index t (0 : Fin 3) * 16 + 1 * r.val = b.val; omega
  | ⟨1, _⟩ => show win1_1.index t (1 : Fin 3) * 64 + 1 * j.val = s.val; omega
  | ⟨2, _⟩ => show win1_1.index t (2 : Fin 3) * 1024 + 1 * u.val = u.val; omega

/-- The projection rows' block at point t, at its literal type. -/
def bP (t : Fin cfg1.N) : Vec Ideal S16x1x1024 .f32 := iblk1 (F := Ideal) V c 0 t
/-- The encoder tile at point t, at its literal type. -/
def bE (t : Fin cfg1.N) : Vec Ideal S16x64x1024 .f32 := iblk1 (F := Ideal) V c 1 t

theorem bP_at (hv1 : V c main_v1 = fun i : S32x1x1024.Idx => P (ix2 (i 0) (i 2))) (t : Fin cfg1.N)
    (r : Fin 16) (u : Fin 1024) (b : Fin 32) (hb : b.val = 16 * (t.val / 32) + r.val) :
    bP V c t (ix3 r (0 : Fin 1) u) = P (ix2 b u) := blk1_P V c P hv1 t r u b hb

theorem bE_at (he : V c main_arg1 = a1) (t : Fin cfg1.N) (r : Fin 16) (j : Fin 64) (u : Fin 1024)
    (b : Fin 32) (hb : b.val = 16 * (t.val / 32) + r.val) (s : Fin 2048) (hs : s.val = (t.val % 32) * 64 + j.val) :
    bE V c t (ix3 r j u) = a1 (ix3 b s u) := blk1_E V c a1 he t r j u b hb s hs

/-- A tile's scores from what its two blocks hold in column (r, u). -/
theorem tileX_eq (x1 : Vec Ideal S16x64x1024 .f32) (x0 : Vec Ideal S16x1x1024 .f32) (r : Fin 16) (u : Fin 1024)
    (p : EReal) (f : Fin 64 → EReal) (h0 : x0 (ix3 r (0 : Fin 1) u) = p) (h1 : ∀ j, x1 (ix3 r j u) = f j) :
    tileX x1 x0 r u = fun j => p * f j := by
  funext j
  show x0 (ix3 r (0 : Fin 1) u) * x1 (ix3 r j u) = _
  rw [h0, h1]

/-- A tile's encoder entries from what its block holds in column (r, u). -/
theorem tileE_eq (x1 : Vec Ideal S16x64x1024 .f32) (r : Fin 16) (u : Fin 1024) (f : Fin 64 → EReal)
    (h1 : ∀ j, x1 (ix3 r j u) = f j) : tileE x1 r u = f := funext h1

/-- The tile's scores at point t are the column's scores at the tile's 64 positions. -/
theorem tile_X (hv1 : V c main_v1 = fun i : S32x1x1024.Idx => P (ix2 (i 0) (i 2))) (he : V c main_arg1 = a1)
    (t : Fin cfg1.N) (r : Fin 16) (u : Fin 1024) (b : Fin 32) (hb : b.val = 16 * (t.val / 32) + r.val)
    (k : Fin 32) (hk : k.val = t.val % 32) :
    tileX (bE V c t) (bP V c t) r u = fun j => xcol P a1 b u (pos k j) :=
  tileX_eq (bE V c t) (bP V c t) r u (P (ix2 b u)) (fun j => a1 (ix3 b (pos k j) u)) (bP_at V c P hv1 t r u b hb)
    (fun j => bE_at V c a1 he t r j u b hb (pos k j) (by show k.val * 64 + j.val = _; rw [hk]))

/-- The tile's encoder entries at point t are the column's at the tile's 64 positions. -/
theorem tile_E (he : V c main_arg1 = a1)
    (t : Fin cfg1.N) (r : Fin 16) (u : Fin 1024) (b : Fin 32) (hb : b.val = 16 * (t.val / 32) + r.val)
    (k : Fin 32) (hk : k.val = t.val % 32) :
    tileE (bE V c t) r u = fun j => ecol a1 b u (pos k j) :=
  tileE_eq (bE V c t) r u (fun j => a1 (ix3 b (pos k j) u))
    (fun j => bE_at V c a1 he t r j u b hb (pos k j) (by show k.val * 64 + j.val = _; rw [hk]))

end Blocks

/-! ## The running state after each point -/

/-- The five values a point leaves, component by component. -/
theorem proj5 {α : Type} {p : α × α × α × α × α} {o2 o3 s0 s1 s2 : α} (h : p = (o2, o3, s0, s1, s2)) :
    p.1 = o2 ∧ p.2.1 = o3 ∧ p.2.2.1 = s0 ∧ p.2.2.2.1 = s1 ∧ p.2.2.2.2 = s2 := by
  subst h
  exact ⟨rfl, rfl, rfl, rfl, rfl⟩

section Invariant
variable (V : (c : Dev nD) → (b : Ref sig .tc) → Buf (Elt Ideal) ((c : Thread nD τ).loc b))
variable (c : Dev nD) (P : ArrH) (a1 : ArrE)

/-- One tile, from the payload forms of what it stores. -/
theorem tile_step (x1 : Vec Ideal S16x64x1024 .f32) (x0 : Vec Ideal S16x1x1024 .f32) (m l a s0 s1 s2 : Vec Ideal S16x1024 .f32)
    (h0 : s0 = k1_pay1 (k1_pay9 x1 x0 m)) (h1 : s1 = k1_pay12 x1 x0 m l) (h2 : s2 = k1_pay13 x1 x0 m a)
    (r : Fin 16) (u : Fin 1024) :
    (⟨s0 (ix2 r u), s1 (ix2 r u), s2 (ix2 r u)⟩ : St)
      = St.step (tileX x1 x0 r u) (tileE x1 r u) ⟨m (ix2 r u), l (ix2 r u), a (ix2 r u)⟩ := by
  subst h0 h1 h2
  exact pay1_step x1 x0 m l a r u

set_option maxHeartbeats 1000000 in
/-- A first tile of a batch half leaves the state after one tile of the column. -/
theorem stepA (hp : Pieces) (hv1 : V c main_v1 = fun i : S32x1x1024.Idx => P (ix2 (i 0) (i 2))) (he : V c main_arg1 = a1)
    (t : Fin cfg1.N) (h0 : t.val % 32 = 0) (r : Fin 16) (u : Fin 1024) (b : Fin 32) (hb : b.val = 16 * (t.val / 32) + r.val) :
    (⟨sc0 (F := Ideal) V c t.val t.isLt (ix2 r u), sc1 (F := Ideal) V c t.val t.isLt (ix2 r u),
        sc2 (F := Ideal) V c t.val t.isLt (ix2 r u)⟩ : St)
      = St.after (xcol P a1 b u) (ecol a1 b u) (0 + 1) (by decide) := by
  have hc0 : cond1_0 (grid1.coords t) := (hcond1_0 t).mpr h0
  have hc1 : ¬cond1_1 (grid1.coords t) := fun h => by have := (hcond1_1 t).mp h; omega
  obtain ⟨-, -, q0, q1, q2⟩ := proj5 (outsAt1_A (F := Ideal) V c t hc0 hc1)
  have e0 : sc0 (F := Ideal) V c t.val t.isLt = k1_pay1 (k1_pay9 (bE V c t) (bP V c t) (k1_pay4 (F := Ideal))) :=
    q0.trans (hp.A0 c t hc0 hc1 (bP V c t) (bE V c t))
  have e1 : sc1 (F := Ideal) V c t.val t.isLt = k1_pay12 (bE V c t) (bP V c t) (k1_pay4 (F := Ideal)) (k1_pay5 (F := Ideal)) :=
    q1.trans (hp.A1 c t hc0 hc1 (bP V c t) (bE V c t))
  have e2 : sc2 (F := Ideal) V c t.val t.isLt = k1_pay13 (bE V c t) (bP V c t) (k1_pay4 (F := Ideal)) (k1_pay6 (F := Ideal)) :=
    q2.trans (hp.A2 c t hc0 hc1 (bP V c t) (bE V c t))
  refine (tile_step (bE V c t) (bP V c t) (k1_pay4 (F := Ideal)) (k1_pay5 (F := Ideal)) (k1_pay6 (F := Ideal)) _ _ _ e0 e1 e2 r u).trans ?_
  rw [tile_X V c P a1 hv1 he t r u b hb ⟨0, by decide⟩ h0.symm, tile_E V c a1 he t r u b hb ⟨0, by decide⟩ h0.symm,
    pay1_init_m, pay1_init_l, pay1_init_a]
  rfl

set_option maxHeartbeats 1000000 in
/-- A later tile of a batch half takes the state after k + 1 tiles to the state after k + 2. -/
theorem stepBC (hp : Pieces) (hv1 : V c main_v1 = fun i : S32x1x1024.Idx => P (ix2 (i 0) (i 2))) (he : V c main_arg1 = a1)
    (t : Fin cfg1.N) (r : Fin 16) (u : Fin 1024) (b : Fin 32) (hb : b.val = 16 * (t.val / 32) + r.val)
    (k : ℕ) (hk : k + 1 < 32) (hnk : t.val % 32 = k + 1)
    (ih : (⟨(sc0 (F := Ideal) V c (t.val - 1) (prev_lt t)) (ix2 r u), (sc1 (F := Ideal) V c (t.val - 1) (prev_lt t)) (ix2 r u), (sc2 (F := Ideal) V c (t.val - 1) (prev_lt t)) (ix2 r u)⟩ : St)
      = St.after (xcol P a1 b u) (ecol a1 b u) (k + 1) (Nat.lt_of_succ_lt hk)) :
    (⟨sc0 (F := Ideal) V c t.val t.isLt (ix2 r u), sc1 (F := Ideal) V c t.val t.isLt (ix2 r u),
        sc2 (F := Ideal) V c t.val t.isLt (ix2 r u)⟩ : St)
      = St.after (xcol P a1 b u) (ecol a1 b u) (k + 1 + 1) hk := by
  have hc0 : ¬cond1_0 (grid1.coords t) := fun h => by have := (hcond1_0 t).mp h; omega
  by_cases h31 : t.val % 32 = 31
  · have hc1 : cond1_1 (grid1.coords t) := (hcond1_1 t).mpr h31
    obtain ⟨-, -, q0, q1, q2⟩ := proj5 (outsAt1_C (F := Ideal) V c t hc0 hc1)
    have e0 : sc0 (F := Ideal) V c t.val t.isLt = k1_pay1 (k1_pay9 (bE V c t) (bP V c t) (sc0 (F := Ideal) V c (t.val - 1) (prev_lt t))) :=
      q0.trans (hp.C0 c t hc0 hc1 (bP V c t) (bE V c t) (sc0 (F := Ideal) V c (t.val - 1) (prev_lt t)) (sc1 (F := Ideal) V c (t.val - 1) (prev_lt t)) (sc2 (F := Ideal) V c (t.val - 1) (prev_lt t)))
    have e1 : sc1 (F := Ideal) V c t.val t.isLt = k1_pay12 (bE V c t) (bP V c t) (sc0 (F := Ideal) V c (t.val - 1) (prev_lt t)) (sc1 (F := Ideal) V c (t.val - 1) (prev_lt t)) :=
      q1.trans (hp.C1 c t hc0 hc1 (bP V c t) (bE V c t) (sc0 (F := Ideal) V c (t.val - 1) (prev_lt t)) (sc1 (F := Ideal) V c (t.val - 1) (prev_lt t)) (sc2 (F := Ideal) V c (t.val - 1) (prev_lt t)))
    have e2 : sc2 (F := Ideal) V c t.val t.isLt = k1_pay13 (bE V c t) (bP V c t) (sc0 (F := Ideal) V c (t.val - 1) (prev_lt t)) (sc2 (F := Ideal) V c (t.val - 1) (prev_lt t)) :=
      q2.trans (hp.C2 c t hc0 hc1 (bP V c t) (bE V c t) (sc0 (F := Ideal) V c (t.val - 1) (prev_lt t)) (sc1 (F := Ideal) V c (t.val - 1) (prev_lt t)) (sc2 (F := Ideal) V c (t.val - 1) (prev_lt t)))
    refine (tile_step (bE V c t) (bP V c t) (sc0 (F := Ideal) V c (t.val - 1) (prev_lt t)) (sc1 (F := Ideal) V c (t.val - 1) (prev_lt t)) (sc2 (F := Ideal) V c (t.val - 1) (prev_lt t)) _ _ _ e0 e1 e2 r u).trans ?_
    rw [tile_X V c P a1 hv1 he t r u b hb ⟨k + 1, hk⟩ hnk.symm, tile_E V c a1 he t r u b hb ⟨k + 1, hk⟩ hnk.symm, ih]
    rfl
  · have hc1 : ¬cond1_1 (grid1.coords t) := fun h => h31 ((hcond1_1 t).mp h)
    obtain ⟨-, -, q0, q1, q2⟩ := proj5 (outsAt1_B (F := Ideal) V c t hc0 hc1)
    have e0 : sc0 (F := Ideal) V c t.val t.isLt = k1_pay1 (k1_pay9 (bE V c t) (bP V c t) (sc0 (F := Ideal) V c (t.val - 1) (prev_lt t))) :=
      q0.trans (hp.B0 c t hc0 hc1 (bP V c t) (bE V c t) (sc0 (F := Ideal) V c (t.val - 1) (prev_lt t)) (sc1 (F := Ideal) V c (t.val - 1) (prev_lt t)) (sc2 (F := Ideal) V c (t.val - 1) (prev_lt t)))
    have e1 : sc1 (F := Ideal) V c t.val t.isLt = k1_pay12 (bE V c t) (bP V c t) (sc0 (F := Ideal) V c (t.val - 1) (prev_lt t)) (sc1 (F := Ideal) V c (t.val - 1) (prev_lt t)) :=
      q1.trans (hp.B1 c t hc0 hc1 (bP V c t) (bE V c t) (sc0 (F := Ideal) V c (t.val - 1) (prev_lt t)) (sc1 (F := Ideal) V c (t.val - 1) (prev_lt t)) (sc2 (F := Ideal) V c (t.val - 1) (prev_lt t)))
    have e2 : sc2 (F := Ideal) V c t.val t.isLt = k1_pay13 (bE V c t) (bP V c t) (sc0 (F := Ideal) V c (t.val - 1) (prev_lt t)) (sc2 (F := Ideal) V c (t.val - 1) (prev_lt t)) :=
      q2.trans (hp.B2 c t hc0 hc1 (bP V c t) (bE V c t) (sc0 (F := Ideal) V c (t.val - 1) (prev_lt t)) (sc1 (F := Ideal) V c (t.val - 1) (prev_lt t)) (sc2 (F := Ideal) V c (t.val - 1) (prev_lt t)))
    refine (tile_step (bE V c t) (bP V c t) (sc0 (F := Ideal) V c (t.val - 1) (prev_lt t)) (sc1 (F := Ideal) V c (t.val - 1) (prev_lt t)) (sc2 (F := Ideal) V c (t.val - 1) (prev_lt t)) _ _ _ e0 e1 e2 r u).trans ?_
    rw [tile_X V c P a1 hv1 he t r u b hb ⟨k + 1, hk⟩ hnk.symm, tile_E V c a1 he t r u b hb ⟨k + 1, hk⟩ hnk.symm, ih]
    rfl

/-- After point n, tile k = n mod 32 of its batch half, the three running values at (r, u) are the state after k + 1
    tiles of the column of row 16 · (n div 32) + r. -/
theorem inv (hp : Pieces) (hv1 : V c main_v1 = fun i : S32x1x1024.Idx => P (ix2 (i 0) (i 2))) (he : V c main_arg1 = a1) :
    ∀ (n : ℕ) (hn : n < cfg1.N) (r : Fin 16) (u : Fin 1024) (b : Fin 32) (hb : b.val = 16 * (n / 32) + r.val)
      (k : ℕ) (hk : k < 32) (hnk : n % 32 = k),
      (⟨sc0 (F := Ideal) V c n hn (ix2 r u), sc1 (F := Ideal) V c n hn (ix2 r u), sc2 (F := Ideal) V c n hn (ix2 r u)⟩ : St)
        = St.after (xcol P a1 b u) (ecol a1 b u) (k + 1) hk := by
  intro n
  induction n with
  | zero =>
    intro hn r u b hb k hk hnk
    have hk0 : k = 0 := by omega
    subst hk0
    exact stepA V c P a1 hp hv1 he ⟨0, hn⟩ rfl r u b hb
  | succ n ih =>
    intro hn r u b hb k hk hnk
    have hN := N1
    by_cases h0 : (n + 1) % 32 = 0
    · have hk0 : k = 0 := by omega
      subst hk0
      exact stepA V c P a1 hp hv1 he ⟨n + 1, hn⟩ h0 r u b hb
    · obtain ⟨k', rfl⟩ : ∃ k', k = k' + 1 := ⟨k - 1, by omega⟩
      have ih' := ih (by omega) r u b (by omega) k' (by omega) (by omega)
      exact stepBC V c P a1 hp hv1 he ⟨n + 1, hn⟩ r u b hb k' hk hnk ih'

end Invariant

/-! ## The two results -/

/-- The context array: the tiled pass's context entry of every column. -/
abbrev G1ctx (P : ArrH) (a1 : ArrE) : S32x1024.Idx → EReal := fun i => kCtx (xcol P a1 (i 0) (i 1)) (ecol a1 (i 0) (i 1))
/-- The coefficient array: the tiled pass's coefficient of every column. -/
abbrev G1coef (P : ArrH) (a1 : ArrE) : S32x1024.Idx → EReal := fun i => kCoef (xcol P a1 (i 0) (i 1)) (ecol a1 (i 0) (i 1))

section Final
variable (V : (c : Dev nD) → (b : Ref sig .tc) → Buf (Elt Ideal) ((c : Thread nD τ).loc b))
variable (c : Dev nD) (P : ArrH) (a1 : ArrE)

set_option maxHeartbeats 1000000 in
/-- What the last tile of a batch half stores at (r, u): the tiled pass's context entry and coefficient of the column
    of row 16 · (t div 32) + r. -/
theorem out_at (hp : Pieces) (hv1 : V c main_v1 = fun i : S32x1x1024.Idx => P (ix2 (i 0) (i 2))) (he : V c main_arg1 = a1)
    (t : Fin cfg1.N) (h31 : t.val % 32 = 31) (r : Fin 16) (u : Fin 1024) (b : Fin 32) (hb : b.val = 16 * (t.val / 32) + r.val) :
    (outsAt1 (F := Ideal) V c t.val t.isLt).1 (ix2 r u) = kCtx (xcol P a1 b u) (ecol a1 b u)
      ∧ (outsAt1 (F := Ideal) V c t.val t.isLt).2.1 (ix2 r u) = kCoef (xcol P a1 b u) (ecol a1 b u) := by
  have hc0 : ¬cond1_0 (grid1.coords t) := fun h => by have := (hcond1_0 t).mp h; omega
  have hc1 : cond1_1 (grid1.coords t) := (hcond1_1 t).mpr h31
  have hI := inv V c P a1 hp hv1 he t.val t.isLt r u b hb 31 (by decide) h31
  obtain ⟨p2, p3, q0, q1, q2⟩ := proj5 (outsAt1_C (F := Ideal) V c t hc0 hc1)
  have e0 : sc0 (F := Ideal) V c t.val t.isLt = k1_pay1 (k1_pay9 (bE V c t) (bP V c t) (sc0 (F := Ideal) V c (t.val - 1) (prev_lt t))) :=
    q0.trans (hp.C0 c t hc0 hc1 (bP V c t) (bE V c t) (sc0 (F := Ideal) V c (t.val - 1) (prev_lt t)) (sc1 (F := Ideal) V c (t.val - 1) (prev_lt t)) (sc2 (F := Ideal) V c (t.val - 1) (prev_lt t)))
  have e1 : sc1 (F := Ideal) V c t.val t.isLt = k1_pay12 (bE V c t) (bP V c t) (sc0 (F := Ideal) V c (t.val - 1) (prev_lt t)) (sc1 (F := Ideal) V c (t.val - 1) (prev_lt t)) :=
    q1.trans (hp.C1 c t hc0 hc1 (bP V c t) (bE V c t) (sc0 (F := Ideal) V c (t.val - 1) (prev_lt t)) (sc1 (F := Ideal) V c (t.val - 1) (prev_lt t)) (sc2 (F := Ideal) V c (t.val - 1) (prev_lt t)))
  have e2 : sc2 (F := Ideal) V c t.val t.isLt = k1_pay13 (bE V c t) (bP V c t) (sc0 (F := Ideal) V c (t.val - 1) (prev_lt t)) (sc2 (F := Ideal) V c (t.val - 1) (prev_lt t)) :=
    q2.trans (hp.C2 c t hc0 hc1 (bP V c t) (bE V c t) (sc0 (F := Ideal) V c (t.val - 1) (prev_lt t)) (sc1 (F := Ideal) V c (t.val - 1) (prev_lt t)) (sc2 (F := Ideal) V c (t.val - 1) (prev_lt t)))
  have o2 : (outsAt1 (F := Ideal) V c t.val t.isLt).1
      = k1_pay2 (k1_pay12 (bE V c t) (bP V c t) (sc0 (F := Ideal) V c (t.val - 1) (prev_lt t)) (sc1 (F := Ideal) V c (t.val - 1) (prev_lt t))) (k1_pay13 (bE V c t) (bP V c t) (sc0 (F := Ideal) V c (t.val - 1) (prev_lt t)) (sc2 (F := Ideal) V c (t.val - 1) (prev_lt t))) :=
    p2.trans (hp.Co2 c t hc0 hc1 (bP V c t) (bE V c t) (sc0 (F := Ideal) V c (t.val - 1) (prev_lt t)) (sc1 (F := Ideal) V c (t.val - 1) (prev_lt t)) (sc2 (F := Ideal) V c (t.val - 1) (prev_lt t)))
  have o3 : (outsAt1 (F := Ideal) V c t.val t.isLt).2.1
      = k1_pay3 (k1_pay12 (bE V c t) (bP V c t) (sc0 (F := Ideal) V c (t.val - 1) (prev_lt t)) (sc1 (F := Ideal) V c (t.val - 1) (prev_lt t))) (k1_pay1 (k1_pay9 (bE V c t) (bP V c t) (sc0 (F := Ideal) V c (t.val - 1) (prev_lt t)))) :=
    p3.trans (hp.Co3 c t hc0 hc1 (bP V c t) (bE V c t) (sc0 (F := Ideal) V c (t.val - 1) (prev_lt t)) (sc1 (F := Ideal) V c (t.val - 1) (prev_lt t)) (sc2 (F := Ideal) V c (t.val - 1) (prev_lt t)))
  have hIm := congrArg St.m hI
  have hIl := congrArg St.l hI
  have hIa := congrArg St.a hI
  have hm : k1_pay1 (k1_pay9 (bE V c t) (bP V c t) (sc0 (F := Ideal) V c (t.val - 1) (prev_lt t))) (ix2 r u) = (St.after (xcol P a1 b u) (ecol a1 b u) 32 le_rfl).m :=
    (congrFun e0.symm (ix2 r u)).trans hIm
  have hl : k1_pay12 (bE V c t) (bP V c t) (sc0 (F := Ideal) V c (t.val - 1) (prev_lt t)) (sc1 (F := Ideal) V c (t.val - 1) (prev_lt t)) (ix2 r u) = (St.after (xcol P a1 b u) (ecol a1 b u) 32 le_rfl).l :=
    (congrFun e1.symm (ix2 r u)).trans hIl
  have ha : k1_pay13 (bE V c t) (bP V c t) (sc0 (F := Ideal) V c (t.val - 1) (prev_lt t)) (sc2 (F := Ideal) V c (t.val - 1) (prev_lt t)) (ix2 r u) = (St.after (xcol P a1 b u) (ecol a1 b u) 32 le_rfl).a :=
    (congrFun e2.symm (ix2 r u)).trans hIa
  constructor
  · exact (congrFun o2 (ix2 r u)).trans ((pay1_ctx (k1_pay12 (bE V c t) (bP V c t) (sc0 (F := Ideal) V c (t.val - 1) (prev_lt t)) (sc1 (F := Ideal) V c (t.val - 1) (prev_lt t))) (k1_pay13 (bE V c t) (bP V c t) (sc0 (F := Ideal) V c (t.val - 1) (prev_lt t)) (sc2 (F := Ideal) V c (t.val - 1) (prev_lt t))) r u).trans
      (congrArg₂ (fun aa ll : EReal => Ideal.div aa ll) ha hl))
  · exact (congrFun o3 (ix2 r u)).trans ((pay1_coef (k1_pay12 (bE V c t) (bP V c t) (sc0 (F := Ideal) V c (t.val - 1) (prev_lt t)) (sc1 (F := Ideal) V c (t.val - 1) (prev_lt t))) (k1_pay1 (k1_pay9 (bE V c t) (bP V c t) (sc0 (F := Ideal) V c (t.val - 1) (prev_lt t)))) r u).trans
      (congrArg₂ (fun mm ll : EReal => Ideal.div (Ideal.exp (0 - mm)) ll) hm hl))

set_option maxHeartbeats 1000000 in
/-- What a batch half's last point writes back into result one is its block of the context array. -/
theorem flushed1_2_eq (hp : Pieces) (hv1 : V c main_v1 = fun i : S32x1x1024.Idx => P (ix2 (i 0) (i 2))) (he : V c main_arg1 = a1)
    (t : Fin cfg1.N) (hf : (cfg1.win 2).flush t = true) :
    (dat1 (F := Ideal) V c).flushed 2 t = ((cfg1.win 2).blk t).view.read (Elt Ideal) (G1ctx P a1) := by
  have h31 := (flush1_2 t).mp hf
  have hN := N1
  have htl := t.isLt
  obtain ⟨-, -, -, -, -, -, e6, e7, e8, e9⟩ := index_facts1 t
  show (cfg1.win 2).cut (grid1.coords t) ((dat1 (F := Ideal) V c).after 2 t) = _
  rw [after1_2]
  refine funext fun (j : S16x1024.Idx) => ?_
  obtain ⟨r, u, rfl⟩ : ∃ (r : Fin 16) (u : Fin 1024), j = ix2 r u := ⟨j 0, j 1, eq_ix2 j⟩
  have hidx : ((cfg1.win 2).blk t).view.emb (ix2 r u)
      = ix2 (⟨16 * (t.val / 32) + r.val, by have := r.isLt; omega⟩ : Fin 32) u := by
    funext a; apply Fin.ext
    match a with
    | ⟨0, _⟩ => show win1_2.index t (0 : Fin 2) * 16 + 1 * r.val = 16 * (t.val / 32) + r.val; omega
    | ⟨1, _⟩ => show win1_2.index t (1 : Fin 2) * 1024 + 1 * u.val = u.val; omega
  show (outsAt1 (F := Ideal) V c t.val t.isLt).1 (ix2 r u) = G1ctx P a1 (((cfg1.win 2).blk t).view.emb (ix2 r u))
  rw [hidx]
  exact (out_at V c P a1 hp hv1 he t h31 r u _ rfl).1

/-- An entry of result one is in point t's block iff each coordinate is in the block's range on its axis. -/
theorem mem_blk1_2 (t : Fin cfg1.N) (i : S32x1024.Idx) :
    i ∈ ((cfg1.win 2).blk t).view.set ↔ ∀ a : Fin 2, win1_2.index t a * S16x1024.size a ≤ (i a).val
      ∧ (i a).val < win1_2.index t a * S16x1024.size a + S16x1024.size a := by
  show i ∈ ((View.whole main_v2_0).slice (win1_2.rect t)).set ↔ _
  rw [View.set_slice_whole, Rect.mem_set_unit]
  exact Iff.rfl

/-- Every entry (b, u) is in the block written back by the last point of its batch half. -/
theorem cover1_2 (i : S32x1024.Idx) :
    ∃ t : Fin cfg1.N, (cfg1.win 2).flush t = true ∧ i ∈ ((cfg1.win 2).blk t).view.set := by
  have hi0 : (i 0).val < 32 := (i 0).isLt
  have hi1 : (i 1).val < 1024 := (i 1).isLt
  have hN := N1
  have hlt : 32 * ((i 0).val / 16) + 31 < cfg1.N := by omega
  obtain ⟨-, -, -, -, -, -, e6, e7, e8, e9⟩ := index_facts1 ⟨32 * ((i 0).val / 16) + 31, hlt⟩
  have hv : (⟨32 * ((i 0).val / 16) + 31, hlt⟩ : Fin cfg1.N).val = 32 * ((i 0).val / 16) + 31 := rfl
  rw [hv] at e6 e8
  refine ⟨⟨32 * ((i 0).val / 16) + 31, hlt⟩, (flush1_2 _).mpr (by show (32 * ((i 0).val / 16) + 31) % 32 = 31; omega), ?_⟩
  rw [mem_blk1_2]
  intro a
  match a with
  | ⟨0, _⟩ =>
    show win1_2.index ⟨32 * ((i 0).val / 16) + 31, hlt⟩ (0 : Fin 2) * 16 ≤ (i 0).val
      ∧ (i 0).val < win1_2.index ⟨32 * ((i 0).val / 16) + 31, hlt⟩ (0 : Fin 2) * 16 + 16
    omega
  | ⟨1, _⟩ =>
    show win1_2.index ⟨32 * ((i 0).val / 16) + 31, hlt⟩ (1 : Fin 2) * 1024 ≤ (i 1).val
      ∧ (i 1).val < win1_2.index ⟨32 * ((i 0).val / 16) + 31, hlt⟩ (1 : Fin 2) * 1024 + 1024
    omega

set_option maxHeartbeats 1000000 in
/-- What a batch half's last point writes back into result two is its block of the coefficient array. -/
theorem flushed1_3_eq (hp : Pieces) (hv1 : V c main_v1 = fun i : S32x1x1024.Idx => P (ix2 (i 0) (i 2))) (he : V c main_arg1 = a1)
    (t : Fin cfg1.N) (hf : (cfg1.win 3).flush t = true) :
    (dat1 (F := Ideal) V c).flushed 3 t = ((cfg1.win 3).blk t).view.read (Elt Ideal) (G1coef P a1) := by
  have h31 := (flush1_3 t).mp hf
  have hN := N1
  have htl := t.isLt
  obtain ⟨-, -, -, -, -, -, e6, e7, e8, e9⟩ := index_facts1 t
  show (cfg1.win 3).cut (grid1.coords t) ((dat1 (F := Ideal) V c).after 3 t) = _
  rw [after1_3]
  refine funext fun (j : S16x1024.Idx) => ?_
  obtain ⟨r, u, rfl⟩ : ∃ (r : Fin 16) (u : Fin 1024), j = ix2 r u := ⟨j 0, j 1, eq_ix2 j⟩
  have hidx : ((cfg1.win 3).blk t).view.emb (ix2 r u)
      = ix2 (⟨16 * (t.val / 32) + r.val, by have := r.isLt; omega⟩ : Fin 32) u := by
    funext a; apply Fin.ext
    match a with
    | ⟨0, _⟩ => show win1_3.index t (0 : Fin 2) * 16 + 1 * r.val = 16 * (t.val / 32) + r.val; omega
    | ⟨1, _⟩ => show win1_3.index t (1 : Fin 2) * 1024 + 1 * u.val = u.val; omega
  show (outsAt1 (F := Ideal) V c t.val t.isLt).2.1 (ix2 r u) = G1coef P a1 (((cfg1.win 3).blk t).view.emb (ix2 r u))
  rw [hidx]
  exact (out_at V c P a1 hp hv1 he t h31 r u _ rfl).2

/-- An entry of result two is in point t's block iff each coordinate is in the block's range on its axis. -/
theorem mem_blk1_3 (t : Fin cfg1.N) (i : S32x1024.Idx) :
    i ∈ ((cfg1.win 3).blk t).view.set ↔ ∀ a : Fin 2, win1_3.index t a * S16x1024.size a ≤ (i a).val
      ∧ (i a).val < win1_3.index t a * S16x1024.size a + S16x1024.size a := by
  show i ∈ ((View.whole main_v2_1).slice (win1_3.rect t)).set ↔ _
  rw [View.set_slice_whole, Rect.mem_set_unit]
  exact Iff.rfl

/-- Every entry (b, u) is in the block written back by the last point of its batch half. -/
theorem cover1_3 (i : S32x1024.Idx) :
    ∃ t : Fin cfg1.N, (cfg1.win 3).flush t = true ∧ i ∈ ((cfg1.win 3).blk t).view.set := by
  have hi0 : (i 0).val < 32 := (i 0).isLt
  have hi1 : (i 1).val < 1024 := (i 1).isLt
  have hN := N1
  have hlt : 32 * ((i 0).val / 16) + 31 < cfg1.N := by omega
  obtain ⟨-, -, -, -, -, -, e6, e7, e8, e9⟩ := index_facts1 ⟨32 * ((i 0).val / 16) + 31, hlt⟩
  have hv : (⟨32 * ((i 0).val / 16) + 31, hlt⟩ : Fin cfg1.N).val = 32 * ((i 0).val / 16) + 31 := rfl
  rw [hv] at e6 e8
  refine ⟨⟨32 * ((i 0).val / 16) + 31, hlt⟩, (flush1_3 _).mpr (by show (32 * ((i 0).val / 16) + 31) % 32 = 31; omega), ?_⟩
  rw [mem_blk1_3]
  intro a
  match a with
  | ⟨0, _⟩ =>
    show win1_3.index ⟨32 * ((i 0).val / 16) + 31, hlt⟩ (0 : Fin 2) * 16 ≤ (i 0).val
      ∧ (i 0).val < win1_3.index ⟨32 * ((i 0).val / 16) + 31, hlt⟩ (0 : Fin 2) * 16 + 16
    omega
  | ⟨1, _⟩ =>
    show win1_3.index ⟨32 * ((i 0).val / 16) + 31, hlt⟩ (1 : Fin 2) * 1024 ≤ (i 1).val
      ∧ (i 1).val < win1_3.index ⟨32 * ((i 0).val / 16) + 31, hlt⟩ (1 : Fin 2) * 1024 + 1024
    omega

/-- After region 1 the two result arrays hold the tiled pass's context entry and coefficient of every column, for the
    projection and the encoder array the region finds. -/
theorem final1_of (hp : Pieces) (hv1 : V c main_v1 = fun i : S32x1x1024.Idx => P (ix2 (i 0) (i 2))) (he : V c main_arg1 = a1) :
    (dat1 (F := Ideal) V c).arrAt 2 cfg1.N
        = (fun i : S32x1024.Idx => kCtx (fun s => P (ix2 (i 0) (i 1)) * a1 (ix3 (i 0) s (i 1))) (fun s => a1 (ix3 (i 0) s (i 1))))
      ∧ (dat1 (F := Ideal) V c).arrAt 3 cfg1.N
        = (fun i : S32x1024.Idx => kCoef (fun s => P (ix2 (i 0) (i 1)) * a1 (ix3 (i 0) s (i 1))) (fun s => a1 (ix3 (i 0) s (i 1)))) :=
  ⟨(dat1 (F := Ideal) V c).arrAt_eq_of_cover 2 (G1ctx P a1) (fun t hf => flushed1_2_eq V c P a1 hp hv1 he t hf) cover1_2,
   (dat1 (F := Ideal) V c).arrAt_eq_of_cover 3 (G1coef P a1) (fun t hf => flushed1_3_eq V c P a1 hp hv1 he t hf) cover1_3⟩

end Final

/-- What the runs found each kind of tile to leave is the kernel's arithmetic. -/
theorem pieces : Pieces where
  A0 := fun c t hc0 hc1 x0 x1 => piece_A_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1
  A1 := fun c t hc0 hc1 x0 x1 => piece_A_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1
  A2 := fun c t hc0 hc1 x0 x1 => piece_A_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1
  B0 := fun c t hc0 hc1 x0 x1 xs0 xs1 xs2 => piece_B_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2
  B1 := fun c t hc0 hc1 x0 x1 xs0 xs1 xs2 => piece_B_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2
  B2 := fun c t hc0 hc1 x0 x1 xs0 xs1 xs2 => piece_B_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2
  C0 := fun c t hc0 hc1 x0 x1 xs0 xs1 xs2 => piece_C_0 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2
  C1 := fun c t hc0 hc1 x0 x1 xs0 xs1 xs2 => piece_C_1 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2
  C2 := fun c t hc0 hc1 x0 x1 xs0 xs1 xs2 => piece_C_2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2
  Co2 := fun c t hc0 hc1 x0 x1 xs0 xs1 xs2 => piece_C_out2 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2
  Co3 := fun c t hc0 hc1 x0 x1 xs0 xs1 xs2 => piece_C_out3 (F := Ideal) c (grid1.coords t) (ms1_0 t) (hs1_0 t) (ms1_1 t) (hs1_1 t) (ms1_2 t) (hs1_2 t) (ms1_3 t) (hs1_3 t) scM1_0 (Memref.isWhole_whole _) scM1_1 (Memref.isWhole_whole _) scM1_2 (Memref.isWhole_whole _) hc0 hc1 x0 x1 xs0 xs1 xs2

/-- After region 1 the two result arrays hold the tiled pass's context entry and coefficient of every column. -/
theorem final1 (V : (c : Dev nD) → (b : Ref sig .tc) → Buf (Elt Ideal) ((c : Thread nD τ).loc b)) (c : Dev nD) (P : ArrH) (a1 : ArrE)
    (hv1 : V c main_v1 = fun i : S32x1x1024.Idx => P (ix2 (i 0) (i 2))) (he : V c main_arg1 = a1) :
    (dat1 (F := Ideal) V c).arrAt 2 cfg1.N
        = (fun i : S32x1024.Idx => kCtx (fun s => P (ix2 (i 0) (i 1)) * a1 (ix3 (i 0) s (i 1))) (fun s => a1 (ix3 (i 0) s (i 1))))
      ∧ (dat1 (F := Ideal) V c).arrAt 3 cfg1.N
        = (fun i : S32x1024.Idx => kCoef (fun s => P (ix2 (i 0) (i 1)) * a1 (ix3 (i 0) s (i 1))) (fun s => a1 (ix3 (i 0) s (i 1)))) :=
  final1_of V c P a1 pieces hv1 he

end Cert.KernelIdeal.Val

end
-- ==== Proof.RefValue.lean ====
/-
  The reference program read index by index. Each stage of its @main, at the coordinates (b, u) of a batch row and a
  feature or (b, s, u) with a sequence position between them, is the corresponding quantity of the specification:
  the dense projection p = Σ_k h(b,k) · w(k,u) + bias(u); the score x s = p · e(b,s,u); the maximum M of the scores over
  the sequence (joined once more with -∞); the unnormalised weight exp (x s - M); the denominator Σ_s exp (x s - M);
  the weight, their quotient; and the context entry Σ_s weight s · e(b,s,u). The two results of the run are therefore
  the specification's two arrays.
-/
import proofs.«155699_j19834158973688_2_alg».proof.Proof.Gen.ReferenceIdeal.Read
import proofs.«155699_j19834158973688_2_alg».proof.Proof.Spec
import Idealize.ShloMosaic.Lib.ValueIdx
import Idealize.ShloMosaic.PureOps.Ideal.Laws

noncomputable section

open scoped BigOperators

namespace Cert.ReferenceIdeal.RefValue

open Cert.ReferenceIdeal Cert.ReferenceIdeal.Gen Cert.ReferenceIdeal.Read Idealize.ShloMosaic Idealize.ShloMosaic.TcCoe
  Idealize.SL.Sem Idealize.ShloMosaic.StableHlo Idealize.ShloMosaic.ValueIdx Cert.Attn

/-- The word 0xFF800000 denotes -∞. -/
theorem ofBits_negInf : Ideal.ofBits .f32 0xFF800000#32 = (⊥ : EReal) := by simp [Ideal.ofBits, Ideal.ieee]

variable (x0 : FVec Ideal S32x1024 .f32) (x1 : FVec Ideal S32x2048x1024 .f32) (x2 : FVec Ideal S1024x1024 .f32)
  (x3 : FVec Ideal S1024 .f32)

/-- The projection stage at (b, u): row b of the first argument against column u of the third, plus the bias at u. -/
theorem proj_at (b : Fin 32) (u : Fin 1024) :
    val_main_v3 (F := Ideal) x0 x2 x3 (ix2 b u) = projA x0 x2 x3 b u := by
  rw [val_main_v3_apply, val_main_v0_apply, val_main_v2_apply, val_main_v1_apply]
  have e1 : ∀ k : Fin 1024, lidx_main_v0 (ix2 b u) k = ix2 b k := fun k =>
    funext fun a => Fin.ext (by match a with | ⟨0, _⟩ => rfl | ⟨1, _⟩ => rfl)
  have e2 : ∀ k : Fin 1024, ridx_main_v0 (ix2 b u) k = ix2 k u := fun k =>
    funext fun a => Fin.ext (by match a with | ⟨0, _⟩ => rfl | ⟨1, _⟩ => rfl)
  have e3 : idx_main_v1 (idx_main_v2 (ix2 b u)) = ix1 u :=
    funext fun a => Fin.ext (by match a with | ⟨0, _⟩ => rfl)
  simp only [e1, e2, e3, Ideal.addf_def]
  rfl

/-- The score stage at (b, s, u): the projection at (b, u) times the encoder entry at (b, s, u). -/
theorem score_at (b : Fin 32) (s : Fin 2048) (u : Fin 1024) :
    val_main_v6 (F := Ideal) x0 x1 x2 x3 (ix3 b s u) = scoreA x0 x1 x2 x3 b u s := by
  rw [val_main_v6_apply, val_main_v5_apply, val_main_v4_apply]
  have e : idx_main_v4 (idx_main_v5 (ix3 b s u)) = ix2 b u :=
    funext fun a => Fin.ext (by match a with | ⟨0, _⟩ => rfl | ⟨1, _⟩ => rfl)
  rw [e, proj_at, Ideal.mulf_def]
  rfl

/-- The reduced index (b, u) with sequence position k put back on the middle axis is (b, k, u). -/
theorem lift_at (h : S32x2048x1024.Reduces [1] S32x1024) (b : Fin 32) (u : Fin 1024) (k : Fin (S32x2048x1024.size 1)) :
    h.lift (ix2 b u) k = ix3 b (⟨k.val, k.isLt⟩ : Fin 2048) u := by
  funext c
  apply Fin.ext
  match c with
  | ⟨0, _⟩ => rfl
  | ⟨1, _⟩ => rfl
  | ⟨2, _⟩ => rfl

/-- The maximum stage at (b, u): -∞ joined with the maximum over the sequence of the scores of column (b, u). -/
theorem max_at (b : Fin 32) (u : Fin 1024) :
    val_main_v9 (F := Ideal) x0 x1 x2 x3 (ix2 b u) = rMax (scoreA x0 x1 x2 x3 b u) := by
  have h : S32x2048x1024.Reduces [1] S32x1024 := by decide
  rw [val_main_v9_apply, val_main_v8_apply, val_main_cst_0_apply]
  unfold val_main_v7
  rw [Host.reduce_eq_fold_single (FloatOps.maximumf (F := Ideal) (φ := .f32)) _ _ reducesTo_S32x2048x1024_S32x1024_d1 h h_S_,
    val_main_cst_apply, Ideal.ofBits_def, ofBits_negInf]
  have hf : (val_main_v6 (F := Ideal) x0 x1 x2 x3 ∘ h.lift (ix2 b u)) = fun k : Fin 2048 => scoreA x0 x1 x2 x3 b u k :=
    funext fun k => (congrArg (val_main_v6 (F := Ideal) x0 x1 x2 x3) (lift_at h b u k)).trans (score_at x0 x1 x2 x3 b _ u)
  exact congrArg (fun f => max (⊥ : EReal) (Finset.fold max ⊥ f (Finset.univ : Finset (Fin 2048)))) hf

/-- The exponential stage at (b, s, u): exp of the score less the maximum of its column. -/
theorem p_at (b : Fin 32) (s : Fin 2048) (u : Fin 1024) :
    val_main_v13 (F := Ideal) x0 x1 x2 x3 (ix3 b s u) = rP (scoreA x0 x1 x2 x3 b u) s := by
  rw [val_main_v13_apply, val_main_v12_apply, val_main_v11_apply, val_main_v10_apply]
  have e : idx_main_v10 (idx_main_v11 (ix3 b s u)) = ix2 b u :=
    funext fun a => Fin.ext (by match a with | ⟨0, _⟩ => rfl | ⟨1, _⟩ => rfl)
  rw [e, score_at, max_at, Ideal.hostUnary_exp_def, Ideal.subf_def]
  rfl

/-- The denominator stage at (b, u): zero plus the sum over the sequence of the unnormalised weights. -/
theorem l_at (b : Fin 32) (u : Fin 1024) :
    val_main_v14 (F := Ideal) x0 x1 x2 x3 (ix2 b u) = rL (scoreA x0 x1 x2 x3 b u) := by
  rw [val_main_v14_apply, val_main_cst_1_apply, Ideal.ofBits_def, Ideal.ofBits_zero_f32]
  have e : ∀ k : Fin 2048, idx_main_v14 (ix2 b u) k = ix3 b k u := fun k =>
    funext fun a => Fin.ext (by match a with | ⟨0, _⟩ => rfl | ⟨1, _⟩ => rfl | ⟨2, _⟩ => rfl)
  simp only [e, p_at]
  rfl

/-- The weight stage at (b, s, u): the unnormalised weight over the denominator of its column. -/
theorem aw_at (b : Fin 32) (s : Fin 2048) (u : Fin 1024) :
    val_main_v17 (F := Ideal) x0 x1 x2 x3 (ix3 b s u) = rAw (scoreA x0 x1 x2 x3 b u) s := by
  rw [val_main_v17_apply, val_main_v16_apply, val_main_v15_apply]
  have e : idx_main_v15 (idx_main_v16 (ix3 b s u)) = ix2 b u :=
    funext fun a => Fin.ext (by match a with | ⟨0, _⟩ => rfl | ⟨1, _⟩ => rfl)
  rw [e, p_at, l_at, Ideal.hostDivf_def]
  rfl

/-- The context stage at (b, u): zero plus the sum over the sequence of weight times encoder entry. -/
theorem ctx_at (b : Fin 32) (u : Fin 1024) :
    val_main_v19 (F := Ideal) x0 x1 x2 x3 (ix2 b u) = rCtx (scoreA x0 x1 x2 x3 b u) (valA x1 b u) := by
  rw [val_main_v19_apply, val_main_cst_2_apply, Ideal.ofBits_def, Ideal.ofBits_zero_f32]
  have e : ∀ k : Fin 2048, idx_main_v19 (ix2 b u) k = ix3 b k u := fun k =>
    funext fun a => Fin.ext (by match a with | ⟨0, _⟩ => rfl | ⟨1, _⟩ => rfl | ⟨2, _⟩ => rfl)
  simp only [e, val_main_v18_apply, aw_at, Ideal.mulf_def]
  rfl

/-- The reference's first result is the specification's context array. -/
theorem ctx_eq : val_main_v19 (F := Ideal) x0 x1 x2 x3 = rCtxA x0 x1 x2 x3 := by
  funext i
  obtain ⟨b, u, rfl⟩ : ∃ (b : Fin 32) (u : Fin 1024), i = ix2 b u := ⟨i 0, i 1, eq_ix2 i⟩
  rw [ctx_at]
  rfl

/-- The reference's second result is the specification's weight array. -/
theorem aw_eq : val_main_v17 (F := Ideal) x0 x1 x2 x3 = rAwA x0 x1 x2 x3 := by
  funext i
  obtain ⟨b, s, u, rfl⟩ : ∃ (b : Fin 32) (s : Fin 2048) (u : Fin 1024), i = ix3 b s u := ⟨i 0, i 1, i 2, eq_ix3 i⟩
  rw [aw_at]
  rfl

/-- Every weakly fair execution of the reference terminates with its two results at the specification's context and
    weight arrays of the arguments, and the arguments unchanged. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v19)
          = rCtxA (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_v17)
          = rAwA (m ((c.tc : Thread nD τ).loc main_arg0)) (m ((c.tc : Thread nD τ).loc main_arg1))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun _ h c =>
      ⟨(h c).1.trans ((val_main_v19_eq (F := Ideal) _ _ _ _).trans (ctx_eq _ _ _ _)),
       (h c).2.1.trans ((val_main_v17_eq (F := Ideal) _ _ _ _).trans (aw_eq _ _ _ _)),
       (h c).2.2⟩)
    (Cert.ReferenceIdeal.Value.run (F := Ideal) m ρ)

end Cert.ReferenceIdeal.RefValue

end
-- ==== Proof.Math1.lean ====
/-
  Elementary facts used to compare the tiled pass with the one-pass reference: the coercion of real sums, the first
  64·n positions as a finite set and how it grows by one tile, and the rescaling identity
  exp (m_old - m_new) · Σ exp (x s - m_old) = Σ exp (x s - m_new).
-/
import Mathlib
import Idealize.ShloMosaic.PureOps.Ideal
import proofs.«155699_j19834158973688_2_alg».proof.Proof.Spec

noncomputable section

open scoped BigOperators

namespace Cert.Attn

open Idealize.ShloMosaic Idealize.ShloMosaic.ValueIdx

/-- The coercion ℝ → EReal commutes with finite sums. -/
theorem coe_sum {ι : Type} (T : Finset ι) (f : ι → ℝ) :
    ((∑ i ∈ T, f i : ℝ) : EReal) = ∑ i ∈ T, (f i : EReal) := by
  classical
  induction T using Finset.induction_on with
  | empty => simp
  | insert a s ha ih => rw [Finset.sum_insert ha, Finset.sum_insert ha, EReal.coe_add, ih]

/-- The iterated maximum starting from -∞ is the finite supremum. -/
theorem fold_max_eq_sup {ι : Type} (T : Finset ι) (f : ι → EReal) : T.fold max ⊥ f = T.sup f := rfl

/-- The supremum of finitely many (at least one) reals is a real. -/
theorem sup_real {ι : Type} (T : Finset ι) (hT : T.Nonempty) (x : ι → EReal) (hx : Fin' x) :
    ∃ r : ℝ, T.sup x = (r : EReal) := by
  obtain ⟨i, -, hi⟩ := Finset.exists_mem_eq_sup T hT x
  obtain ⟨r, hr⟩ := hx i
  exact ⟨r, hi.trans hr⟩

/-- The first 64 · n positions of the sequence. -/
def S (n : ℕ) : Finset (Fin 2048) := Finset.univ.filter (fun s => s.val < 64 * n)

theorem S_zero : S 0 = ∅ := by
  ext s; simp [S]

theorem S_full : S 32 = Finset.univ := by
  ext s
  have := s.isLt
  simp only [S, Finset.mem_filter, Finset.mem_univ, true_and, iff_true]
  omega

theorem S_nonempty (n : ℕ) (hn : 1 ≤ n) : (S n).Nonempty := by
  refine ⟨⟨0, by omega⟩, ?_⟩
  simp only [S, Finset.mem_filter, Finset.mem_univ, true_and]
  omega

theorem pos_inj (k : Fin 32) : Function.Injective (pos k) := by
  intro a b hab
  have := congrArg Fin.val hab
  simp only [pos] at this
  exact Fin.ext (by omega)

/-- The first n + 1 tiles are the first n tiles together with tile n. -/
theorem S_succ (n : ℕ) (h : n + 1 ≤ 32) : S (n + 1) = S n ∪ Finset.univ.image (pos ⟨n, h⟩) := by
  ext s
  simp only [S, Finset.mem_filter, Finset.mem_univ, true_and, Finset.mem_union, Finset.mem_image]
  constructor
  · intro hs
    by_cases h1 : s.val < 64 * n
    · exact Or.inl h1
    · refine Or.inr ⟨⟨s.val - 64 * n, by omega⟩, ?_⟩
      apply Fin.ext
      simp only [pos]
      omega
  · rintro (h1 | ⟨j, rfl⟩)
    · omega
    · have := j.isLt
      simp only [pos]
      omega

theorem sum_S_succ {M : Type} [AddCommMonoid M] (n : ℕ) (h : n + 1 ≤ 32) (f : Fin 2048 → M) :
    ∑ s ∈ S (n + 1), f s = ∑ s ∈ S n, f s + ∑ j : Fin 64, f (pos ⟨n, h⟩ j) := by
  rw [S_succ n h, Finset.sum_union, Finset.sum_image]
  · intro a _ b _ hab
    exact pos_inj _ hab
  · rw [Finset.disjoint_left]
    intro s hs hs'
    simp only [S, Finset.mem_filter, Finset.mem_univ, true_and] at hs
    obtain ⟨j, -, rfl⟩ := Finset.mem_image.mp hs'
    simp only [pos] at hs
    omega

theorem sup_S_succ (n : ℕ) (h : n + 1 ≤ 32) (f : Fin 2048 → EReal) :
    max ((S n).sup f) (Finset.univ.sup (fun j => f (pos ⟨n, h⟩ j))) = (S (n + 1)).sup f := by
  rw [S_succ n h, Finset.sup_union, Finset.sup_image]
  rfl

/-- Rescaling a sum of exponentials from one reference point to another, over the reals. -/
theorem rescale_coe {ι : Type} (T : Finset ι) (X : ι → ℝ) (mo mn : ℝ) :
    Ideal.exp ((mo : EReal) - (mn : EReal)) * ∑ s ∈ T, Ideal.exp ((X s : EReal) - (mo : EReal))
      = ∑ s ∈ T, Ideal.exp ((X s : EReal) - (mn : EReal)) := by
  simp only [← EReal.coe_sub, Ideal.exp_coe, ← coe_sum, ← EReal.coe_mul]
  congr 1
  rw [Finset.mul_sum]
  refine Finset.sum_congr rfl (fun s _ => ?_)
  rw [← Real.exp_add]
  congr 1
  ring

/-- The same with a real weight on every term. -/
theorem rescale_coe_w {ι : Type} (T : Finset ι) (X W : ι → ℝ) (mo mn : ℝ) :
    Ideal.exp ((mo : EReal) - (mn : EReal)) * ∑ s ∈ T, Ideal.exp ((X s : EReal) - (mo : EReal)) * (W s : EReal)
      = ∑ s ∈ T, Ideal.exp ((X s : EReal) - (mn : EReal)) * (W s : EReal) := by
  simp only [← EReal.coe_sub, Ideal.exp_coe, ← EReal.coe_mul, ← coe_sum]
  congr 1
  rw [Finset.mul_sum]
  refine Finset.sum_congr rfl (fun s _ => ?_)
  rw [← mul_assoc, ← Real.exp_add]
  congr 2
  ring

/-- Rescaling for entries known to be real and real reference points. -/
theorem rescale {ι : Type} (T : Finset ι) (x : ι → EReal) (hx : Fin' x) (mo mn : EReal)
    (hmo : ∃ r : ℝ, mo = (r : EReal)) (hmn : ∃ r : ℝ, mn = (r : EReal)) :
    Ideal.exp (mo - mn) * ∑ s ∈ T, Ideal.exp (x s - mo) = ∑ s ∈ T, Ideal.exp (x s - mn) := by
  choose X hX using hx
  obtain rfl : x = fun s => (X s : EReal) := funext hX
  obtain ⟨ro, rfl⟩ := hmo
  obtain ⟨rn, rfl⟩ := hmn
  exact rescale_coe T X ro rn

theorem rescale_w {ι : Type} (T : Finset ι) (x e : ι → EReal) (hx : Fin' x) (he : Fin' e) (mo mn : EReal)
    (hmo : ∃ r : ℝ, mo = (r : EReal)) (hmn : ∃ r : ℝ, mn = (r : EReal)) :
    Ideal.exp (mo - mn) * ∑ s ∈ T, Ideal.exp (x s - mo) * e s = ∑ s ∈ T, Ideal.exp (x s - mn) * e s := by
  choose X hX using hx
  obtain rfl : x = fun s => (X s : EReal) := funext hX
  choose E hE using he
  obtain rfl : e = fun s => (E s : EReal) := funext hE
  obtain ⟨ro, rfl⟩ := hmo
  obtain ⟨rn, rfl⟩ := hmn
  exact rescale_coe_w T X E ro rn

end Cert.Attn

end
-- ==== Proof.Math2.lean ====
/-
  The tiled pass computes the same softmax weights and context as the one-pass reference.

  Invariant: after n tiles the running maximum is the supremum m_n of the first 64·n scores, the denominator is
  Σ exp (x s - m_n) and the numerator Σ exp (x s - m_n) · e s over those positions. One more tile rescales both sums by
  exp (m_n - m_{n+1}), which moves every term's reference point from m_n to m_{n+1}, and adds the new tile's terms.
  After the last tile m is the global maximum M, so a / l and exp (x s) · (exp (0 - M) / l) are the reference's
  context and weights.
-/
import Mathlib
import Idealize.ShloMosaic.PureOps.Ideal
import proofs.«155699_j19834158973688_2_alg».proof.Proof.Spec
import proofs.«155699_j19834158973688_2_alg».proof.Proof.Math1

noncomputable section

open scoped BigOperators

namespace Cert.Attn

open Idealize.ShloMosaic Idealize.ShloMosaic.ValueIdx

/-- The state after n tiles, in closed form. -/
theorem after_eq (x e : Fin 2048 → EReal) (hx : Fin' x) (he : Fin' e) : ∀ (n : ℕ) (h : n ≤ 32),
    St.after x e n h =
      ⟨(S n).sup x, ∑ s ∈ S n, Ideal.exp (x s - (S n).sup x), ∑ s ∈ S n, Ideal.exp (x s - (S n).sup x) * e s⟩
  | 0, _ => by
    simp only [St.after, St.init, S_zero, Finset.sup_empty, Finset.sum_empty]
  | n + 1, h => by
    rw [St.after, after_eq x e hx he n (Nat.le_of_succ_le h)]
    simp only [St.step, fold_max_eq_sup]
    rw [sup_S_succ n h x, sum_S_succ n h, sum_S_succ n h, St.mk.injEq]
    refine ⟨rfl, ?_, ?_⟩
    · congr 1
      rcases Nat.eq_zero_or_pos n with rfl | hn
      · simp only [S_zero, Finset.sum_empty, mul_zero]
      · exact rescale (S n) x hx _ _ (sup_real _ (S_nonempty n hn) x hx)
          (sup_real _ (S_nonempty (n + 1) (by omega)) x hx)
    · congr 1
      rcases Nat.eq_zero_or_pos n with rfl | hn
      · simp only [S_zero, Finset.sum_empty, mul_zero]
      · exact rescale_w (S n) x e hx he _ _ (sup_real _ (S_nonempty n hn) x hx)
          (sup_real _ (S_nonempty (n + 1) (by omega)) x hx)

/-- The state after all 32 tiles. -/
theorem after_full (x e : Fin 2048 → EReal) (hx : Fin' x) (he : Fin' e) :
    St.after x e 32 le_rfl =
      ⟨Finset.univ.sup x, ∑ s, Ideal.exp (x s - Finset.univ.sup x), ∑ s, Ideal.exp (x s - Finset.univ.sup x) * e s⟩ := by
  have h := after_eq x e hx he 32 le_rfl
  rwa [S_full] at h

theorem kAw_eq (x e : Fin 2048 → EReal) (hx : Fin' x) (he : Fin' e) (s : Fin 2048) : kAw x e s = rAw x s := by
  obtain ⟨R, hR⟩ := sup_real Finset.univ Finset.univ_nonempty x hx
  simp only [kAw, kCoef, rAw, rP, rL, rMax, after_full x e hx he, fold_max_eq_sup, hR, zero_add]
  rw [max_eq_right bot_le]
  choose X hX using hx
  obtain rfl : x = fun s => (X s : EReal) := funext hX
  have hL : (∑ s, Ideal.exp ((X s : EReal) - (R : EReal))) = ((∑ s, Real.exp (X s - R) : ℝ) : EReal) := by
    simp only [← EReal.coe_sub, Ideal.exp_coe, ← coe_sum]
  have hpos : (0 : ℝ) < ∑ s, Real.exp (X s - R) :=
    Finset.sum_pos (fun s _ => Real.exp_pos _) Finset.univ_nonempty
  simp only [hL]
  rw [Ideal.div_coe hpos.ne', Ideal.div_coe hpos.ne', ← EReal.coe_zero]
  simp only [← EReal.coe_sub, Ideal.exp_coe, ← EReal.coe_mul]
  rw [EReal.coe_eq_coe_iff, ← mul_assoc, ← Real.exp_add]
  have hxs : X s + (0 - R) = X s - R := by ring
  rw [hxs]

theorem kCtx_eq (x e : Fin 2048 → EReal) (hx : Fin' x) (he : Fin' e) : kCtx x e = rCtx x e := by
  obtain ⟨R, hR⟩ := sup_real Finset.univ Finset.univ_nonempty x hx
  simp only [kCtx, rCtx, rAw, rP, rL, rMax, after_full x e hx he, fold_max_eq_sup, hR, zero_add]
  rw [max_eq_right bot_le]
  choose X hX using hx
  obtain rfl : x = fun s => (X s : EReal) := funext hX
  choose E hE using he
  obtain rfl : e = fun s => (E s : EReal) := funext hE
  have hL : (∑ s, Ideal.exp ((X s : EReal) - (R : EReal))) = ((∑ s, Real.exp (X s - R) : ℝ) : EReal) := by
    simp only [← EReal.coe_sub, Ideal.exp_coe, ← coe_sum]
  have hpos : (0 : ℝ) < ∑ s, Real.exp (X s - R) :=
    Finset.sum_pos (fun s _ => Real.exp_pos _) Finset.univ_nonempty
  simp only [hL]
  simp only [Ideal.div_coe hpos.ne']
  simp only [← EReal.coe_sub, Ideal.exp_coe, ← EReal.coe_mul, ← coe_sum]
  rw [EReal.coe_eq_coe_iff, Finset.sum_mul]
  refine Finset.sum_congr rfl (fun s _ => ?_)
  ring

/-- The dense projection of real arrays is real. -/
theorem projA_real (h : ArrH) (w : ArrW) (bias : ArrB) (hh : Fin' h) (hw : Fin' w) (hb : Fin' bias)
    (b : Fin 32) (u : Fin 1024) : ∃ r : ℝ, projA h w bias b u = (r : EReal) := by
  choose H hH using hh
  choose W hW using hw
  choose B hB using hb
  refine ⟨(∑ k : Fin 1024, H (ix2 b k) * W (ix2 k u)) + B (ix1 u), ?_⟩
  simp only [projA, hH, hW, hB, EReal.coe_add, coe_sum, EReal.coe_mul]

theorem scoreA_fin (h : ArrH) (e : ArrE) (w : ArrW) (bias : ArrB) (hh : Fin' h) (he : Fin' e) (hw : Fin' w)
    (hb : Fin' bias) (b : Fin 32) (u : Fin 1024) : Fin' (scoreA h e w bias b u) := by
  intro s
  obtain ⟨p, hp⟩ := projA_real h w bias hh hw hb b u
  obtain ⟨r, hr⟩ := he (ix3 b s u)
  exact ⟨p * r, by simp only [scoreA, hp, hr, EReal.coe_mul]⟩

theorem valA_fin (e : ArrE) (he : Fin' e) (b : Fin 32) (u : Fin 1024) : Fin' (valA e b u) :=
  fun s => he (ix3 b s u)

theorem kAwA_eq (h : ArrH) (e : ArrE) (w : ArrW) (bias : ArrB) (hh : Fin' h) (he : Fin' e) (hw : Fin' w)
    (hb : Fin' bias) : kAwA h e w bias = rAwA h e w bias := by
  funext i
  exact kAw_eq _ _ (scoreA_fin h e w bias hh he hw hb (i 0) (i 2)) (valA_fin e he (i 0) (i 2)) (i 1)

theorem kCtxA_eq (h : ArrH) (e : ArrE) (w : ArrW) (bias : ArrB) (hh : Fin' h) (he : Fin' e) (hw : Fin' w)
    (hb : Fin' bias) : kCtxA h e w bias = rCtxA h e w bias := by
  funext i
  exact kCtx_eq _ _ (scoreA_fin h e w bias hh he hw hb (i 0) (i 1)) (valA_fin e he (i 0) (i 1))

end Cert.Attn

end
-- ==== Proof.Finite.lean ====
/-
  From the precondition to finiteness. The precondition says, of each of the four argument arrays, that every entry x
  satisfies |x| < +∞ (the conjunction of four "all" reductions is 1). Over the extended reals |x| = max x (-x), and
  max x (-x) < ⊤ excludes both infinities, so every entry is a real number.
-/
import proofs.«155699_j19834158973688_2_alg».proof.Defs
import proofs.«155699_j19834158973688_2_alg».proof.Proof.Spec
import Idealize.ShloMosaic.Lib.ReduceAll
import Idealize.ShloMosaic.Lib.ValueIdx

noncomputable section

namespace Cert.Attn.Finite

open Idealize.ShloMosaic Idealize.SL.Sem Idealize.ShloMosaic.ValueIdx Cert.Attn

/-- The scalar shape has one index. -/
instance : Subsingleton (⟨0, ![]⟩ : Shape).Idx := ⟨fun a b => funext fun d => d.elim0⟩

/-- An extended real whose absolute value max x (-x) is below +∞ is a real number. -/
theorem real_of_abs_lt_inf (x : Ideal .f32)
    (h : FloatOps.cmpf .olt (FloatOps.hostAbsf x) (FloatOps.ofBits (F := Ideal) .f32 0x7F800000#32) = 1#1) :
    ∃ r : ℝ, (x : EReal) = (r : EReal) := by
  have htop : Ideal.ofBits .f32 0x7F800000#32 = (⊤ : EReal) := by simp [Ideal.ofBits, Ideal.ieee]
  change Ideal.cmp .olt (max (x : EReal) (-(x : EReal))) (Ideal.ofBits .f32 0x7F800000#32) = 1#1 at h
  rw [htop] at h
  unfold Ideal.cmp at h
  induction x using EReal.rec with
  | bot => simp at h
  | coe r => exact ⟨r, rfl⟩
  | top => simp at h

/-- An array all of whose entries pass the test |x| < +∞ has only real entries. -/
theorem fin_of_all {s : Shape} {axes : List (Fin s.rank)} (x : FVec Ideal s .f32)
    (hb : (⟨0, ![]⟩ : Shape).BroadcastsInDim s (![] : Fin 0 → Fin s.rank)) (hr : s.ReducesTo axes (⟨0, ![]⟩ : Shape))
    (hu : 0 < (⟨0, ![]⟩ : Shape).numel)
    (e : Host.reduce IntOp.andi (cmpf .olt (Host.absf x) (broadcastInDim s ![] hb (constant (⟨0, ![]⟩ : Shape) .f32 0x7F800000#32)))
      (constantI (⟨0, ![]⟩ : Shape) 1 1#1) hr hu ix0 = 1#1) : Fin' x := by
  intro i
  have hi := Host.reduce_andi_all _ _ hr hu ix0 e i
  exact real_of_abs_lt_inf (x i) hi

/-- Under the precondition every entry of each of the four argument arrays is a real number. -/
theorem fin_of_pre [Cert.KernelIdeal.Facts] [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    Fin' (m ((c.tc : Thread Cert.KernelIdeal.nD Cert.KernelIdeal.τ).loc Cert.KernelIdeal.main_arg0))
      ∧ Fin' (m ((c.tc : Thread Cert.KernelIdeal.nD Cert.KernelIdeal.τ).loc Cert.KernelIdeal.main_arg1))
      ∧ Fin' (m ((c.tc : Thread Cert.KernelIdeal.nD Cert.KernelIdeal.τ).loc Cert.KernelIdeal.main_arg2))
      ∧ Fin' (m ((c.tc : Thread Cert.KernelIdeal.nD Cert.KernelIdeal.τ).loc Cert.KernelIdeal.main_arg3)) := by
  have e := congrFun (h c) ix0
  dsimp only [Cert.Pre_finite_inputs.fn, Cert.Pre_finite_inputs.fn_part1] at e
  obtain ⟨e012, e3⟩ := IntOp.andi_eq_one.1 e
  obtain ⟨e01, e2⟩ := IntOp.andi_eq_one.1 e012
  obtain ⟨e0, e1⟩ := IntOp.andi_eq_one.1 e01
  exact ⟨fin_of_all _ _ _ _ e0, fin_of_all _ _ _ _ e1, fin_of_all _ _ _ _ e2, fin_of_all _ _ _ _ e3⟩

end Cert.Attn.Finite

end
-- ==== Proof.lean ====
/-
  Luong-style attention with a dense projection, kernel against reference, over the extended reals.

  Both programs take H [32, 1024], EO [32, 2048, 1024], W [1024, 1024] and a bias [1024]. With
  p(b, u) = Σ_k H(b, k) · W(k, u) + bias(u) and the scores x(b, s, u) = p(b, u) · EO(b, s, u), the reference returns
  the softmax weights over the sequence axis s, exp (x - M) / Σ_s exp (x - M) with M = max_s x, and the context
  Σ_s weight · EO. The kernel computes p in one matrix product, then walks the sequence in 32 tiles of 64 positions
  per batch half keeping a running maximum m, denominator l and numerator a (each rescaled by exp (m_old - m_new)
  when the maximum moves), emits a / l and the coefficient exp (0 - m) / l at the last tile, and in a third pass the
  weights as exp (x) · coefficient.

  Under the precondition every input entry is a real number, so every score is real, every exponential is a positive
  real and the denominators are positive reals: the tiled recurrence telescopes to the reference's sums (the rescaling
  is exp (m_old - m_new) · exp (x - m_old) = exp (x - m_new)), a / l is the reference's Σ (exp (x - M) / L) · EO by
  distributing the division over the finite sum, and exp (x) · (exp (0 - M) / L) = exp (x - M) / L.

  The three frames: the kernel program, at both readings, is run region by region — the projection, a host broadcast,
  the statistics pass whose three scratch buffers carry the running state across the 32 tiles of a batch half, the
  weights pass — and every argument array is only ever read; the reference is a straight line of host operations.
  The idealization rewrote nothing, so the preservation claim has no conjunct.
-/
import proofs.«155699_j19834158973688_2_alg».proof.Defs
import proofs.«155699_j19834158973688_2_alg».proof.Proof.Gen.Kernel
import proofs.«155699_j19834158973688_2_alg».proof.Proof.Gen.KernelIdeal
import proofs.«155699_j19834158973688_2_alg».proof.Proof.Gen.ReferenceIdeal
import proofs.«155699_j19834158973688_2_alg».proof.Proof.Gen.Pre_finite_inputs
import proofs.«155699_j19834158973688_2_alg».proof.Proof.K_Run
import proofs.«155699_j19834158973688_2_alg».proof.Proof.KI_Run
import proofs.«155699_j19834158973688_2_alg».proof.Proof.KVrun
import proofs.«155699_j19834158973688_2_alg».proof.Proof.KV1
import proofs.«155699_j19834158973688_2_alg».proof.Proof.RefValue
import proofs.«155699_j19834158973688_2_alg».proof.Proof.Math2
import proofs.«155699_j19834158973688_2_alg».proof.Proof.Finite

noncomputable section

namespace Cert.Proof

open Idealize.ShloMosaic Idealize.SL.Sem

/-- The kernel program, read at the machine's words, runs and leaves its arguments as found. -/
theorem frame_k : Cert.frame_Kernel := fun m ρ _ => Cert.Kernel.Fr.frame m ρ

/-- The same program read over the extended reals. -/
theorem frame_ki : Cert.frame_KernelIdeal := fun m ρ _ => Cert.KernelIdeal.Fr.frame m ρ

/-- The reference runs and leaves its arguments as found: its run with the two results dropped. -/
theorem frame_ri : Cert.frame_ReferenceIdeal := fun m ρ _ =>
  (θ_run Cert.ReferenceIdeal.defs _ _).mono (fun _ h c => (h c).2.2) (Cert.ReferenceIdeal.RefValue.run m ρ)

/-- The idealization rewrote no operation. -/
theorem preserves : Cert.preserves_Kernel_KernelIdeal := trivial

/-- From memories agreeing on the four arguments, all of whose entries are real, the kernel's context and weights are the
    tiled forms of the argument arrays, the reference's are the plain forms, and the two forms are one function. -/
theorem algebraic : Cert.algebraic_KernelIdeal_ReferenceIdeal := by
  intro m ρ m' ρ' hpre hagree
  refine ⟨_, _, Cert.KernelIdeal.Val.run_of m ρ (fun V c P a1 hv1 he => Cert.KernelIdeal.Val.final1 V c P a1 hv1 he), ?_⟩
  refine (θ_run Cert.ReferenceIdeal.defs _ _).mono (fun _ h c => ?_) (Cert.ReferenceIdeal.RefValue.run m' ρ')
  obtain ⟨hctx, haw, hargs⟩ := h c
  obtain ⟨e0, e1, e2, e3⟩ := hagree c
  obtain ⟨f0, f1, f2, f3⟩ := Cert.Attn.Finite.fin_of_pre m hpre c
  refine ⟨?_, ?_, hargs⟩
  · rw [hctx, e0, e1, e2, e3]
    exact (Cert.Attn.kCtxA_eq _ _ _ _ f0 f1 f2 f3).symm
  · rw [haw, e0, e1, e2, e3]
    exact (Cert.Attn.kAwA_eq _ _ _ _ f0 f1 f2 f3).symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
